-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_9" .f32 0x3DE38E39#32 ((1 / 9 : ℝ) : EReal)
  ∧ IdealRules.named_const.Statement Cert.KernelIdeal.κ "inv_9" .f32 0x3DE38E39#32 ((1 / 9 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x1280x1280 : Shape := ⟨3, ![3, 1280, 1280]⟩
abbrev S_ : Shape := ⟨0, ![]⟩

class Facts : Prop where
  bcast_S_S3x1280x1280 : S_.BroadcastsInDim S3x1280x1280 (![] : Fin 0 → Fin S3x1280x1280.rank)
  reducesTo_S3x1280x1280_S_d0_1_2 : S3x1280x1280.ReducesTo [0, 1, 2] S_
  h_S_ : 0 < S_.numel

variable [Facts]

def fn {F : FTy → Type} [FloatOps F] (main_arg0 : FVec F S3x1280x1280 .f32) : IVec S_ 1 :=
  let main_v0 : FVec F S3x1280x1280 .f32 := Host.absf main_arg0
  let main_cst : FVec F S_ .f32 := constant S_ .f32 0x7F800000#32
  let main_v1 : FVec F S3x1280x1280 .f32 := broadcastInDim S3x1280x1280 ![] bcast_S_S3x1280x1280 main_cst
  let main_v2 : IVec S3x1280x1280 1 := cmpf .olt main_v0 main_v1
  let main_c : IVec S_ 1 := constantI S_ 1 1#1
  let main_v3 : IVec S_ 1 := (fun x v => Host.reduce IntOp.andi x v reducesTo_S3x1280x1280_S_d0_1_2 h_S_) main_v2 main_c
  main_v3
-- ==== Kernel.lean ====
abbrev S3x1280x1280 : Shape := ⟨3, ![3, 1280, 1280]⟩
abbrev S3x80x16x80x16 : Shape := ⟨5, ![3, 80, 16, 80, 16]⟩
abbrev S80x80x3x16x16 : Shape := ⟨5, ![80, 80, 3, 16, 16]⟩
abbrev S6400x3x256 : Shape := ⟨3, ![6400, 3, 256]⟩
abbrev S6400x3x3 : Shape := ⟨3, ![6400, 3, 3]⟩
abbrev S_ : Shape := ⟨0, ![]⟩
abbrev S6400x9 : Shape := ⟨2, ![6400, 9]⟩
abbrev S6400x128 : Shape := ⟨2, ![6400, 128]⟩
abbrev S40x128 : Shape := ⟨2, ![40, 128]⟩
abbrev S1280x128 : Shape := ⟨2, ![1280, 128]⟩
abbrev S8x128 : Shape := ⟨2, ![8, 128]⟩
abbrev S128x1280 : Shape := ⟨2, ![128, 1280]⟩
abbrev S1280x1280 : Shape := ⟨2, ![1280, 1280]⟩
abbrev S1280 : Shape := ⟨1, ![1280]⟩
abbrev S1280x1 : Shape := ⟨2, ![1280, 1]⟩
abbrev S1x1280 : Shape := ⟨2, ![1, 1280]⟩
abbrev S1x1280x1280 : Shape := ⟨3, ![1, 1280, 1280]⟩
abbrev S1 : Shape := ⟨1, ![1]⟩
abbrev S1x1x1 : Shape := ⟨3, ![1, 1, 1]⟩
abbrev S1x1 : Shape := ⟨2, ![1, 1]⟩
abbrev S6400x6400 : Shape := ⟨2, ![6400, 6400]⟩
abbrev S1x6400x6400 : Shape := ⟨3, ![1, 6400, 6400]⟩

abbrev nBuf : Space → Nat
  | .hbm => 22
  | .vmem => 14
  | .smem => 0
  | _ => 0

abbrev bufTy : (tb : Table) → Fin (tcTables nBuf tb) → BufTy
  | .hbm, ⟨0, _⟩ => ⟨S3x1280x1280, .f32⟩
  | .hbm, ⟨1, _⟩ => ⟨S3x80x16x80x16, .f32⟩
  | .hbm, ⟨2, _⟩ => ⟨S80x80x3x16x16, .f32⟩
  | .hbm, ⟨3, _⟩ => ⟨S6400x3x256, .f32⟩
  | .hbm, ⟨4, _⟩ => ⟨S6400x3x3, .f32⟩
  | .hbm, ⟨5, _⟩ => ⟨S_, .f32⟩
  | .hbm, ⟨6, _⟩ => ⟨S6400x3x3, .f32⟩
  | .hbm, ⟨7, _⟩ => ⟨S6400x3x3, .f32⟩
  | .hbm, ⟨8, _⟩ => ⟨S6400x9, .f32⟩
  | .hbm, ⟨9, _⟩ => ⟨S_, .i32⟩
  | .hbm, ⟨10, _⟩ => ⟨S_, .f32⟩
  | .hbm, ⟨11, _⟩ => ⟨S6400x128, .f32⟩
  | .hbm, ⟨12, _⟩ => ⟨S40x128, .f32⟩
  | .hbm, ⟨13, _⟩ => ⟨S40x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S1x1, .f32⟩
  | .hbm, ⟨20, _⟩ => ⟨S6400x6400, .f32⟩
  | .hbm, ⟨21, _⟩ => ⟨S1x6400x6400, .f32⟩
  | .local _ .vmem, ⟨0, _⟩ => ⟨S1280x128, .f32⟩
  | .local _ .vmem, ⟨1, _⟩ => ⟨S1280x128, .f32⟩
  | .local _ .vmem, ⟨2, _⟩ => ⟨S6400x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S1280x128, .f32⟩
  | .local _ .vmem, ⟨8, _⟩ => ⟨S1280x128, .f32⟩
  | .local _ .vmem, ⟨9, _⟩ => ⟨S6400x128, .f32⟩
  | .local _ .vmem, ⟨10, _⟩ => ⟨S1x1, .f32⟩
  | .local _ .vmem, ⟨11, _⟩ => ⟨S1x1, .f32⟩
  | .local _ .vmem, ⟨12, _⟩ => ⟨S1280x1280, .f32⟩
  | .local _ .vmem, ⟨13, _⟩ => ⟨S1280x1280, .f32⟩
  | _, _ => ⟨S3x1280x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![5, 5], ![false, false]⟩

def k0_mult1 (i : grid0.Coords) : BitVec 32 :=
  let arg1 : BitVec 32 := BitVec.ofNat 32 (i 1).val
  let c1280_i32 : BitVec 32 := 1280#32
  let v2 : BitVec 32 := Scalar.muli arg1 c1280_i32
  v2
def k0_off1 (i : grid0.Coords) : Fin 2 → Nat :=
  let arg1 : BitVec 32 := BitVec.ofNat 32 (i 1).val
  let c1280_i32 : BitVec 32 := 1280#32
  let v2 : BitVec 32 := Scalar.muli arg1 c1280_i32
  let v3 : BitVec 32 := v2
  let v4 : Index := Scalar.indexCast v3
  let c0_1 : Index := 0#32
  ![v4.toNat, 0]
def k0_cond1 (i : grid0.Coords) : BitVec 1 :=
  let arg1 : BitVec 32 := BitVec.ofNat 32 (i 1).val
  let c0_i32 : BitVec 32 := 0#32
  let v33 : BitVec 1 := Scalar.cmpi .eq arg1 c0_i32
  let v34 : BitVec 32 := Scalar.extui v33
  let c0_i32_8 : BitVec 32 := 0#32
  let v35 : BitVec 1 := Scalar.cmpi .ne v34 c0_i32_8
  v35

def k0_cond2 (i : grid0.Coords) : BitVec 1 :=
  let arg1 : BitVec 32 := BitVec.ofNat 32 (i 1).val
  let c0_i32_9 : BitVec 32 := 0#32
  let v36 : BitVec 1 := Scalar.cmpi .ne arg1 c0_i32_9
  let v37 : BitVec 32 := Scalar.extui v36
  let c0_i32_10 : BitVec 32 := 0#32
  let v38 : BitVec 1 := Scalar.cmpi .ne v37 c0_i32_10
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S6400x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![5, 5], ![false, false]⟩

def k1_mult1 (i : grid1.Coords) : BitVec 32 :=
  let arg1 : BitVec 32 := BitVec.ofNat 32 (i 1).val
  let c1280_i32 : BitVec 32 := 1280#32
  let v2 : BitVec 32 := Scalar.muli arg1 c1280_i32
  v2
def k1_off1 (i : grid1.Coords) : Fin 2 → Nat :=
  let arg1 : BitVec 32 := BitVec.ofNat 32 (i 1).val
  let c1280_i32 : BitVec 32 := 1280#32
  let v2 : BitVec 32 := Scalar.muli arg1 c1280_i32
  let v3 : BitVec 32 := v2
  let v4 : Index := Scalar.indexCast v3
  let c0_1 : Index := 0#32
  ![v4.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1280x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S6400x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1280x1280 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S3x1280x1280_S3x80x16x80x16 : S3x1280x1280.ShapeCasts S3x80x16x80x16
  transposes_S3x80x16x80x16_S80x80x3x16x16_1_3_0_2_4 : S3x80x16x80x16.Transposes [1, 3, 0, 2, 4] S80x80x3x16x16
  shapeCasts_S80x80x3x16x16_S6400x3x256 : S80x80x3x16x16.ShapeCasts S6400x3x256
  bcast_S_S6400x3x3 : S_.BroadcastsInDim S6400x3x3 (![] : Fin 0 → Fin S6400x3x3.rank)
  shapeCasts_S6400x3x3_S6400x9 : S6400x3x3.ShapeCasts S6400x9
  pads_S6400x9_S6400x128_000_01190 : S6400x9.Pads (![0, 0] : Fin 2 → Nat) ![0, 119] ![0, 0] S6400x128
  h_S_ : 0 < S_.numel
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  transposes_S1280x128_p1_0_S128x1280 : S1280x128.Transposes [1, 0] S128x1280
  reduces_S1280x128_S1280 : S1280x128.Reduces [1] S1280
  shapeCasts_S1280_S1280x1 : S1280.ShapeCasts S1280x1
  shapeCasts_S1280_S1x1280 : S1280.ShapeCasts S1x1280
  broadcasts_S1280x1_S1280x1280 : S1280x1.Broadcasts S1280x1280
  broadcasts_S1x1280_S1280x1280 : S1x1280.Broadcasts S1280x1280
  shapeCasts_S1280x1280_S1x1280x1280 : S1280x1280.ShapeCasts S1x1280x1280
  reduces_S1x1280x1280_S1 : S1x1280x1280.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  reducesTo_S40x128_S_d0_1 : S40x128.ReducesTo [0, 1] S_
  shapeCasts_S_S1x1 : S_.ShapeCasts S1x1
  inb_S1x1_S1x1_0_0 : ∀ a, (![0, 0] : Fin 2 → Nat) a + S1x1.size a ≤ S1x1.size a
  h_S1x1 : 0 < S1x1.numel
  broadcasts_S1x1_S1280x1280 : S1x1.Broadcasts S1280x1280
  inb_S1280x1280_S1280x1280_0_0 : ∀ a, (![0, 0] : Fin 2 → Nat) a + S1280x1280.size a ≤ S1280x1280.size a
  h_S1280x1280 : 0 < S1280x1280.numel
  bcast_S6400x6400_S1x6400x6400_1_2 : S6400x6400.BroadcastsInDim S1x6400x6400 (![1, 2] : Fin 2 → Fin S1x6400x6400.rank)
  dot_S6400x3x256_S6400x3x256_S6400x3x3_2_2_1_1_0_0_wf : DotDims.WF S6400x3x256 S6400x3x256 S6400x3x3 [2] [2] [1] [1] [0] [0]
  dot_S1280x128_S128x1280_S1280x1280_1_0_0_1_n_n_wf : DotDims.WF S1280x128 S128x1280 S1280x1280 [1] [0] [0] [1] [] []
  hrank0 : 0 < grid0.rank
  k0_mult1_dvd : ∀ i : grid0.Coords, 8 ∣ (k0_mult1 i).toNat
  k0_off1_inb : ∀ i : grid0.Coords, ∀ a, (k0_off1 i) a + S1280x128.size a ≤ S6400x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x128.size a ≤ S6400x128.size a
  hwx0_0 : ∀ i : grid0.Coords, EltTy.bits .f32 = 32 ∨ (Rect.block (s := S6400x128) S1280x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S6400x128.size a
  hwx0_1 : ∀ i : grid0.Coords, EltTy.bits .f32 = 32 ∨ (Rect.block (s := S6400x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S40x128.size a
  hwx0_2 : ∀ i : grid0.Coords, EltTy.bits .f32 = 32 ∨ (Rect.block (s := S40x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S40x128.size a
  hwx0_3 : ∀ i : grid0.Coords, EltTy.bits .f32 = 32 ∨ (Rect.block (s := S40x128) S8x128.size (cc0_transform_3 i) (hinb0_3 i)).WholeWords (EltTy.packing .f32)
  hrank1 : 0 < grid1.rank
  k1_mult1_dvd : ∀ i : grid1.Coords, 8 ∣ (k1_mult1 i).toNat
  k1_off1_inb : ∀ i : grid1.Coords, ∀ a, (k1_off1 i) a + S1280x128.size a ≤ S6400x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x128.size a ≤ S6400x128.size a
  hwx1_0 : ∀ i : grid1.Coords, EltTy.bits .f32 = 32 ∨ (Rect.block (s := S6400x128) S1280x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S6400x128.size a
  hwx1_1 : ∀ i : grid1.Coords, EltTy.bits .f32 = 32 ∨ (Rect.block (s := S6400x128) S6400x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1280x1280.size a ≤ S6400x6400.size a
  hwx1_4 : ∀ i : grid1.Coords, EltTy.bits .f32 = 32 ∨ (Rect.block (s := S6400x6400) S1280x1280.size (cc1_transform_4 i) (hinb1_4 i)).WholeWords (EltTy.packing .f32)

variable [Facts₀]

def dot_S6400x3x256_S6400x3x256_S6400x3x3_2_2_1_1_0_0 : DotDims S6400x3x256 S6400x3x256 S6400x3x3 where
  lhsContracting := [2]
  rhsContracting := [2]
  lhsNonContracting := [1]
  rhsNonContracting := [1]
  lhsBatch := [0]
  rhsBatch := [0]
  wf := dot_S6400x3x256_S6400x3x256_S6400x3x3_2_2_1_1_0_0_wf
def dot_S1280x128_S128x1280_S1280x1280_1_0_0_1_n_n : DotDims S1280x128 S128x1280 S1280x1280 where
  lhsContracting := [1]
  rhsContracting := [0]
  lhsNonContracting := [0]
  rhsNonContracting := [1]
  lhsBatch := []
  rhsBatch := []
  wf := dot_S1280x128_S128x1280_S1280x1280_1_0_0_1_n_n_wf

abbrev win0_0 : Pipeline.Window sig grid0 :=
  Pipeline.Window.ofSpec (Memref.whole main_v7) S1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S6400x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun i => !(k0_cond1 i == 1#1) && !(k0_cond2 i == 1#1) | ⟨_ + 4, h⟩ => absurd h (Nat.not_lt.2 (Nat.le_add_left _ _))

abbrev win1_0 : Pipeline.Window sig grid1 :=
  Pipeline.Window.ofSpec (Memref.whole main_v7) S1280x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S6400x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1280x1280.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S3x1280x1280 : Shape := ⟨3, ![3, 1280, 1280]⟩
abbrev S3x80x16x80x16 : Shape := ⟨5, ![3, 80, 16, 80, 16]⟩
abbrev S80x80x3x16x16 : Shape := ⟨5, ![80, 80, 3, 16, 16]⟩
abbrev S6400x3x256 : Shape := ⟨3, ![6400, 3, 256]⟩
abbrev S6400x3x3 : Shape := ⟨3, ![6400, 3, 3]⟩
abbrev S_ : Shape := ⟨0, ![]⟩
abbrev S6400x9 : Shape := ⟨2, ![6400, 9]⟩
abbrev S6400 : Shape := ⟨1, ![6400]⟩
abbrev S9x6400 : Shape := ⟨2, ![9, 6400]⟩
abbrev S6400x6400 : Shape := ⟨2, ![6400, 6400]⟩
abbrev S6400x1 : Shape := ⟨2, ![6400, 1]⟩
abbrev S1x6400 : Shape := ⟨2, ![1, 6400]⟩
abbrev S1x6400x6400 : Shape := ⟨3, ![1, 6400, 6400]⟩

abbrev nBuf : Space → Nat
  | .hbm => 35
  | .vmem => 0
  | .smem => 0
  | _ => 0

abbrev bufTy : (tb : Table) → Fin (tcTables nBuf tb) → BufTy
  | .hbm, ⟨0, _⟩ => ⟨S3x1280x1280, .f32⟩
  | .hbm, ⟨1, _⟩ => ⟨S3x80x16x80x16, .f32⟩
  | .hbm, ⟨2, _⟩ => ⟨S80x80x3x16x16, .f32⟩
  | .hbm, ⟨3, _⟩ => ⟨S6400x3x256, .f32⟩
  | .hbm, ⟨4, _⟩ => ⟨S6400x3x3, .f32⟩
  | .hbm, ⟨5, _⟩ => ⟨S_, .f32⟩
  | .hbm, ⟨6, _⟩ => ⟨S6400x3x3, .f32⟩
  | .hbm, ⟨7, _⟩ => ⟨S6400x3x3, .f32⟩
  | .hbm, ⟨8, _⟩ => ⟨S6400x9, .f32⟩
  | .hbm, ⟨9, _⟩ => ⟨S6400x9, .f32⟩
  | .hbm, ⟨10, _⟩ => ⟨S_, .f32⟩
  | .hbm, ⟨11, _⟩ => ⟨S6400, .f32⟩
  | .hbm, ⟨12, _⟩ => ⟨S9x6400, .f32⟩
  | .hbm, ⟨13, _⟩ => ⟨S6400x6400, .f32⟩
  | .hbm, ⟨14, _⟩ => ⟨S6400x1, .f32⟩
  | .hbm, ⟨15, _⟩ => ⟨S1x6400, .f32⟩
  | .hbm, ⟨16, _⟩ => ⟨S6400x6400, .f32⟩
  | .hbm, ⟨17, _⟩ => ⟨S6400x6400, .f32⟩
  | .hbm, ⟨18, _⟩ => ⟨S6400x6400, .f32⟩
  | .hbm, ⟨19, _⟩ => ⟨S_, .f32⟩
  | .hbm, ⟨20, _⟩ => ⟨S6400x6400, .f32⟩
  | .hbm, ⟨21, _⟩ => ⟨S6400x6400, .f32⟩
  | .hbm, ⟨22, _⟩ => ⟨S6400x6400, .f32⟩
  | .hbm, ⟨23, _⟩ => ⟨S_, .f32⟩
  | .hbm, ⟨24, _⟩ => ⟨S6400x6400, .f32⟩
  | .hbm, ⟨25, _⟩ => ⟨S6400x6400, .f32⟩
  | .hbm, ⟨26, _⟩ => ⟨S_, .f32⟩
  | .hbm, ⟨27, _⟩ => ⟨S_, .f32⟩
  | .hbm, ⟨28, _⟩ => ⟨S6400x6400, .f32⟩
  | .hbm, ⟨29, _⟩ => ⟨S6400x6400, .f32⟩
  | .hbm, ⟨30, _⟩ => ⟨S_, .f32⟩
  | .hbm, ⟨31, _⟩ => ⟨S_, .f32⟩
  | .hbm, ⟨32, _⟩ => ⟨S6400x6400, .f32⟩
  | .hbm, ⟨33, _⟩ => ⟨S6400x6400, .f32⟩
  | .hbm, ⟨34, _⟩ => ⟨S1x6400x6400, .f32⟩
  | _, _ => ⟨S3x1280x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_cst_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_4 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  shapeCasts_S3x1280x1280_S3x80x16x80x16 : S3x1280x1280.ShapeCasts S3x80x16x80x16
  transposes_S3x80x16x80x16_S80x80x3x16x16_1_3_0_2_4 : S3x80x16x80x16.Transposes [1, 3, 0, 2, 4] S80x80x3x16x16
  shapeCasts_S80x80x3x16x16_S6400x3x256 : S80x80x3x16x16.ShapeCasts S6400x3x256
  bcast_S_S6400x3x3 : S_.BroadcastsInDim S6400x3x3 (![] : Fin 0 → Fin S6400x3x3.rank)
  shapeCasts_S6400x3x3_S6400x9 : S6400x3x3.ShapeCasts S6400x9
  reducesTo_S6400x9_S6400_d1 : S6400x9.ReducesTo [1] S6400
  h_S_ : 0 < S_.numel
  transposes_S6400x9_S9x6400_1_0 : S6400x9.Transposes [1, 0] S9x6400
  bcast_S6400_S6400x1_0 : S6400.BroadcastsInDim S6400x1 (![0] : Fin 1 → Fin S6400x1.rank)
  bcast_S6400_S1x6400_1 : S6400.BroadcastsInDim S1x6400 (![1] : Fin 1 → Fin S1x6400.rank)
  bcast_S6400x1_S6400x6400_0_1 : S6400x1.BroadcastsInDim S6400x6400 (![0, 1] : Fin 2 → Fin S6400x6400.rank)
  bcast_S1x6400_S6400x6400_0_1 : S1x6400.BroadcastsInDim S6400x6400 (![0, 1] : Fin 2 → Fin S6400x6400.rank)
  bcast_S_S6400x6400 : S_.BroadcastsInDim S6400x6400 (![] : Fin 0 → Fin S6400x6400.rank)
  reducesTo_S6400x6400_S_d0_1 : S6400x6400.ReducesTo [0, 1] S_
  bcast_S6400x6400_S1x6400x6400_1_2 : S6400x6400.BroadcastsInDim S1x6400x6400 (![1, 2] : Fin 2 → Fin S1x6400x6400.rank)
  dot_S6400x3x256_S6400x3x256_S6400x3x3_2_2_1_1_0_0_wf : DotDims.WF S6400x3x256 S6400x3x256 S6400x3x3 [2] [2] [1] [1] [0] [0]
  dot_S6400x9_S9x6400_S6400x6400_1_0_0_1_n_n_wf : DotDims.WF S6400x9 S9x6400 S6400x6400 [1] [0] [0] [1] [] []

variable [Facts₀]

def dot_S6400x3x256_S6400x3x256_S6400x3x3_2_2_1_1_0_0 : DotDims S6400x3x256 S6400x3x256 S6400x3x3 where
  lhsContracting := [2]
  rhsContracting := [2]
  lhsNonContracting := [1]
  rhsNonContracting := [1]
  lhsBatch := [0]
  rhsBatch := [0]
  wf := dot_S6400x3x256_S6400x3x256_S6400x3x3_2_2_1_1_0_0_wf
def dot_S6400x9_S9x6400_S6400x6400_1_0_0_1_n_n : DotDims S6400x9 S9x6400 S6400x6400 where
  lhsContracting := [1]
  rhsContracting := [0]
  lhsNonContracting := [0]
  rhsNonContracting := [1]
  lhsBatch := []
  rhsBatch := []
  wf := dot_S6400x9_S9x6400_S6400x6400_1_0_0_1_n_n_wf

class Facts : Prop extends Facts₀ where

variable [Facts]
-- ==== Proof.K.Arrays.lean ====
/-
  Both calls read the padded feature matrix through TWO input windows — a row block that moves with grid axis 0 and the
  whole matrix, resident — so the one buffer behind them is held by the two windows together: each holds half of it.
  Here: the distinct buffers behind a call's windows, each whole, ARE the call's windowed arrays at those shares
  (the matrix's full share split in its two halves, the outputs' buffers outright), in both directions, provided
  the two windows on the matrix are stated at the same contents.
-/
import proofs.«118980_j8813272891856_2_alg».proof.Proof.Gen.Kernel.Launch
import Idealize.ShloMosaic.Lib.Pipeline.Kit
import Idealize.ShloMosaic.Lib.Pipeline.Regions
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The statistics call: the matrix twice, the two statistics arrays -/

/-- The distinct buffers behind the statistics call's windows: the matrix and the two statistics arrays. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v7) ↦{fullShare} V main_v7) ∗ (((c : Thread nD τ).loc main_v8_0) ↦{fullShare} V main_v8_0)
          ∗ (((c : Thread nD τ).loc main_v8_1) ↦{fullShare} V main_v8_1)) := by
  unfold Pipeline.arrBufs
  exact bigSep_eq_bigSepL_of_eq [main_v7, main_v8_0, main_v8_1] (by decide) (by decide) _

/-- The statistics call's windowed arrays, window by window, at the shares a proof data with the matrix halved states. -/
theorem arrays0_eq {c : Dev nD} (dat : Dat τ (Elt F) Unit ℕ (UR sig nD τ) ℕ cfg0 c)
    (hq0 : dat.q 0 = fullShare.left) (hq1 : dat.q 1 = fullShare.right)
    (A : (w : Fin cfg0.W) → Buf (Elt F) ((cfg0.win w).arr.view.loc (c : Thread nD τ))) :
    (dat.arrays A : sProp 𝕄)
      = iprop((((c : Thread nD τ).loc main_v7) ↦{fullShare.left} A 0) ∗ (((c : Thread nD τ).loc main_v7) ↦{fullShare.right} A 1)
          ∗ (((c : Thread nD τ).loc main_v8_0) ↦{fullShare} A 2) ∗ (((c : Thread nD τ).loc main_v8_1) ↦{fullShare} A 3)) := by
  unfold Dat.arrays
  rw [bigSep_W0]
  rw [show dat.share 0 = fullShare.left from hq0, show dat.share 1 = fullShare.right from hq1,
    show dat.share 2 = fullShare from rfl, show dat.share 3 = fullShare from rfl,
    (arr_whole0 0).set_eq_univ, (arr_whole0 2).set_eq_univ, (arr_whole0 3).set_eq_univ]

/-- ENTRY: the distinct buffers, each whole at a valuation, give the statistics call's arrays at contents read off that
    valuation — the matrix's full share dealt to its two windows, a half each. -/
theorem arrays0_of_bufs {c : Dev nD} (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (A : (w : Fin cfg0.W) → Buf (Elt F) ((cfg0.win w).arr.view.loc (c : Thread nD τ)))
    (h0 : A 0 = V main_v7) (h1 : A 1 = V main_v7) (h2 : A 2 = V main_v8_0) (h3 : A 3 = V main_v8_1) :
    (Pipeline.arrBufs (Ix := Unit) (Name := ℕ) (U := UR sig nD τ) (Lvl := ℕ) spec0 c V : sProp 𝕄) ⊢ dat.arrays A := by
  rw [arrBufs0_eq, arrays0_eq dat hq0 hq1, h0, h1, h2, h3]
  iintro ⟨H7, H80, H81⟩
  ihave H7' := (pointsTo_share (PosShare.mem_left_op_right fullShare)).1 $$ H7
  icases H7' with ⟨Ha, Hb⟩
  isplitl [Ha]; · iexact Ha
  isplitl [Hb]; · iexact Hb
  isplitl [H80]; · iexact H80
  iexact H81

/-- EXIT: the converse — the two halves of the matrix, stated at the same contents, are its full share again. -/
theorem bufs_of_arrays0 {c : Dev nD} (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (A : (w : Fin cfg0.W) → Buf (Elt F) ((cfg0.win w).arr.view.loc (c : Thread nD τ)))
    (h0 : A 0 = V main_v7) (h1 : A 1 = V main_v7) (h2 : A 2 = V main_v8_0) (h3 : A 3 = V main_v8_1) :
    (dat.arrays A : sProp 𝕄) ⊢ Pipeline.arrBufs (Ix := Unit) (Name := ℕ) (U := UR sig nD τ) (Lvl := ℕ) spec0 c V := by
  rw [arrBufs0_eq, arrays0_eq dat hq0 hq1, h0, h1, h2, h3]
  iintro ⟨Ha, Hb, H80, H81⟩
  isplitl [Ha Hb]
  · iapply (pointsTo_share (PosShare.mem_left_op_right fullShare)).2
    isplitl [Ha]; · iexact Ha
    iexact Hb
  isplitl [H80]; · iexact H80
  iexact H81

/-! ## The normalising call: the matrix twice, the two statistics as [1,1] arrays, the result -/

/-- The distinct buffers behind the normalising call's windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v7) ↦{fullShare} V main_v7) ∗ (((c : Thread nD τ).loc main_v11) ↦{fullShare} V main_v11)
          ∗ (((c : Thread nD τ).loc main_v12) ↦{fullShare} V main_v12) ∗ (((c : Thread nD τ).loc main_v13) ↦{fullShare} V main_v13)) := by
  unfold Pipeline.arrBufs
  exact bigSep_eq_bigSepL_of_eq [main_v7, main_v11, main_v12, main_v13] (by decide) (by decide) _

/-- The normalising call's windowed arrays, window by window. -/
theorem arrays1_eq {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (A : (w : Fin cfg1.W) → Buf (Elt F) ((cfg1.win w).arr.view.loc (c : Thread nD τ))) :
    (dat.arrays A : sProp 𝕄)
      = iprop((((c : Thread nD τ).loc main_v7) ↦{fullShare.left} A 0) ∗ (((c : Thread nD τ).loc main_v7) ↦{fullShare.right} A 1)
          ∗ (((c : Thread nD τ).loc main_v11) ↦{fullShare} A 2) ∗ (((c : Thread nD τ).loc main_v12) ↦{fullShare} A 3)
          ∗ (((c : Thread nD τ).loc main_v13) ↦{fullShare} A 4)) := by
  unfold Dat.arrays
  rw [bigSep_W1]
  rw [show dat.share 0 = fullShare.left from hq0, show dat.share 1 = fullShare.right from hq1,
    show dat.share 2 = fullShare from hq2, show dat.share 3 = fullShare from hq3, show dat.share 4 = fullShare from rfl,
    (arr_whole1 0).set_eq_univ, (arr_whole1 2).set_eq_univ, (arr_whole1 3).set_eq_univ, (arr_whole1 4).set_eq_univ]

/-- ENTRY, the normalising call. -/
theorem arrays1_of_bufs {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (A : (w : Fin cfg1.W) → Buf (Elt F) ((cfg1.win w).arr.view.loc (c : Thread nD τ)))
    (h0 : A 0 = V main_v7) (h1 : A 1 = V main_v7) (h2 : A 2 = V main_v11) (h3 : A 3 = V main_v12) (h4 : A 4 = V main_v13) :
    (Pipeline.arrBufs (Ix := Unit) (Name := ℕ) (U := UR sig nD τ) (Lvl := ℕ) spec1 c V : sProp 𝕄) ⊢ dat.arrays A := by
  rw [arrBufs1_eq, arrays1_eq dat hq0 hq1 hq2 hq3, h0, h1, h2, h3, h4]
  iintro ⟨H7, H11, H12, H13⟩
  ihave H7' := (pointsTo_share (PosShare.mem_left_op_right fullShare)).1 $$ H7
  icases H7' with ⟨Ha, Hb⟩
  isplitl [Ha]; · iexact Ha
  isplitl [Hb]; · iexact Hb
  isplitl [H11]; · iexact H11
  isplitl [H12]; · iexact H12
  iexact H13

/-- EXIT, the normalising call. -/
theorem bufs_of_arrays1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (A : (w : Fin cfg1.W) → Buf (Elt F) ((cfg1.win w).arr.view.loc (c : Thread nD τ)))
    (h0 : A 0 = V main_v7) (h1 : A 1 = V main_v7) (h2 : A 2 = V main_v11) (h3 : A 3 = V main_v12) (h4 : A 4 = V main_v13) :
    (dat.arrays A : sProp 𝕄) ⊢ Pipeline.arrBufs (Ix := Unit) (Name := ℕ) (U := UR sig nD τ) (Lvl := ℕ) spec1 c V := by
  rw [arrBufs1_eq, arrays1_eq dat hq0 hq1 hq2 hq3, h0, h1, h2, h3, h4]
  iintro ⟨Ha, Hb, H11, H12, H13⟩
  isplitl [Ha Hb]
  · iapply (pointsTo_share (PosShare.mem_left_op_right fullShare)).2
    isplitl [Ha]; · iexact Ha
    iexact Hb
  isplitl [H11]; · iexact H11
  isplitl [H12]; · iexact H12
  iexact H13

end Cert.Kernel.Hand

end
-- ==== Proof.K.Body0Runs.lean ====
/-
  The statistics kernel's body: what its two control cases share.

  At grid point (a, b) the body forms the 1280 × 1280 tile of scaled squared distances between rows
  1280·a … and rows 1280·b … of the padded feature array, takes the tile's least and greatest entry, and keeps a
  running minimum and a running maximum across the second grid coordinate in its two output blocks: at b = 0 the
  blocks are set to the tile's extremes, at b > 0 they are combined with what the point before left. The two
  conditions are decided from the point's position in the grid: the first holds at the positions ≡ 0 (mod 5), the second
  at all the others, so no position leaves the outputs untouched.
-/
import proofs.«118980_j8813272891856_2_alg».proof.Proof.Gen.Kernel.Launch
import proofs.«118980_j8813272891856_2_alg».proof.Proof.Gen.Kernel.Skeleton
import proofs.«118980_j8813272891856_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import Mathlib.Tactic.IntervalCases

-- membership in a rectangle of the tile's extents is looked at once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the
    pipeline does not fetch, the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "The second grid coordinate is 0": the blocks are set. -/
abbrev cond0_0 (i : grid0.Coords) : Prop := k0_cond1 i = 1#1
/-- It holds at the positions ≡ 0 (mod 5). -/
theorem hcond0_0 : ∀ t : Fin cfg0.N, cond0_0 (grid0.coords t) ↔ t.val % 5 = 0 :=
  (by decide +kernel : ∀ t : Fin grid0.N, cond0_0 (grid0.coords t) ↔ t.val % 5 = 0)

/-- "The second grid coordinate is not 0": the blocks are combined with what they held. -/
abbrev cond0_1 (i : grid0.Coords) : Prop := k0_cond2 i = 1#1
/-- It holds at all the other positions. -/
theorem hcond0_1 : ∀ t : Fin cfg0.N, cond0_1 (grid0.coords t) ↔ ¬t.val % 5 = 0 :=
  (by decide +kernel : ∀ t : Fin grid0.N, cond0_1 (grid0.coords t) ↔ ¬t.val % 5 = 0)

/-! ## No point leaves an output untouched -/

/-- One of the two conditions holds whatever the coordinates, so the outputs are stored into at every point. -/
theorem live0_2 : ∀ i : grid0.Coords, cfg0.idle 2 i = false := by
  intro i
  show (!(k0_cond1 i == 1#1) && !(k0_cond2 i == 1#1)) = false
  unfold k0_cond1 k0_cond2
  have h : (i 1).val < 5 := (i 1).isLt
  generalize (i 1).val = n at h
  interval_cases n <;> decide
theorem live0_3 : ∀ i : grid0.Coords, cfg0.idle 3 i = false := live0_2
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := live0_2 _
theorem liveAt0_3 (t : Fin cfg0.N) : cfg0.idle 3 (grid0.coords t) = false := live0_3 _

/-! ## The body's accesses and its staging memrefs -/

/-- The whole 1280 × 128 row block (the first window's buffer). -/
abbrev r0_rows : Rect S1280x128 := Rect.unit (s := S1280x128) ![0, 0] S1280x128.size inb_S1280x128_S1280x128_0_0
/-- The 1280 rows of the staged array that the point's second coordinate selects: offset 1280·b on the row axis. -/
abbrev r0_cols (i : grid0.Coords) : Rect S6400x128 := Rect.unit (s := S6400x128) (k0_off1 i) S1280x128.size (k0_off1_inb i)
/-- A whole 8 × 128 output block. -/
abbrev r0_blk : Rect S8x128 := Rect.unit (s := S8x128) ![0, 0] S8x128.size inb_S8x128_S8x128_0_0

theorem zero2_0 : (![0, 0] : Fin 2 → Nat) = fun _ => 0 := funext fun a => by fin_cases a <;> rfl

/-- One staging buffer of each output window, through which its contents are stated (the choice does not matter). -/
abbrev VO0_2 : View sig .tc .vmem S8x128 .f32 := (Memref.whole cc0_stg2_0 : Memref sig .tc .vmem S8x128 .f32).view
abbrev VO0_3 : View sig .tc .vmem S8x128 .f32 := (Memref.whole cc0_stg3_0 : Memref sig .tc .vmem S8x128 .f32).view
/-- Each window's current staging memref at point `t`, spelled as the pipeline passes it, and its wholeness. -/
abbrev ms0_0 (t : Fin cfg0.N) : Memref sig .tc .vmem S1280x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6400x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)

end Cert.Kernel.Hand

end
-- ==== Proof.K.Body0RunA.lean ====
/-
  The statistics kernel's body at a position whose second grid coordinate is 0: both output blocks are set to the
  tile's extremes. The body's triple is stated with the pieces each output ends with as its witness.
-/
import proofs.«118980_j8813272891856_2_alg».proof.Proof.K.Body0Runs

-- membership in a rectangle of the tile's extents is looked at once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- What the body's stores leave in each output's staging memref, as pieces (last first), where the first condition
    holds and the second does not, with the proof that on whole staging memrefs — the inputs' at their contents, the
    outputs' at anything — the body runs to the continuation holding the inputs' as they were and each output's
    buffer with its pieces written. -/
noncomputable def kernelRun0_A (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : cond0_0 i) (hc1 : ¬cond0_1 i)
    (x0 : Vec F S1280x128 .f32) (x1 : Vec F S6400x128 .f32) :
    Σ' (L2 : List (View.Piece (Elt F) S8x128 .f32)), { L3 : List (View.Piece (Elt F) S8x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__stats_kernel i arg2 harg2 arg3 harg3 arg4 harg4 arg5 harg5) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Hand

end
-- ==== Proof.K.Body0RunB.lean ====
/-
  The statistics kernel's body at a position whose second grid coordinate is not 0: each output block is combined,
  entry by entry, with what the position before left in it (the minimum for the first, the maximum for the second).
  The body's triple is stated with the pieces each output ends with as its witness.
-/
import proofs.«118980_j8813272891856_2_alg».proof.Proof.K.Body0RunA

-- membership in a rectangle of the tile's extents is looked at once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- What the body's stores leave in each output's staging memref, as pieces (last first), where the first condition
    fails and the second holds, with the proof that on whole staging memrefs — the inputs' at their contents, the
    outputs' at their running contents `xo·` — the body runs to the continuation holding the inputs' as they were and
    each output's buffer with its pieces written. -/
noncomputable def kernelRun0_B (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : ¬cond0_0 i) (hc1 : cond0_1 i)
    (x0 : Vec F S1280x128 .f32) (x1 : Vec F S6400x128 .f32) (xo2 : Vec F S8x128 .f32) (xo3 : Vec F S8x128 .f32) :
    Σ' (L2 : List (View.Piece (Elt F) S8x128 .f32)), { L3 : List (View.Piece (Elt F) S8x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__stats_kernel i arg2 harg2 arg3 harg3 arg4 harg4 arg5 harg5) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Hand

end
-- ==== Proof.K.Body0.lean ====
/-
  The statistics kernel's proof data and body obligation, at any contents `V` of the TensorCore's buffers when its
  region is entered.

  What the two output blocks hold after each grid position is defined by recursion on the position: at a position
  whose second coordinate is 0 the tile's least and greatest entry, spread over the block; at any other position the
  entrywise minimum (maximum) of that and of what the position before left. The blocks are written back only after
  the last position of each row of the grid, so between two positions of a row the buffer still holds what the body left.
-/
import proofs.«118980_j8813272891856_2_alg».proof.Proof.K.Body0RunB

-- membership in a rectangle of the tile's extents is looked at once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## What each case leaves in the outputs -/

/-- The first case's one store into each output is of the whole block, so its pieces cover it. -/
theorem cover0_A_2 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : cond0_0 i) (hc1 : ¬cond0_1 i) (x0 : Vec F S1280x128 .f32) (x1 : Vec F S6400x128 .f32) (y : S8x128.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S8x128.size (by sl_kernel_rfl) y
theorem cover0_A_3 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : cond0_0 i) (hc1 : ¬cond0_1 i) (x0 : Vec F S1280x128 .f32) (x1 : Vec F S6400x128 .f32) (y : S8x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S8x128.size (by sl_kernel_rfl) y

/-- What the first case leaves in the minimum's block, and in the maximum's: its pieces read back. -/
def out0_A_2 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : cond0_0 i) (hc1 : ¬cond0_1 i) (x0 : Vec F S1280x128 .f32) (x1 : Vec F S6400x128 .f32) : Vec F S8x128 .f32 :=
  VO0_2.read (Elt F) (VO0_2.writes (Elt F) VO0_2.junk (kernelRun0_A c i arg2 harg2 arg3 harg3 arg4 harg4 arg5 harg5 hc0 hc1 x0 x1).1)
def out0_A_3 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : cond0_0 i) (hc1 : ¬cond0_1 i) (x0 : Vec F S1280x128 .f32) (x1 : Vec F S6400x128 .f32) : Vec F S8x128 .f32 :=
  VO0_3.read (Elt F) (VO0_3.writes (Elt F) VO0_3.junk (kernelRun0_A c i arg2 harg2 arg3 harg3 arg4 harg4 arg5 harg5 hc0 hc1 x0 x1).2.1)

/-- The second case's one store into each output is of the whole block, so its pieces cover it. -/
theorem cover0_B_2 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : ¬cond0_0 i) (hc1 : cond0_1 i) (x0 : Vec F S1280x128 .f32) (x1 : Vec F S6400x128 .f32) (xo2 : Vec F S8x128 .f32) (xo3 : Vec F S8x128 .f32) (y : S8x128.Idx) :
    ∃ pc ∈ (kernelRun0_B c i arg2 harg2 arg3 harg3 arg4 harg4 arg5 harg5 hc0 hc1 x0 x1 xo2 xo3).1, y ∈ pc.1.set :=
  View.cover_of_tiledL (kernelRun0_B c i arg2 harg2 arg3 harg3 arg4 harg4 arg5 harg5 hc0 hc1 x0 x1 xo2 xo3).1 S8x128.size (by sl_kernel_rfl) y
theorem cover0_B_3 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : ¬cond0_0 i) (hc1 : cond0_1 i) (x0 : Vec F S1280x128 .f32) (x1 : Vec F S6400x128 .f32) (xo2 : Vec F S8x128 .f32) (xo3 : Vec F S8x128 .f32) (y : S8x128.Idx) :
    ∃ pc ∈ (kernelRun0_B c i arg2 harg2 arg3 harg3 arg4 harg4 arg5 harg5 hc0 hc1 x0 x1 xo2 xo3).2.1, y ∈ pc.1.set :=
  View.cover_of_tiledL (kernelRun0_B c i arg2 harg2 arg3 harg3 arg4 harg4 arg5 harg5 hc0 hc1 x0 x1 xo2 xo3).2.1 S8x128.size (by sl_kernel_rfl) y

/-- What the second case leaves in the minimum's block, and in the maximum's: its pieces read back. -/
def out0_B_2 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : ¬cond0_0 i) (hc1 : cond0_1 i) (x0 : Vec F S1280x128 .f32) (x1 : Vec F S6400x128 .f32) (xo2 : Vec F S8x128 .f32) (xo3 : Vec F S8x128 .f32) : Vec F S8x128 .f32 :=
  VO0_2.read (Elt F) (VO0_2.writes (Elt F) VO0_2.junk (kernelRun0_B c i arg2 harg2 arg3 harg3 arg4 harg4 arg5 harg5 hc0 hc1 x0 x1 xo2 xo3).1)
def out0_B_3 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : ¬cond0_0 i) (hc1 : cond0_1 i) (x0 : Vec F S1280x128 .f32) (x1 : Vec F S6400x128 .f32) (xo2 : Vec F S8x128 .f32) (xo3 : Vec F S8x128 .f32) : Vec F S8x128 .f32 :=
  VO0_3.read (Elt F) (VO0_3.writes (Elt F) VO0_3.junk (kernelRun0_B c i arg2 harg2 arg3 harg3 arg4 harg4 arg5 harg5 hc0 hc1 x0 x1 xo2 xo3).2.1)

/-! ## What the outputs hold after each position -/

/-- Both blocks after a position of the first case: the case run at the position's memrefs and input blocks. -/
def outsA (c : Dev nD) (t : Fin cfg0.N) (h0 : t.val % 5 = 0) : Vec F S8x128 .f32 × Vec F S8x128 .f32 :=
  (out0_A_2 c (grid0.coords t) (ms0_0 t) (hs0_0 t) (ms0_1 t) (hs0_1 t) (ms0_2 t) (hs0_2 t) (ms0_3 t) (hs0_3 t) ((hcond0_0 t).mpr h0) (fun h => (hcond0_1 t).mp h h0) (iblk0 V c 0 t) (iblk0 V c 1 t),
   out0_A_3 c (grid0.coords t) (ms0_0 t) (hs0_0 t) (ms0_1 t) (hs0_1 t) (ms0_2 t) (hs0_2 t) (ms0_3 t) (hs0_3 t) ((hcond0_0 t).mpr h0) (fun h => (hcond0_1 t).mp h h0) (iblk0 V c 0 t) (iblk0 V c 1 t))

/-- Both blocks after a position of the second case, over what the position before left (`p`). -/
def outsB (c : Dev nD) (t : Fin cfg0.N) (h0 : ¬t.val % 5 = 0) (p : Vec F S8x128 .f32 × Vec F S8x128 .f32) :
    Vec F S8x128 .f32 × Vec F S8x128 .f32 :=
  (out0_B_2 c (grid0.coords t) (ms0_0 t) (hs0_0 t) (ms0_1 t) (hs0_1 t) (ms0_2 t) (hs0_2 t) (ms0_3 t) (hs0_3 t) (fun h => h0 ((hcond0_0 t).mp h)) ((hcond0_1 t).mpr h0) (iblk0 V c 0 t) (iblk0 V c 1 t) p.1 p.2,
   out0_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h0) (iblk0 V c 0 t) (iblk0 V c 1 t) p.1 p.2)

/-- THE RUNNING EXTREMES. What the two output blocks hold after the body at position `n`: the case the position is
    in, the second over what this leaves at `n - 1`. -/
def outsAt0 (c : Dev nD) : (n : ℕ) → n < cfg0.N → Vec F S8x128 .f32 × Vec F S8x128 .f32
  | 0, hn => outsA V c ⟨0, hn⟩ (Nat.zero_mod _)
  | n + 1, hn =>
    if h0 : (n + 1) % 5 = 0 then outsA V c ⟨n + 1, hn⟩ h0
    else outsB V c ⟨n + 1, hn⟩ h0 (outsAt0 c n (Nat.lt_of_succ_lt hn))

/-- `outsAt0` at a position of the first case. -/
theorem outsAt0_A (c : Dev nD) (t : Fin cfg0.N) (h0 : t.val % 5 = 0) :
    outsAt0 V c t.val t.isLt = outsA V c t h0 := by
  obtain ⟨n, hn⟩ := t
  cases n with
  | zero => exact rfl
  | succ n => exact (dif_pos h0).trans rfl

/-- `outsAt0` at a position of the second case: over what the position before left. -/
theorem outsAt0_B (c : Dev nD) (t : Fin cfg0.N) (h0 : ¬t.val % 5 = 0) :
    outsAt0 V c t.val t.isLt = outsB V c t h0 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the statistics pipeline on core `c`: the arrays as the region finds them; after the body at
    position `t` each input's buffer at its block and the two outputs' at the running extremes; the invariant the
    core's other scoped buffers and its random-number register, untouched; nothing owed. The two input windows are
    both on the one padded feature array, so each holds half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q := fun
    | ⟨0, _⟩ => fullShare.left
    | ⟨1, _⟩ => fullShare.right
    | ⟨2, _⟩ => fullShare
    | ⟨3, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

/-- The shares of the windows' arrays: the two windows on the padded feature array hold a half each. -/
theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]
theorem q0_3 (c : Dev nD) : (dat0 V c).q 3 = fullShare := by dsimp only [dat0]

/-- Each input's current staging buffer holds its block at every position, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a position of the second case each output's current staging buffer holds what the body left at the position
    before: the position is not the first, and the block is written back only after a position ≡ 4 (mod 5), which the
    one before this is not. -/
theorem before0_2_B (c : Dev nD) (t : Fin cfg0.N) (h0 : ¬t.val % 5 = 0) (d) :
    (dat0 V c).before 2 t d = (outsAt0 V c (t.val - 1) (Nat.lt_of_le_of_lt (Nat.sub_le _ _) t.isLt)).1 := by
  have hN : t.val < 25 := lt_of_lt_of_eq t.isLt (show cfg0.N = 25 from N_0)
  rw [Dat.before_out_kept _ 2 rfl t (by omega) (Bool.eq_false_iff.mpr fun h => by have := (flush0_2 _).mp h; dsimp only at this; omega)
    live0_2 (fun _ _ => rfl)]
  dsimp only [dat0]
theorem before0_3_B (c : Dev nD) (t : Fin cfg0.N) (h0 : ¬t.val % 5 = 0) (d) :
    (dat0 V c).before 3 t d = (outsAt0 V c (t.val - 1) (Nat.lt_of_le_of_lt (Nat.sub_le _ _) t.isLt)).2 := by
  have hN : t.val < 25 := lt_of_lt_of_eq t.isLt (show cfg0.N = 25 from N_0)
  rw [Dat.before_out_kept _ 3 rfl t (by omega) (Bool.eq_false_iff.mpr fun h => by have := (flush0_3 _).mp h; dsimp only at this; omega)
    live0_3 (fun _ _ => rfl)]
  dsimp only [dat0]

/-- No window is left untouched at any position, so what the body returns of each is what it leaves there. -/
theorem leaves0_0 (c : Dev nD) (t : Fin cfg0.N) :
    (dat0 V c).leavesExact 0 t = owns (c : Thread nD τ) (ms0_0 t) fullShare ((dat0 V c).after 0 t) := by
  unfold Dat.leavesExact; rw [liveAt0_0 t]
theorem leaves0_1 (c : Dev nD) (t : Fin cfg0.N) :
    (dat0 V c).leavesExact 1 t = owns (c : Thread nD τ) (ms0_1 t) fullShare ((dat0 V c).after 1 t) := by
  unfold Dat.leavesExact; rw [liveAt0_1 t]
theorem leaves0_2 (c : Dev nD) (t : Fin cfg0.N) :
    (dat0 V c).leavesExact 2 t = owns (c : Thread nD τ) (ms0_2 t) fullShare ((dat0 V c).after 2 t) := by
  unfold Dat.leavesExact; rw [liveAt0_2 t]
theorem leaves0_3 (c : Dev nD) (t : Fin cfg0.N) :
    (dat0 V c).leavesExact 3 t = owns (c : Thread nD τ) (ms0_3 t) fullShare ((dat0 V c).after 3 t) := by
  unfold Dat.leavesExact; rw [liveAt0_3 t]

/-! ## The body obligation, at a generic position -/

/-- What the body is called with at position `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1600000 in
/-- The body at any position: the inputs' memrefs hold their blocks; the position's place in its row says which case it
    is in; in the second case each output holds what the position before left; so the case's run applies. The invariant
    passes through unread and the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    leaves0_0, leaves0_1, leaves0_2, leaves0_3, after0_0, after0_1, after0_2, after0_3]
  have hN : t.val < 25 := lt_of_lt_of_eq t.isLt (show cfg0.N = 25 from N_0)
  by_cases h0 : t.val % 5 = 0
  · rw [outsAt0_A V c t h0]
    unfold outsA out0_A_2 out0_A_3; dsimp only
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (fun h => (hcond0_1 t).mp h h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _)
    unfold owns; iexists _; isplitr
    swap; · iexact H3
    ipureintro; exact View.read_writes_of_cover _ _ _ _ _ (cover0_A_3 c _ _ _ _ _ _ _ _ _ _ _ _ _)
  · rw [outsAt0_B V c t h0]
    simp only [before0_2_B V c t h0, before0_3_B V c t h0]
    unfold outsB out0_B_2 out0_B_3; dsimp only
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) ((hcond0_1 t).mpr h0) (iblk0 V c 0 t) (iblk0 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _)

/-- The library's body obligation, at every position. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The normalising kernel's body, at any contents `V` of the TensorCore's buffers when its region is entered.

  At grid point (a, b) the body reads rows 1280·a … 1280·a + 1279 of the padded feature array through its first
  window, rows 1280·b … of the same array through the second (the whole array is staged once and the rows are
  cut out of it at the offset the point computes), the two one-element arrays holding the least and the greatest
  distance, and stores the 1280 × 1280 tile of normalised distances. What the output's buffer holds after the body
  is therefore one function of the four input blocks and of the point; this module states that function, proves
  the body's triple against it, and assembles the pipeline's proof data and body obligation from it.
-/
import proofs.«118980_j8813272891856_2_alg».proof.Proof.Gen.Kernel.Launch
import proofs.«118980_j8813272891856_2_alg».proof.Proof.Gen.Kernel.Skeleton
import proofs.«118980_j8813272891856_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- membership in a rectangle of the tile's extents is looked at once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the
    pipeline does not fetch, the block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1280 × 128 row block (the first window's buffer). -/
abbrev r1_rows : Rect S1280x128 := Rect.unit (s := S1280x128) ![0, 0] S1280x128.size inb_S1280x128_S1280x128_0_0
/-- The 1280 rows of the staged array that the point's second coordinate selects: offset 1280·b on the row axis. -/
abbrev r1_cols (i : grid1.Coords) : Rect S6400x128 := Rect.unit (s := S6400x128) (k1_off1 i) S1280x128.size (k1_off1_inb i)
/-- The one element of a 1 × 1 buffer. -/
abbrev r1_one : Rect S1x1 := Rect.unit (s := S1x1) ![0, 0] S1x1.size inb_S1x1_S1x1_0_0
/-- The whole 1280 × 1280 output tile. -/
abbrev r1_tile : Rect S1280x1280 := Rect.unit (s := S1280x1280) ![0, 0] S1280x1280.size inb_S1280x1280_S1280x1280_0_0

/-! ## What the body leaves in the output window's buffer -/

/-- The output's staging buffer after the body at grid point `i`, from the input windows' blocks: its one store, of the
    normalised tile computed from the row block, the rows cut out of the staged array at the point's offset, and the
    two extremes. -/
def out1_4 (i : grid1.Coords) (x0 : Vec F S1280x128 .f32) (x1 : Vec F S6400x128 .f32) (x2 : Vec F S1x1 .f32) (x3 : Vec F S1x1 .f32) :
    Vec F S1280x1280 .f32 :=
  View.canon [⟨r1_tile, k1_pay1 (View.ld x0 r1_rows) (View.ld x1 (r1_cols i)) (View.ld x2 r1_one) (View.ld x3 r1_one)⟩]

/-- The one store is of the whole tile, so it covers the buffer. -/
theorem cover1_4 (p0 : Vec F S1280x1280 .f32) (y : S1280x1280.Idx) :
    ∃ pc ∈ ([⟨r1_tile, p0⟩] : List (View.Piece (Elt F) S1280x1280 .f32)), y ∈ pc.1.set :=
  View.cover_of_tiled [⟨r1_tile, p0⟩] S1280x1280.size (by rfl) y

/-! ## The output's contents as the tile's arithmetic -/

theorem zero2_1 : (![0, 0] : Fin 2 → Nat) = fun _ => 0 := funext fun a => by fin_cases a <;> rfl

/-- The one store is of the whole tile: what it leaves is its payload, the normalised distances computed from the
    row block, the 1280 rows of the staged array at the point's offset, and the two extremes. -/
theorem out1_4_eq (i : grid1.Coords) (x0 : Vec F S1280x128 .f32) (x1 : Vec F S6400x128 .f32) (x2 : Vec F S1x1 .f32) (x3 : Vec F S1x1 .f32) :
    out1_4 i x0 x1 x2 x3 = k1_pay1 (View.ld x0 r1_rows) (View.ld x1 (r1_cols i)) (View.ld x2 r1_one) (View.ld x3 r1_one) := by
  unfold out1_4
  exact View.canon_unit_zero zero2_1 _ _

/-- The same with the three whole-buffer loads read as the buffers themselves. -/
theorem out1_4_eq' (i : grid1.Coords) (x0 : Vec F S1280x128 .f32) (x1 : Vec F S6400x128 .f32) (x2 : Vec F S1x1 .f32) (x3 : Vec F S1x1 .f32) :
    out1_4 i x0 x1 x2 x3 = k1_pay1 x0 (View.ld x1 (r1_cols i)) x2 x3 := by
  rw [out1_4_eq, View.ld_unit_zero (S := S1280x128) zero2_1, View.ld_unit_zero (S := S1x1) zero2_1, View.ld_unit_zero (S := S1x1) zero2_1]

/-! ## The body's triple -/

set_option maxHeartbeats 1000000 in
/-- The kernel body on whole staging memrefs, the inputs' at read contents `x·` and the output's at anything, runs to
    the continuation holding the inputs' as they were and the output's at `out1_4` of the inputs'. -/
theorem sound_kernel1 (c : Dev nD) (E : Set ℕ) (i : grid1.Coords)
    (arg2 : Memref sig .tc .vmem S1280x128 .f32) (harg2 : arg2.IsWhole) (arg3 : Memref sig .tc .vmem S6400x128 .f32) (harg3 : arg3.IsWhole)
    (arg4 : Memref sig .tc .vmem S1x1 .f32) (harg4 : arg4.IsWhole) (arg5 : Memref sig .tc .vmem S1x1 .f32) (harg5 : arg5.IsWhole)
    (arg6 : Memref sig .tc .vmem S1280x1280 .f32) (harg6 : arg6.IsWhole)
    (x0 : Vec F S1280x128 .f32) (x1 : Vec F S6400x128 .f32) (x2 : Vec F S1x1 .f32) (x3 : Vec F S1x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 i x0 x1 x2 x3)) -∗ K ⟨⟩))
      ⊢ wp frame (wpE (defs₀ (F := F)) Variants.none c none) E (cc1__normalize_kernel i arg2 harg2 arg3 harg3 arg4 harg4 arg5 harg5 arg6 harg6) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the normalising pipeline on core `c`: the arrays as the region finds them; after the body at
    point `t` each input's buffer at its block and the output's at `out1_4` of the input blocks at the point's
    coordinates; the invariant the core's other scoped buffers and its random-number register, untouched; nothing owed. The first two
    windows are both inputs on the one padded feature array, so each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q := fun
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 1 t) (iblk1 V c 2 t) (iblk1 V c 3 t) := by dsimp only [dat1]

/-- The shares of the windows' arrays: the two windows on the padded feature array hold a half each. -/
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of @main: nine host operations make the [6400, 9] feature matrix, two pad it to 128 columns, the statistics
  call leaves the per-row-block least and greatest distances, six host operations reduce them to two [1, 1] arrays, the
  normalising call writes the [6400, 6400] distance matrix, one host operation adds the leading axis.

  Stated here: the contents of the TensorCore's buffers between those six items, as a chain from the launch memory;
  the two calls as regions entered from and left at those contents (each call reads the padded matrix through two
  windows, so its one buffer is dealt to them at entry and made whole again at exit); and the run — every weakly fair
  execution terminates, nothing faulting, with every buffer at the chain's last contents.
-/
import proofs.«118980_j8813272891856_2_alg».proof.Proof.Gen.Kernel.Regions
import proofs.«118980_j8813272891856_2_alg».proof.Proof.Gen.Kernel.Skeleton
import proofs.«118980_j8813272891856_2_alg».proof.Proof.Gen.Kernel.Points
import proofs.«118980_j8813272891856_2_alg».proof.Proof.K.Arrays
import proofs.«118980_j8813272891856_2_alg».proof.Proof.K.Body0
import proofs.«118980_j8813272891856_2_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main

The launch contents; after the eight host operations that make the feature matrix; after the padding to 128 columns
(the statistics call's entry); after the statistics call (its two statistics arrays at what its write-backs leave);
after the host's re-reduction of the statistics to two [1,1] arrays (the normalising call's entry); after the
normalising call (the distance matrix at what its write-backs leave); after the last broadcast. -/

/-- The statistics call's entry contents, read at the TensorCore's references. -/
abbrev E0 (c : Dev nD) (b : Ref sig .tc) : Buf (Elt F) ((c : Thread nD τ).loc b) := Gen.V2 m c b

/-- After the statistics call: its two output arrays at what the call leaves, every other buffer as entered. -/
def W3 (c : Dev nD) : Valuation τ sig (Elt F) :=
  Function.update (Function.update (Gen.V2 m c) main_v8_0 ((dat0 (E0 m) c).arrAt 2 cfg0.N)) main_v8_1 ((dat0 (E0 m) c).arrAt 3 cfg0.N)
/-- After the host's re-reduction. -/
abbrev W4 (c : Dev nD) : Valuation τ sig (Elt F) := StableHlo.after Gen.hostOps1 (W3 m c)
/-- The normalising call's entry contents, read at the TensorCore's references. -/
abbrev E1 (c : Dev nD) (b : Ref sig .tc) : Buf (Elt F) ((c : Thread nD τ).loc b) := W4 m c b
/-- After the normalising call: the distance matrix at what the call leaves. -/
def W5 (c : Dev nD) : Valuation τ sig (Elt F) :=
  Function.update (W4 m c) main_v13 ((dat1 (E1 m) c).arrAt 4 cfg1.N)
/-- After the last broadcast: the end. -/
abbrev W6 (c : Dev nD) : Valuation τ sig (Elt F) := StableHlo.after Gen.hostOps2 (W5 m c)

theorem W3_v8_1 (c : Dev nD) : W3 m c main_v8_1 = (dat0 (E0 m) c).arrAt 3 cfg0.N := by
  unfold W3; exact Function.update_self ..
theorem W3_v8_0 (c : Dev nD) : W3 m c main_v8_0 = (dat0 (E0 m) c).arrAt 2 cfg0.N := by
  unfold W3
  rw [Function.update_of_ne (StableHlo.devRef_ne_of_ne (by decide) : (Proc.devRef .tc main_v8_0 : DevRef τ sig) ≠ Proc.devRef .tc main_v8_1)]
  exact Function.update_self ..
theorem W3_of (c : Dev nD) (r : Ref sig .tc) (h : r ∉ ([main_v8_0, main_v8_1] : List (Ref sig .tc))) : W3 m c r = Gen.V2 m c r := by
  unfold W3
  rw [Function.update_of_ne (StableHlo.devRef_ne_of_ne (List.ne_of_not_mem_cons (List.not_mem_of_not_mem_cons h)) : (Proc.devRef .tc r : DevRef τ sig) ≠ Proc.devRef .tc main_v8_1),
    Function.update_of_ne (StableHlo.devRef_ne_of_ne (List.ne_of_not_mem_cons h) : (Proc.devRef .tc r : DevRef τ sig) ≠ Proc.devRef .tc main_v8_0)]
theorem W5_v13 (c : Dev nD) : W5 m c main_v13 = (dat1 (E1 m) c).arrAt 4 cfg1.N := by
  unfold W5; exact Function.update_self ..
theorem W5_of (c : Dev nD) (r : Ref sig .tc) (h : r ∉ ([main_v13] : List (Ref sig .tc))) : W5 m c r = W4 m c r := by
  unfold W5
  rw [Function.update_of_ne (StableHlo.devRef_ne_of_ne (List.ne_of_not_mem_cons h) : (Proc.devRef .tc r : DevRef τ sig) ≠ Proc.devRef .tc main_v13)]
theorem W4_of (c : Dev nD) (r : Ref sig .tc) (h : r ∉ Gen.hostOps1_W) : W4 m c r = W3 m c r :=
  StableHlo.after_of_writes_sub Gen.hostOps1 _ Gen.hostOps1_writes h
theorem W6_of (c : Dev nD) (r : Ref sig .tc) (h : r ∉ Gen.hostOps2_W) : W6 m c r = W5 m c r :=
  StableHlo.after_of_writes_sub Gen.hostOps2 _ Gen.hostOps2_writes h

/-- The argument reaches the end as launched: no host operation writes it and no call may change it. -/
theorem W6_main_arg0 (c : Dev nD) : W6 m c main_arg0 = m ((c : Thread nD τ).loc main_arg0) :=
  (W6_of m c main_arg0 (by decide)).trans <| (W5_of m c main_arg0 (by decide)).trans <| (W4_of m c main_arg0 (by decide)).trans <|
    (W3_of m c main_arg0 (by decide)).trans <| (Gen.V2_of m c main_arg0 (by decide)).trans <| (Gen.V1_of m c main_arg0 (by decide)).trans rfl

/-! ## The proof data family and the thread state -/

/-- Every call's proof data, each at its entry contents (a literal match, so that the pinned configuration at a numeral
    reduces to the printed one). -/
def pdats : (p : Fin 2) → (c : Dev nD) → Dat τ (Elt F) Unit ℕ (UR sig nD τ) ℕ (Pipeline.pin (pcfgs (F := F)) Gen.adm p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## Entry and exit of the two calls: the arrays out of, and back among, the core's unscoped buffers -/

theorem split0 (c : Dev nD) : (unscopedBufs c (E0 m c) : sProp 𝕄)
    ⊢ iprop((dat0 (E0 m) c).arrays (dat0 (E0 m) c).A ∗ Pipeline.unscopedRest (Ix := Unit) (Name := ℕ) (U := UR sig nD τ) (Lvl := ℕ) spec0 c (E0 m c)) := by
  rw [Pipeline.unscopedBufs_split₀ (Pipeline.pin (pcfgs (F := F)) Gen.adm) (0 : Fin 2) Gen.winFacts₀0.arr_unscoped c (E0 m c)]
  exact sep_mono (arrays0_of_bufs (dat0 (E0 m) c) rfl rfl (E0 m c) _ (A_eq0 (E0 m) c 0) (A_eq0 (E0 m) c 1) (A_eq0 (E0 m) c 2) (A_eq0 (E0 m) c 3)) .rfl

theorem join0 (c : Dev nD) : iprop((dat0 (E0 m) c).arrays ((dat0 (E0 m) c).arrAt · cfg0.N)
      ∗ Pipeline.unscopedRest (Ix := Unit) (Name := ℕ) (U := UR sig nD τ) (Lvl := ℕ) spec0 c (E0 m c))
    ⊢ (unscopedBufs c (fun b => W3 m c b) : sProp 𝕄) := by
  rw [Pipeline.unscopedBufs_split₀ (Pipeline.pin (pcfgs (F := F)) Gen.adm) (0 : Fin 2) Gen.winFacts₀0.arr_unscoped c (fun b => W3 m c b)]
  refine sep_mono (bufs_of_arrays0 (dat0 (E0 m) c) rfl rfl (fun b => W3 m c b) _
      (((dat0 (E0 m) c).arrAt_in 0 rfl _).trans ((A_eq0 (E0 m) c 0).trans (W3_of m c main_v7 (by decide)).symm))
      (((dat0 (E0 m) c).arrAt_in 1 rfl _).trans ((A_eq0 (E0 m) c 1).trans (W3_of m c main_v7 (by decide)).symm))
      (W3_v8_0 m c).symm (W3_v8_1 m c).symm) (Entails.of_eq ?_)
  unfold Pipeline.unscopedRest
  exact bigSep_congr fun b hb => by
    have hb' := (Finset.mem_sdiff.mp hb).2
    rw [show E0 m c b = W3 m c b from (W3_of m c b (fun h => hb' (by
      rcases List.mem_cons.mp h with rfl | h
      · exact Finset.mem_image.mpr ⟨2, Finset.mem_univ _, rfl⟩
      · rcases List.mem_cons.mp h with rfl | h
        · exact Finset.mem_image.mpr ⟨3, Finset.mem_univ _, rfl⟩
        · exact absurd h (List.not_mem_nil)))).symm]

theorem split1 (c : Dev nD) : (unscopedBufs c (E1 m c) : sProp 𝕄)
    ⊢ iprop((dat1 (E1 m) c).arrays (dat1 (E1 m) c).A ∗ Pipeline.unscopedRest (Ix := Unit) (Name := ℕ) (U := UR sig nD τ) (Lvl := ℕ) spec1 c (E1 m c)) := by
  rw [Pipeline.unscopedBufs_split₀ (Pipeline.pin (pcfgs (F := F)) Gen.adm) (1 : Fin 2) Gen.winFacts₀1.arr_unscoped c (E1 m c)]
  exact sep_mono (arrays1_of_bufs (dat1 (E1 m) c) rfl rfl rfl rfl (E1 m c) _ (A_eq1 (E1 m) c 0) (A_eq1 (E1 m) c 1) (A_eq1 (E1 m) c 2) (A_eq1 (E1 m) c 3) (A_eq1 (E1 m) c 4)) .rfl

theorem join1 (c : Dev nD) : iprop((dat1 (E1 m) c).arrays ((dat1 (E1 m) c).arrAt · cfg1.N)
      ∗ Pipeline.unscopedRest (Ix := Unit) (Name := ℕ) (U := UR sig nD τ) (Lvl := ℕ) spec1 c (E1 m c))
    ⊢ (unscopedBufs c (fun b => W5 m c b) : sProp 𝕄) := by
  rw [Pipeline.unscopedBufs_split₀ (Pipeline.pin (pcfgs (F := F)) Gen.adm) (1 : Fin 2) Gen.winFacts₀1.arr_unscoped c (fun b => W5 m c b)]
  refine sep_mono (bufs_of_arrays1 (dat1 (E1 m) c) rfl rfl rfl rfl (fun b => W5 m c b) _
      (((dat1 (E1 m) c).arrAt_in 0 rfl _).trans ((A_eq1 (E1 m) c 0).trans (W5_of m c main_v7 (by decide)).symm))
      (((dat1 (E1 m) c).arrAt_in 1 rfl _).trans ((A_eq1 (E1 m) c 1).trans (W5_of m c main_v7 (by decide)).symm))
      (((dat1 (E1 m) c).arrAt_in 2 rfl _).trans ((A_eq1 (E1 m) c 2).trans (W5_of m c main_v11 (by decide)).symm))
      (((dat1 (E1 m) c).arrAt_in 3 rfl _).trans ((A_eq1 (E1 m) c 3).trans (W5_of m c main_v12 (by decide)).symm))
      (W5_v13 m c).symm) (Entails.of_eq ?_)
  unfold Pipeline.unscopedRest
  exact bigSep_congr fun b hb => by
    have hb' := (Finset.mem_sdiff.mp hb).2
    rw [show E1 m c b = W5 m c b from (W5_of m c b (fun h => hb' (by
      rcases List.mem_cons.mp h with rfl | h
      · exact Finset.mem_image.mpr ⟨4, Finset.mem_univ _, rfl⟩
      · exact absurd h (List.not_mem_nil)))).symm]

/-! ## The two calls as regions of @main -/

-- a library lemma stated over the pinned configuration unifies with the printed one only when unification may unfold
-- plain definitions in a metavariable's type
set_option backward.isDefEq.respectTransparency.types false in
/-- The statistics call over the thread state: entered from every unscoped buffer at the padded matrix's contents, left
    with the two statistics arrays at what the call's write-backs leave. The matrix's buffer is dealt to its two windows
    at entry and made whole again at exit; the generator register goes into the call's invariant and comes back; nothing
    is owed; the kernel has no semaphore of its own. -/
def reg0 : Pipeline.RegionSeg (pcfgs (F := F)) Gen.adm (pdats m) () defs₀ 𝒱₀ L lv 0 where
  win := Gen.winFacts₀0
  block_pos := Gen.block_pos0
  stage_whole := Gen.stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := split0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := join0 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The normalising call over the thread state: entered from every unscoped buffer at the contents the host's re-reduction
    leaves, left with the distance matrix at what the call's write-backs leave. -/
def reg1 : Pipeline.RegionSeg (pcfgs (F := F)) Gen.adm (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := split1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as items, and the launch -/

/-- A host stretch as an item: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's six items in order. -/
abbrev segs : List (Pipeline.Seg (pcfgs (F := F)) Gen.adm (pdats m) () defs₀ 𝒱₀ L lv) :=
  [ .host (hseg Gen.hostOps0 Gen.hostOps0_sub Gen.hostOps0_fresh (Gen.V0 m)),
    .host (hseg Gen.hostOps0_1 Gen.hostOps0_1_sub Gen.hostOps0_1_fresh (Gen.V1 m)),
    .region (reg0 m),
    .host (hseg Gen.hostOps1 Gen.hostOps1_sub Gen.hostOps1_fresh (W3 m)),
    .region (reg1 m),
    .host (hseg Gen.hostOps2 Gen.hostOps2_sub Gen.hostOps2_fresh (W5 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and
    every final memory holds every unscoped buffer at the last contents `W6`: in particular the result at `W6 … main_v14`
    and the argument as launched. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) Gen.adm (pdats m) () Gen.cellOf_inj emb₁ defs₀ 𝒱₀ L lv m ρ main (segs m)
    (fun c Q => by
      rewrite [Gen.main_chain c, Pipeline.Seg.run_eq_chain,
        show (segs m).map Pipeline.Seg.prog = [
          StableHlo.seq Gen.hostOps0,
          StableHlo.seq Gen.hostOps0_1,
          Prog.lift (.customCall (Pipeline.entry 0) ()),
          StableHlo.seq Gen.hostOps1,
          Prog.lift (.customCall (Pipeline.entry 1) ()),
          StableHlo.seq Gen.hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME at any `F`: the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W6_main_arg0 m c)) (run_all m ρ)

end Cert.Kernel.Hand

end
-- ==== Proof.KI.Arrays.lean ====
/-
  Both calls read the padded feature matrix through TWO input windows — a row block that moves with grid axis 0 and the
  whole matrix, resident — so the one buffer behind them is held by the two windows together: each holds half of it.
  Here: the distinct buffers behind a call's windows, each whole, ARE the call's windowed arrays at those shares
  (the matrix's full share split in its two halves, the outputs' buffers outright), in both directions, provided
  the two windows on the matrix are stated at the same contents.
-/
import proofs.«118980_j8813272891856_2_alg».proof.Proof.Gen.KernelIdeal.Launch
import Idealize.ShloMosaic.Lib.Pipeline.Kit
import Idealize.ShloMosaic.Lib.Pipeline.Regions
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The statistics call: the matrix twice, the two statistics arrays -/

/-- The distinct buffers behind the statistics call's windows: the matrix and the two statistics arrays. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v7) ↦{fullShare} V main_v7) ∗ (((c : Thread nD τ).loc main_v8_0) ↦{fullShare} V main_v8_0)
          ∗ (((c : Thread nD τ).loc main_v8_1) ↦{fullShare} V main_v8_1)) := by
  unfold Pipeline.arrBufs
  exact bigSep_eq_bigSepL_of_eq [main_v7, main_v8_0, main_v8_1] (by decide) (by decide) _

/-- The statistics call's windowed arrays, window by window, at the shares a proof data with the matrix halved states. -/
theorem arrays0_eq {c : Dev nD} (dat : Dat τ (Elt F) Unit ℕ (UR sig nD τ) ℕ cfg0 c)
    (hq0 : dat.q 0 = fullShare.left) (hq1 : dat.q 1 = fullShare.right)
    (A : (w : Fin cfg0.W) → Buf (Elt F) ((cfg0.win w).arr.view.loc (c : Thread nD τ))) :
    (dat.arrays A : sProp 𝕄)
      = iprop((((c : Thread nD τ).loc main_v7) ↦{fullShare.left} A 0) ∗ (((c : Thread nD τ).loc main_v7) ↦{fullShare.right} A 1)
          ∗ (((c : Thread nD τ).loc main_v8_0) ↦{fullShare} A 2) ∗ (((c : Thread nD τ).loc main_v8_1) ↦{fullShare} A 3)) := by
  unfold Dat.arrays
  rw [bigSep_W0]
  rw [show dat.share 0 = fullShare.left from hq0, show dat.share 1 = fullShare.right from hq1,
    show dat.share 2 = fullShare from rfl, show dat.share 3 = fullShare from rfl,
    (arr_whole0 0).set_eq_univ, (arr_whole0 2).set_eq_univ, (arr_whole0 3).set_eq_univ]

/-- ENTRY: the distinct buffers, each whole at a valuation, give the statistics call's arrays at contents read off that
    valuation — the matrix's full share dealt to its two windows, a half each. -/
theorem arrays0_of_bufs {c : Dev nD} (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (A : (w : Fin cfg0.W) → Buf (Elt F) ((cfg0.win w).arr.view.loc (c : Thread nD τ)))
    (h0 : A 0 = V main_v7) (h1 : A 1 = V main_v7) (h2 : A 2 = V main_v8_0) (h3 : A 3 = V main_v8_1) :
    (Pipeline.arrBufs (Ix := Unit) (Name := ℕ) (U := UR sig nD τ) (Lvl := ℕ) spec0 c V : sProp 𝕄) ⊢ dat.arrays A := by
  rw [arrBufs0_eq, arrays0_eq dat hq0 hq1, h0, h1, h2, h3]
  iintro ⟨H7, H80, H81⟩
  ihave H7' := (pointsTo_share (PosShare.mem_left_op_right fullShare)).1 $$ H7
  icases H7' with ⟨Ha, Hb⟩
  isplitl [Ha]; · iexact Ha
  isplitl [Hb]; · iexact Hb
  isplitl [H80]; · iexact H80
  iexact H81

/-- EXIT: the converse — the two halves of the matrix, stated at the same contents, are its full share again. -/
theorem bufs_of_arrays0 {c : Dev nD} (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (A : (w : Fin cfg0.W) → Buf (Elt F) ((cfg0.win w).arr.view.loc (c : Thread nD τ)))
    (h0 : A 0 = V main_v7) (h1 : A 1 = V main_v7) (h2 : A 2 = V main_v8_0) (h3 : A 3 = V main_v8_1) :
    (dat.arrays A : sProp 𝕄) ⊢ Pipeline.arrBufs (Ix := Unit) (Name := ℕ) (U := UR sig nD τ) (Lvl := ℕ) spec0 c V := by
  rw [arrBufs0_eq, arrays0_eq dat hq0 hq1, h0, h1, h2, h3]
  iintro ⟨Ha, Hb, H80, H81⟩
  isplitl [Ha Hb]
  · iapply (pointsTo_share (PosShare.mem_left_op_right fullShare)).2
    isplitl [Ha]; · iexact Ha
    iexact Hb
  isplitl [H80]; · iexact H80
  iexact H81

/-! ## The normalising call: the matrix twice, the two statistics as [1,1] arrays, the result -/

/-- The distinct buffers behind the normalising call's windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v7) ↦{fullShare} V main_v7) ∗ (((c : Thread nD τ).loc main_v11) ↦{fullShare} V main_v11)
          ∗ (((c : Thread nD τ).loc main_v12) ↦{fullShare} V main_v12) ∗ (((c : Thread nD τ).loc main_v13) ↦{fullShare} V main_v13)) := by
  unfold Pipeline.arrBufs
  exact bigSep_eq_bigSepL_of_eq [main_v7, main_v11, main_v12, main_v13] (by decide) (by decide) _

/-- The normalising call's windowed arrays, window by window. -/
theorem arrays1_eq {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (A : (w : Fin cfg1.W) → Buf (Elt F) ((cfg1.win w).arr.view.loc (c : Thread nD τ))) :
    (dat.arrays A : sProp 𝕄)
      = iprop((((c : Thread nD τ).loc main_v7) ↦{fullShare.left} A 0) ∗ (((c : Thread nD τ).loc main_v7) ↦{fullShare.right} A 1)
          ∗ (((c : Thread nD τ).loc main_v11) ↦{fullShare} A 2) ∗ (((c : Thread nD τ).loc main_v12) ↦{fullShare} A 3)
          ∗ (((c : Thread nD τ).loc main_v13) ↦{fullShare} A 4)) := by
  unfold Dat.arrays
  rw [bigSep_W1]
  rw [show dat.share 0 = fullShare.left from hq0, show dat.share 1 = fullShare.right from hq1,
    show dat.share 2 = fullShare from hq2, show dat.share 3 = fullShare from hq3, show dat.share 4 = fullShare from rfl,
    (arr_whole1 0).set_eq_univ, (arr_whole1 2).set_eq_univ, (arr_whole1 3).set_eq_univ, (arr_whole1 4).set_eq_univ]

/-- ENTRY, the normalising call. -/
theorem arrays1_of_bufs {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (A : (w : Fin cfg1.W) → Buf (Elt F) ((cfg1.win w).arr.view.loc (c : Thread nD τ)))
    (h0 : A 0 = V main_v7) (h1 : A 1 = V main_v7) (h2 : A 2 = V main_v11) (h3 : A 3 = V main_v12) (h4 : A 4 = V main_v13) :
    (Pipeline.arrBufs (Ix := Unit) (Name := ℕ) (U := UR sig nD τ) (Lvl := ℕ) spec1 c V : sProp 𝕄) ⊢ dat.arrays A := by
  rw [arrBufs1_eq, arrays1_eq dat hq0 hq1 hq2 hq3, h0, h1, h2, h3, h4]
  iintro ⟨H7, H11, H12, H13⟩
  ihave H7' := (pointsTo_share (PosShare.mem_left_op_right fullShare)).1 $$ H7
  icases H7' with ⟨Ha, Hb⟩
  isplitl [Ha]; · iexact Ha
  isplitl [Hb]; · iexact Hb
  isplitl [H11]; · iexact H11
  isplitl [H12]; · iexact H12
  iexact H13

/-- EXIT, the normalising call. -/
theorem bufs_of_arrays1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (A : (w : Fin cfg1.W) → Buf (Elt F) ((cfg1.win w).arr.view.loc (c : Thread nD τ)))
    (h0 : A 0 = V main_v7) (h1 : A 1 = V main_v7) (h2 : A 2 = V main_v11) (h3 : A 3 = V main_v12) (h4 : A 4 = V main_v13) :
    (dat.arrays A : sProp 𝕄) ⊢ Pipeline.arrBufs (Ix := Unit) (Name := ℕ) (U := UR sig nD τ) (Lvl := ℕ) spec1 c V := by
  rw [arrBufs1_eq, arrays1_eq dat hq0 hq1 hq2 hq3, h0, h1, h2, h3, h4]
  iintro ⟨Ha, Hb, H11, H12, H13⟩
  isplitl [Ha Hb]
  · iapply (pointsTo_share (PosShare.mem_left_op_right fullShare)).2
    isplitl [Ha]; · iexact Ha
    iexact Hb
  isplitl [H11]; · iexact H11
  isplitl [H12]; · iexact H12
  iexact H13

end Cert.KernelIdeal.Hand

end
-- ==== Proof.KI.Body0Runs.lean ====
/-
  The statistics kernel's body: what its two control cases share.

  At grid point (a, b) the body forms the 1280 × 1280 tile of scaled squared distances between rows
  1280·a … and rows 1280·b … of the padded feature array, takes the tile's least and greatest entry, and keeps a
  running minimum and a running maximum across the second grid coordinate in its two output blocks: at b = 0 the
  blocks are set to the tile's extremes, at b > 0 they are combined with what the point before left. The two
  conditions are decided from the point's position in the grid: the first holds at the positions ≡ 0 (mod 5), the second
  at all the others, so no position leaves the outputs untouched.
-/
import proofs.«118980_j8813272891856_2_alg».proof.Proof.Gen.KernelIdeal.Launch
import proofs.«118980_j8813272891856_2_alg».proof.Proof.Gen.KernelIdeal.Skeleton
import proofs.«118980_j8813272891856_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle of the tile's extents is looked at once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the
    pipeline does not fetch, the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "The second grid coordinate is 0": the blocks are set. -/
abbrev cond0_0 (i : grid0.Coords) : Prop := k0_cond1 i = 1#1
/-- It holds at the positions ≡ 0 (mod 5). -/
theorem hcond0_0 : ∀ t : Fin cfg0.N, cond0_0 (grid0.coords t) ↔ t.val % 5 = 0 :=
  (by decide +kernel : ∀ t : Fin grid0.N, cond0_0 (grid0.coords t) ↔ t.val % 5 = 0)

/-- "The second grid coordinate is not 0": the blocks are combined with what they held. -/
abbrev cond0_1 (i : grid0.Coords) : Prop := k0_cond2 i = 1#1
/-- It holds at all the other positions. -/
theorem hcond0_1 : ∀ t : Fin cfg0.N, cond0_1 (grid0.coords t) ↔ ¬t.val % 5 = 0 :=
  (by decide +kernel : ∀ t : Fin grid0.N, cond0_1 (grid0.coords t) ↔ ¬t.val % 5 = 0)

/-! ## No point leaves an output untouched -/

/-- One of the two conditions holds whatever the coordinates, so the outputs are stored into at every point. -/
theorem live0_2 : ∀ i : grid0.Coords, cfg0.idle 2 i = false := by
  intro i
  show (!(k0_cond1 i == 1#1) && !(k0_cond2 i == 1#1)) = false
  unfold k0_cond1 k0_cond2
  have h : (i 1).val < 5 := (i 1).isLt
  generalize (i 1).val = n at h
  interval_cases n <;> decide
theorem live0_3 : ∀ i : grid0.Coords, cfg0.idle 3 i = false := live0_2
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := live0_2 _
theorem liveAt0_3 (t : Fin cfg0.N) : cfg0.idle 3 (grid0.coords t) = false := live0_3 _

/-! ## The body's accesses and its staging memrefs -/

/-- The whole 1280 × 128 row block (the first window's buffer). -/
abbrev r0_rows : Rect S1280x128 := Rect.unit (s := S1280x128) ![0, 0] S1280x128.size inb_S1280x128_S1280x128_0_0
/-- The 1280 rows of the staged array that the point's second coordinate selects: offset 1280·b on the row axis. -/
abbrev r0_cols (i : grid0.Coords) : Rect S6400x128 := Rect.unit (s := S6400x128) (k0_off1 i) S1280x128.size (k0_off1_inb i)
/-- A whole 8 × 128 output block. -/
abbrev r0_blk : Rect S8x128 := Rect.unit (s := S8x128) ![0, 0] S8x128.size inb_S8x128_S8x128_0_0

theorem zero2_0 : (![0, 0] : Fin 2 → Nat) = fun _ => 0 := funext fun a => by fin_cases a <;> rfl

/-- One staging buffer of each output window, through which its contents are stated (the choice does not matter). -/
abbrev VO0_2 : View sig .tc .vmem S8x128 .f32 := (Memref.whole cc0_stg2_0 : Memref sig .tc .vmem S8x128 .f32).view
abbrev VO0_3 : View sig .tc .vmem S8x128 .f32 := (Memref.whole cc0_stg3_0 : Memref sig .tc .vmem S8x128 .f32).view
/-- Each window's current staging memref at point `t`, spelled as the pipeline passes it, and its wholeness. -/
abbrev ms0_0 (t : Fin cfg0.N) : Memref sig .tc .vmem S1280x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6400x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KI.Body0RunA.lean ====
/-
  The statistics kernel's body at a position whose second grid coordinate is 0: both output blocks are set to the
  tile's extremes. The body's triple is stated with the pieces each output ends with as its witness.
-/
import proofs.«118980_j8813272891856_2_alg».proof.Proof.KI.Body0Runs

-- membership in a rectangle of the tile's extents is looked at once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- What the body's stores leave in each output's staging memref, as pieces (last first), where the first condition
    holds and the second does not, with the proof that on whole staging memrefs — the inputs' at their contents, the
    outputs' at anything — the body runs to the continuation holding the inputs' as they were and each output's
    buffer with its pieces written. -/
noncomputable def kernelRun0_A (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : cond0_0 i) (hc1 : ¬cond0_1 i)
    (x0 : Vec F S1280x128 .f32) (x1 : Vec F S6400x128 .f32) :
    Σ' (L2 : List (View.Piece (Elt F) S8x128 .f32)), { L3 : List (View.Piece (Elt F) S8x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__stats_kernel i arg2 harg2 arg3 harg3 arg4 harg4 arg5 harg5) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KI.Body0RunB.lean ====
/-
  The statistics kernel's body at a position whose second grid coordinate is not 0: each output block is combined,
  entry by entry, with what the position before left in it (the minimum for the first, the maximum for the second).
  The body's triple is stated with the pieces each output ends with as its witness.
-/
import proofs.«118980_j8813272891856_2_alg».proof.Proof.KI.Body0RunA

-- membership in a rectangle of the tile's extents is looked at once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- What the body's stores leave in each output's staging memref, as pieces (last first), where the first condition
    fails and the second holds, with the proof that on whole staging memrefs — the inputs' at their contents, the
    outputs' at their running contents `xo·` — the body runs to the continuation holding the inputs' as they were and
    each output's buffer with its pieces written. -/
noncomputable def kernelRun0_B (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : ¬cond0_0 i) (hc1 : cond0_1 i)
    (x0 : Vec F S1280x128 .f32) (x1 : Vec F S6400x128 .f32) (xo2 : Vec F S8x128 .f32) (xo3 : Vec F S8x128 .f32) :
    Σ' (L2 : List (View.Piece (Elt F) S8x128 .f32)), { L3 : List (View.Piece (Elt F) S8x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__stats_kernel i arg2 harg2 arg3 harg3 arg4 harg4 arg5 harg5) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KI.Body0.lean ====
/-
  The statistics kernel's proof data and body obligation, at any contents `V` of the TensorCore's buffers when its
  region is entered.

  What the two output blocks hold after each grid position is defined by recursion on the position: at a position
  whose second coordinate is 0 the tile's least and greatest entry, spread over the block; at any other position the
  entrywise minimum (maximum) of that and of what the position before left. The blocks are written back only after
  the last position of each row of the grid, so between two positions of a row the buffer still holds what the body left.
-/
import proofs.«118980_j8813272891856_2_alg».proof.Proof.KI.Body0RunB

-- membership in a rectangle of the tile's extents is looked at once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## What each case leaves in the outputs -/

/-- The first case's one store into each output is of the whole block, so its pieces cover it. -/
theorem cover0_A_2 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : cond0_0 i) (hc1 : ¬cond0_1 i) (x0 : Vec F S1280x128 .f32) (x1 : Vec F S6400x128 .f32) (y : S8x128.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S8x128.size (by sl_kernel_rfl) y
theorem cover0_A_3 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : cond0_0 i) (hc1 : ¬cond0_1 i) (x0 : Vec F S1280x128 .f32) (x1 : Vec F S6400x128 .f32) (y : S8x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S8x128.size (by sl_kernel_rfl) y

/-- What the first case leaves in the minimum's block, and in the maximum's: its pieces read back. -/
def out0_A_2 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : cond0_0 i) (hc1 : ¬cond0_1 i) (x0 : Vec F S1280x128 .f32) (x1 : Vec F S6400x128 .f32) : Vec F S8x128 .f32 :=
  VO0_2.read (Elt F) (VO0_2.writes (Elt F) VO0_2.junk (kernelRun0_A c i arg2 harg2 arg3 harg3 arg4 harg4 arg5 harg5 hc0 hc1 x0 x1).1)
def out0_A_3 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : cond0_0 i) (hc1 : ¬cond0_1 i) (x0 : Vec F S1280x128 .f32) (x1 : Vec F S6400x128 .f32) : Vec F S8x128 .f32 :=
  VO0_3.read (Elt F) (VO0_3.writes (Elt F) VO0_3.junk (kernelRun0_A c i arg2 harg2 arg3 harg3 arg4 harg4 arg5 harg5 hc0 hc1 x0 x1).2.1)

/-- The second case's one store into each output is of the whole block, so its pieces cover it. -/
theorem cover0_B_2 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : ¬cond0_0 i) (hc1 : cond0_1 i) (x0 : Vec F S1280x128 .f32) (x1 : Vec F S6400x128 .f32) (xo2 : Vec F S8x128 .f32) (xo3 : Vec F S8x128 .f32) (y : S8x128.Idx) :
    ∃ pc ∈ (kernelRun0_B c i arg2 harg2 arg3 harg3 arg4 harg4 arg5 harg5 hc0 hc1 x0 x1 xo2 xo3).1, y ∈ pc.1.set :=
  View.cover_of_tiledL (kernelRun0_B c i arg2 harg2 arg3 harg3 arg4 harg4 arg5 harg5 hc0 hc1 x0 x1 xo2 xo3).1 S8x128.size (by sl_kernel_rfl) y
theorem cover0_B_3 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : ¬cond0_0 i) (hc1 : cond0_1 i) (x0 : Vec F S1280x128 .f32) (x1 : Vec F S6400x128 .f32) (xo2 : Vec F S8x128 .f32) (xo3 : Vec F S8x128 .f32) (y : S8x128.Idx) :
    ∃ pc ∈ (kernelRun0_B c i arg2 harg2 arg3 harg3 arg4 harg4 arg5 harg5 hc0 hc1 x0 x1 xo2 xo3).2.1, y ∈ pc.1.set :=
  View.cover_of_tiledL (kernelRun0_B c i arg2 harg2 arg3 harg3 arg4 harg4 arg5 harg5 hc0 hc1 x0 x1 xo2 xo3).2.1 S8x128.size (by sl_kernel_rfl) y

/-- What the second case leaves in the minimum's block, and in the maximum's: its pieces read back. -/
def out0_B_2 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : ¬cond0_0 i) (hc1 : cond0_1 i) (x0 : Vec F S1280x128 .f32) (x1 : Vec F S6400x128 .f32) (xo2 : Vec F S8x128 .f32) (xo3 : Vec F S8x128 .f32) : Vec F S8x128 .f32 :=
  VO0_2.read (Elt F) (VO0_2.writes (Elt F) VO0_2.junk (kernelRun0_B c i arg2 harg2 arg3 harg3 arg4 harg4 arg5 harg5 hc0 hc1 x0 x1 xo2 xo3).1)
def out0_B_3 (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : ¬cond0_0 i) (hc1 : cond0_1 i) (x0 : Vec F S1280x128 .f32) (x1 : Vec F S6400x128 .f32) (xo2 : Vec F S8x128 .f32) (xo3 : Vec F S8x128 .f32) : Vec F S8x128 .f32 :=
  VO0_3.read (Elt F) (VO0_3.writes (Elt F) VO0_3.junk (kernelRun0_B c i arg2 harg2 arg3 harg3 arg4 harg4 arg5 harg5 hc0 hc1 x0 x1 xo2 xo3).2.1)

/-! ## What the outputs hold after each position -/

/-- Both blocks after a position of the first case: the case run at the position's memrefs and input blocks. -/
def outsA (c : Dev nD) (t : Fin cfg0.N) (h0 : t.val % 5 = 0) : Vec F S8x128 .f32 × Vec F S8x128 .f32 :=
  (out0_A_2 c (grid0.coords t) (ms0_0 t) (hs0_0 t) (ms0_1 t) (hs0_1 t) (ms0_2 t) (hs0_2 t) (ms0_3 t) (hs0_3 t) ((hcond0_0 t).mpr h0) (fun h => (hcond0_1 t).mp h h0) (iblk0 V c 0 t) (iblk0 V c 1 t),
   out0_A_3 c (grid0.coords t) (ms0_0 t) (hs0_0 t) (ms0_1 t) (hs0_1 t) (ms0_2 t) (hs0_2 t) (ms0_3 t) (hs0_3 t) ((hcond0_0 t).mpr h0) (fun h => (hcond0_1 t).mp h h0) (iblk0 V c 0 t) (iblk0 V c 1 t))

/-- Both blocks after a position of the second case, over what the position before left (`p`). -/
def outsB (c : Dev nD) (t : Fin cfg0.N) (h0 : ¬t.val % 5 = 0) (p : Vec F S8x128 .f32 × Vec F S8x128 .f32) :
    Vec F S8x128 .f32 × Vec F S8x128 .f32 :=
  (out0_B_2 c (grid0.coords t) (ms0_0 t) (hs0_0 t) (ms0_1 t) (hs0_1 t) (ms0_2 t) (hs0_2 t) (ms0_3 t) (hs0_3 t) (fun h => h0 ((hcond0_0 t).mp h)) ((hcond0_1 t).mpr h0) (iblk0 V c 0 t) (iblk0 V c 1 t) p.1 p.2,
   out0_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h0) (iblk0 V c 0 t) (iblk0 V c 1 t) p.1 p.2)

/-- THE RUNNING EXTREMES. What the two output blocks hold after the body at position `n`: the case the position is
    in, the second over what this leaves at `n - 1`. -/
def outsAt0 (c : Dev nD) : (n : ℕ) → n < cfg0.N → Vec F S8x128 .f32 × Vec F S8x128 .f32
  | 0, hn => outsA V c ⟨0, hn⟩ (Nat.zero_mod _)
  | n + 1, hn =>
    if h0 : (n + 1) % 5 = 0 then outsA V c ⟨n + 1, hn⟩ h0
    else outsB V c ⟨n + 1, hn⟩ h0 (outsAt0 c n (Nat.lt_of_succ_lt hn))

/-- `outsAt0` at a position of the first case. -/
theorem outsAt0_A (c : Dev nD) (t : Fin cfg0.N) (h0 : t.val % 5 = 0) :
    outsAt0 V c t.val t.isLt = outsA V c t h0 := by
  obtain ⟨n, hn⟩ := t
  cases n with
  | zero => exact rfl
  | succ n => exact (dif_pos h0).trans rfl

/-- `outsAt0` at a position of the second case: over what the position before left. -/
theorem outsAt0_B (c : Dev nD) (t : Fin cfg0.N) (h0 : ¬t.val % 5 = 0) :
    outsAt0 V c t.val t.isLt = outsB V c t h0 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the statistics pipeline on core `c`: the arrays as the region finds them; after the body at
    position `t` each input's buffer at its block and the two outputs' at the running extremes; the invariant the
    core's other scoped buffers and its random-number register, untouched; nothing owed. The two input windows are
    both on the one padded feature array, so each holds half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q := fun
    | ⟨0, _⟩ => fullShare.left
    | ⟨1, _⟩ => fullShare.right
    | ⟨2, _⟩ => fullShare
    | ⟨3, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

/-- The shares of the windows' arrays: the two windows on the padded feature array hold a half each. -/
theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]
theorem q0_3 (c : Dev nD) : (dat0 V c).q 3 = fullShare := by dsimp only [dat0]

/-- Each input's current staging buffer holds its block at every position, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a position of the second case each output's current staging buffer holds what the body left at the position
    before: the position is not the first, and the block is written back only after a position ≡ 4 (mod 5), which the
    one before this is not. -/
theorem before0_2_B (c : Dev nD) (t : Fin cfg0.N) (h0 : ¬t.val % 5 = 0) (d) :
    (dat0 V c).before 2 t d = (outsAt0 V c (t.val - 1) (Nat.lt_of_le_of_lt (Nat.sub_le _ _) t.isLt)).1 := by
  have hN : t.val < 25 := lt_of_lt_of_eq t.isLt (show cfg0.N = 25 from N_0)
  rw [Dat.before_out_kept _ 2 rfl t (by omega) (Bool.eq_false_iff.mpr fun h => by have := (flush0_2 _).mp h; dsimp only at this; omega)
    live0_2 (fun _ _ => rfl)]
  dsimp only [dat0]
theorem before0_3_B (c : Dev nD) (t : Fin cfg0.N) (h0 : ¬t.val % 5 = 0) (d) :
    (dat0 V c).before 3 t d = (outsAt0 V c (t.val - 1) (Nat.lt_of_le_of_lt (Nat.sub_le _ _) t.isLt)).2 := by
  have hN : t.val < 25 := lt_of_lt_of_eq t.isLt (show cfg0.N = 25 from N_0)
  rw [Dat.before_out_kept _ 3 rfl t (by omega) (Bool.eq_false_iff.mpr fun h => by have := (flush0_3 _).mp h; dsimp only at this; omega)
    live0_3 (fun _ _ => rfl)]
  dsimp only [dat0]

/-- No window is left untouched at any position, so what the body returns of each is what it leaves there. -/
theorem leaves0_0 (c : Dev nD) (t : Fin cfg0.N) :
    (dat0 V c).leavesExact 0 t = owns (c : Thread nD τ) (ms0_0 t) fullShare ((dat0 V c).after 0 t) := by
  unfold Dat.leavesExact; rw [liveAt0_0 t]
theorem leaves0_1 (c : Dev nD) (t : Fin cfg0.N) :
    (dat0 V c).leavesExact 1 t = owns (c : Thread nD τ) (ms0_1 t) fullShare ((dat0 V c).after 1 t) := by
  unfold Dat.leavesExact; rw [liveAt0_1 t]
theorem leaves0_2 (c : Dev nD) (t : Fin cfg0.N) :
    (dat0 V c).leavesExact 2 t = owns (c : Thread nD τ) (ms0_2 t) fullShare ((dat0 V c).after 2 t) := by
  unfold Dat.leavesExact; rw [liveAt0_2 t]
theorem leaves0_3 (c : Dev nD) (t : Fin cfg0.N) :
    (dat0 V c).leavesExact 3 t = owns (c : Thread nD τ) (ms0_3 t) fullShare ((dat0 V c).after 3 t) := by
  unfold Dat.leavesExact; rw [liveAt0_3 t]

/-! ## The body obligation, at a generic position -/

/-- What the body is called with at position `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1600000 in
/-- The body at any position: the inputs' memrefs hold their blocks; the position's place in its row says which case it
    is in; in the second case each output holds what the position before left; so the case's run applies. The invariant
    passes through unread and the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    leaves0_0, leaves0_1, leaves0_2, leaves0_3, after0_0, after0_1, after0_2, after0_3]
  have hN : t.val < 25 := lt_of_lt_of_eq t.isLt (show cfg0.N = 25 from N_0)
  by_cases h0 : t.val % 5 = 0
  · rw [outsAt0_A V c t h0]
    unfold outsA out0_A_2 out0_A_3; dsimp only
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (fun h => (hcond0_1 t).mp h h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _)
    unfold owns; iexists _; isplitr
    swap; · iexact H3
    ipureintro; exact View.read_writes_of_cover _ _ _ _ _ (cover0_A_3 c _ _ _ _ _ _ _ _ _ _ _ _ _)
  · rw [outsAt0_B V c t h0]
    simp only [before0_2_B V c t h0, before0_3_B V c t h0]
    unfold outsB out0_B_2 out0_B_3; dsimp only
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) ((hcond0_1 t).mpr h0) (iblk0 V c 0 t) (iblk0 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _)

/-- The library's body obligation, at every position. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The normalising kernel's body, at any contents `V` of the TensorCore's buffers when its region is entered.

  At grid point (a, b) the body reads rows 1280·a … 1280·a + 1279 of the padded feature array through its first
  window, rows 1280·b … of the same array through the second (the whole array is staged once and the rows are
  cut out of it at the offset the point computes), the two one-element arrays holding the least and the greatest
  distance, and stores the 1280 × 1280 tile of normalised distances. What the output's buffer holds after the body
  is therefore one function of the four input blocks and of the point; this module states that function, proves
  the body's triple against it, and assembles the pipeline's proof data and body obligation from it.
-/
import proofs.«118980_j8813272891856_2_alg».proof.Proof.Gen.KernelIdeal.Launch
import proofs.«118980_j8813272891856_2_alg».proof.Proof.Gen.KernelIdeal.Skeleton
import proofs.«118980_j8813272891856_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle of the tile's extents is looked at once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the
    pipeline does not fetch, the block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1280 × 128 row block (the first window's buffer). -/
abbrev r1_rows : Rect S1280x128 := Rect.unit (s := S1280x128) ![0, 0] S1280x128.size inb_S1280x128_S1280x128_0_0
/-- The 1280 rows of the staged array that the point's second coordinate selects: offset 1280·b on the row axis. -/
abbrev r1_cols (i : grid1.Coords) : Rect S6400x128 := Rect.unit (s := S6400x128) (k1_off1 i) S1280x128.size (k1_off1_inb i)
/-- The one element of a 1 × 1 buffer. -/
abbrev r1_one : Rect S1x1 := Rect.unit (s := S1x1) ![0, 0] S1x1.size inb_S1x1_S1x1_0_0
/-- The whole 1280 × 1280 output tile. -/
abbrev r1_tile : Rect S1280x1280 := Rect.unit (s := S1280x1280) ![0, 0] S1280x1280.size inb_S1280x1280_S1280x1280_0_0

/-! ## What the body leaves in the output window's buffer -/

/-- The output's staging buffer after the body at grid point `i`, from the input windows' blocks: its one store, of the
    normalised tile computed from the row block, the rows cut out of the staged array at the point's offset, and the
    two extremes. -/
def out1_4 (i : grid1.Coords) (x0 : Vec F S1280x128 .f32) (x1 : Vec F S6400x128 .f32) (x2 : Vec F S1x1 .f32) (x3 : Vec F S1x1 .f32) :
    Vec F S1280x1280 .f32 :=
  View.canon [⟨r1_tile, k1_pay1 (View.ld x0 r1_rows) (View.ld x1 (r1_cols i)) (View.ld x2 r1_one) (View.ld x3 r1_one)⟩]

/-- The one store is of the whole tile, so it covers the buffer. -/
theorem cover1_4 (p0 : Vec F S1280x1280 .f32) (y : S1280x1280.Idx) :
    ∃ pc ∈ ([⟨r1_tile, p0⟩] : List (View.Piece (Elt F) S1280x1280 .f32)), y ∈ pc.1.set :=
  View.cover_of_tiled [⟨r1_tile, p0⟩] S1280x1280.size (by rfl) y

/-! ## The output's contents as the tile's arithmetic -/

theorem zero2_1 : (![0, 0] : Fin 2 → Nat) = fun _ => 0 := funext fun a => by fin_cases a <;> rfl

/-- The one store is of the whole tile: what it leaves is its payload, the normalised distances computed from the
    row block, the 1280 rows of the staged array at the point's offset, and the two extremes. -/
theorem out1_4_eq (i : grid1.Coords) (x0 : Vec F S1280x128 .f32) (x1 : Vec F S6400x128 .f32) (x2 : Vec F S1x1 .f32) (x3 : Vec F S1x1 .f32) :
    out1_4 i x0 x1 x2 x3 = k1_pay1 (View.ld x0 r1_rows) (View.ld x1 (r1_cols i)) (View.ld x2 r1_one) (View.ld x3 r1_one) := by
  unfold out1_4
  exact View.canon_unit_zero zero2_1 _ _

/-- The same with the three whole-buffer loads read as the buffers themselves. -/
theorem out1_4_eq' (i : grid1.Coords) (x0 : Vec F S1280x128 .f32) (x1 : Vec F S6400x128 .f32) (x2 : Vec F S1x1 .f32) (x3 : Vec F S1x1 .f32) :
    out1_4 i x0 x1 x2 x3 = k1_pay1 x0 (View.ld x1 (r1_cols i)) x2 x3 := by
  rw [out1_4_eq, View.ld_unit_zero (S := S1280x128) zero2_1, View.ld_unit_zero (S := S1x1) zero2_1, View.ld_unit_zero (S := S1x1) zero2_1]

/-! ## The body's triple -/

set_option maxHeartbeats 1000000 in
/-- The kernel body on whole staging memrefs, the inputs' at read contents `x·` and the output's at anything, runs to
    the continuation holding the inputs' as they were and the output's at `out1_4` of the inputs'. -/
theorem sound_kernel1 (c : Dev nD) (E : Set ℕ) (i : grid1.Coords)
    (arg2 : Memref sig .tc .vmem S1280x128 .f32) (harg2 : arg2.IsWhole) (arg3 : Memref sig .tc .vmem S6400x128 .f32) (harg3 : arg3.IsWhole)
    (arg4 : Memref sig .tc .vmem S1x1 .f32) (harg4 : arg4.IsWhole) (arg5 : Memref sig .tc .vmem S1x1 .f32) (harg5 : arg5.IsWhole)
    (arg6 : Memref sig .tc .vmem S1280x1280 .f32) (harg6 : arg6.IsWhole)
    (x0 : Vec F S1280x128 .f32) (x1 : Vec F S6400x128 .f32) (x2 : Vec F S1x1 .f32) (x3 : Vec F S1x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 i x0 x1 x2 x3)) -∗ K ⟨⟩))
      ⊢ wp frame (wpE (defs₀ (F := F)) Variants.none c none) E (cc1__normalize_kernel i arg2 harg2 arg3 harg3 arg4 harg4 arg5 harg5 arg6 harg6) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the normalising pipeline on core `c`: the arrays as the region finds them; after the body at
    point `t` each input's buffer at its block and the output's at `out1_4` of the input blocks at the point's
    coordinates; the invariant the core's other scoped buffers and its random-number register, untouched; nothing owed. The first two
    windows are both inputs on the one padded feature array, so each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q := fun
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 1 t) (iblk1 V c 2 t) (iblk1 V c 3 t) := by dsimp only [dat1]

/-- The shares of the windows' arrays: the two windows on the padded feature array hold a half each. -/
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of @main: nine host operations make the [6400, 9] feature matrix, two pad it to 128 columns, the statistics
  call leaves the per-row-block least and greatest distances, six host operations reduce them to two [1, 1] arrays, the
  normalising call writes the [6400, 6400] distance matrix, one host operation adds the leading axis.

  Stated here: the contents of the TensorCore's buffers between those six items, as a chain from the launch memory;
  the two calls as regions entered from and left at those contents (each call reads the padded matrix through two
  windows, so its one buffer is dealt to them at entry and made whole again at exit); and the run — every weakly fair
  execution terminates, nothing faulting, with every buffer at the chain's last contents.
-/
import proofs.«118980_j8813272891856_2_alg».proof.Proof.Gen.KernelIdeal.Regions
import proofs.«118980_j8813272891856_2_alg».proof.Proof.Gen.KernelIdeal.Skeleton
import proofs.«118980_j8813272891856_2_alg».proof.Proof.Gen.KernelIdeal.Points
import proofs.«118980_j8813272891856_2_alg».proof.Proof.KI.Arrays
import proofs.«118980_j8813272891856_2_alg».proof.Proof.KI.Body0
import proofs.«118980_j8813272891856_2_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between the items of @main

The launch contents; after the eight host operations that make the feature matrix; after the padding to 128 columns
(the statistics call's entry); after the statistics call (its two statistics arrays at what its write-backs leave);
after the host's re-reduction of the statistics to two [1,1] arrays (the normalising call's entry); after the
normalising call (the distance matrix at what its write-backs leave); after the last broadcast. -/

/-- The statistics call's entry contents, read at the TensorCore's references. -/
abbrev E0 (c : Dev nD) (b : Ref sig .tc) : Buf (Elt F) ((c : Thread nD τ).loc b) := Gen.V2 m c b

/-- After the statistics call: its two output arrays at what the call leaves, every other buffer as entered. -/
def W3 (c : Dev nD) : Valuation τ sig (Elt F) :=
  Function.update (Function.update (Gen.V2 m c) main_v8_0 ((dat0 (E0 m) c).arrAt 2 cfg0.N)) main_v8_1 ((dat0 (E0 m) c).arrAt 3 cfg0.N)
/-- After the host's re-reduction. -/
abbrev W4 (c : Dev nD) : Valuation τ sig (Elt F) := StableHlo.after Gen.hostOps1 (W3 m c)
/-- The normalising call's entry contents, read at the TensorCore's references. -/
abbrev E1 (c : Dev nD) (b : Ref sig .tc) : Buf (Elt F) ((c : Thread nD τ).loc b) := W4 m c b
/-- After the normalising call: the distance matrix at what the call leaves. -/
def W5 (c : Dev nD) : Valuation τ sig (Elt F) :=
  Function.update (W4 m c) main_v13 ((dat1 (E1 m) c).arrAt 4 cfg1.N)
/-- After the last broadcast: the end. -/
abbrev W6 (c : Dev nD) : Valuation τ sig (Elt F) := StableHlo.after Gen.hostOps2 (W5 m c)

theorem W3_v8_1 (c : Dev nD) : W3 m c main_v8_1 = (dat0 (E0 m) c).arrAt 3 cfg0.N := by
  unfold W3; exact Function.update_self ..
theorem W3_v8_0 (c : Dev nD) : W3 m c main_v8_0 = (dat0 (E0 m) c).arrAt 2 cfg0.N := by
  unfold W3
  rw [Function.update_of_ne (StableHlo.devRef_ne_of_ne (by decide) : (Proc.devRef .tc main_v8_0 : DevRef τ sig) ≠ Proc.devRef .tc main_v8_1)]
  exact Function.update_self ..
theorem W3_of (c : Dev nD) (r : Ref sig .tc) (h : r ∉ ([main_v8_0, main_v8_1] : List (Ref sig .tc))) : W3 m c r = Gen.V2 m c r := by
  unfold W3
  rw [Function.update_of_ne (StableHlo.devRef_ne_of_ne (List.ne_of_not_mem_cons (List.not_mem_of_not_mem_cons h)) : (Proc.devRef .tc r : DevRef τ sig) ≠ Proc.devRef .tc main_v8_1),
    Function.update_of_ne (StableHlo.devRef_ne_of_ne (List.ne_of_not_mem_cons h) : (Proc.devRef .tc r : DevRef τ sig) ≠ Proc.devRef .tc main_v8_0)]
theorem W5_v13 (c : Dev nD) : W5 m c main_v13 = (dat1 (E1 m) c).arrAt 4 cfg1.N := by
  unfold W5; exact Function.update_self ..
theorem W5_of (c : Dev nD) (r : Ref sig .tc) (h : r ∉ ([main_v13] : List (Ref sig .tc))) : W5 m c r = W4 m c r := by
  unfold W5
  rw [Function.update_of_ne (StableHlo.devRef_ne_of_ne (List.ne_of_not_mem_cons h) : (Proc.devRef .tc r : DevRef τ sig) ≠ Proc.devRef .tc main_v13)]
theorem W4_of (c : Dev nD) (r : Ref sig .tc) (h : r ∉ Gen.hostOps1_W) : W4 m c r = W3 m c r :=
  StableHlo.after_of_writes_sub Gen.hostOps1 _ Gen.hostOps1_writes h
theorem W6_of (c : Dev nD) (r : Ref sig .tc) (h : r ∉ Gen.hostOps2_W) : W6 m c r = W5 m c r :=
  StableHlo.after_of_writes_sub Gen.hostOps2 _ Gen.hostOps2_writes h

/-- The argument reaches the end as launched: no host operation writes it and no call may change it. -/
theorem W6_main_arg0 (c : Dev nD) : W6 m c main_arg0 = m ((c : Thread nD τ).loc main_arg0) :=
  (W6_of m c main_arg0 (by decide)).trans <| (W5_of m c main_arg0 (by decide)).trans <| (W4_of m c main_arg0 (by decide)).trans <|
    (W3_of m c main_arg0 (by decide)).trans <| (Gen.V2_of m c main_arg0 (by decide)).trans <| (Gen.V1_of m c main_arg0 (by decide)).trans rfl

/-! ## The proof data family and the thread state -/

/-- Every call's proof data, each at its entry contents (a literal match, so that the pinned configuration at a numeral
    reduces to the printed one). -/
def pdats : (p : Fin 2) → (c : Dev nD) → Dat τ (Elt F) Unit ℕ (UR sig nD τ) ℕ (Pipeline.pin (pcfgs (F := F)) Gen.adm p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## Entry and exit of the two calls: the arrays out of, and back among, the core's unscoped buffers -/

theorem split0 (c : Dev nD) : (unscopedBufs c (E0 m c) : sProp 𝕄)
    ⊢ iprop((dat0 (E0 m) c).arrays (dat0 (E0 m) c).A ∗ Pipeline.unscopedRest (Ix := Unit) (Name := ℕ) (U := UR sig nD τ) (Lvl := ℕ) spec0 c (E0 m c)) := by
  rw [Pipeline.unscopedBufs_split₀ (Pipeline.pin (pcfgs (F := F)) Gen.adm) (0 : Fin 2) Gen.winFacts₀0.arr_unscoped c (E0 m c)]
  exact sep_mono (arrays0_of_bufs (dat0 (E0 m) c) rfl rfl (E0 m c) _ (A_eq0 (E0 m) c 0) (A_eq0 (E0 m) c 1) (A_eq0 (E0 m) c 2) (A_eq0 (E0 m) c 3)) .rfl

theorem join0 (c : Dev nD) : iprop((dat0 (E0 m) c).arrays ((dat0 (E0 m) c).arrAt · cfg0.N)
      ∗ Pipeline.unscopedRest (Ix := Unit) (Name := ℕ) (U := UR sig nD τ) (Lvl := ℕ) spec0 c (E0 m c))
    ⊢ (unscopedBufs c (fun b => W3 m c b) : sProp 𝕄) := by
  rw [Pipeline.unscopedBufs_split₀ (Pipeline.pin (pcfgs (F := F)) Gen.adm) (0 : Fin 2) Gen.winFacts₀0.arr_unscoped c (fun b => W3 m c b)]
  refine sep_mono (bufs_of_arrays0 (dat0 (E0 m) c) rfl rfl (fun b => W3 m c b) _
      (((dat0 (E0 m) c).arrAt_in 0 rfl _).trans ((A_eq0 (E0 m) c 0).trans (W3_of m c main_v7 (by decide)).symm))
      (((dat0 (E0 m) c).arrAt_in 1 rfl _).trans ((A_eq0 (E0 m) c 1).trans (W3_of m c main_v7 (by decide)).symm))
      (W3_v8_0 m c).symm (W3_v8_1 m c).symm) (Entails.of_eq ?_)
  unfold Pipeline.unscopedRest
  exact bigSep_congr fun b hb => by
    have hb' := (Finset.mem_sdiff.mp hb).2
    rw [show E0 m c b = W3 m c b from (W3_of m c b (fun h => hb' (by
      rcases List.mem_cons.mp h with rfl | h
      · exact Finset.mem_image.mpr ⟨2, Finset.mem_univ _, rfl⟩
      · rcases List.mem_cons.mp h with rfl | h
        · exact Finset.mem_image.mpr ⟨3, Finset.mem_univ _, rfl⟩
        · exact absurd h (List.not_mem_nil)))).symm]

theorem split1 (c : Dev nD) : (unscopedBufs c (E1 m c) : sProp 𝕄)
    ⊢ iprop((dat1 (E1 m) c).arrays (dat1 (E1 m) c).A ∗ Pipeline.unscopedRest (Ix := Unit) (Name := ℕ) (U := UR sig nD τ) (Lvl := ℕ) spec1 c (E1 m c)) := by
  rw [Pipeline.unscopedBufs_split₀ (Pipeline.pin (pcfgs (F := F)) Gen.adm) (1 : Fin 2) Gen.winFacts₀1.arr_unscoped c (E1 m c)]
  exact sep_mono (arrays1_of_bufs (dat1 (E1 m) c) rfl rfl rfl rfl (E1 m c) _ (A_eq1 (E1 m) c 0) (A_eq1 (E1 m) c 1) (A_eq1 (E1 m) c 2) (A_eq1 (E1 m) c 3) (A_eq1 (E1 m) c 4)) .rfl

theorem join1 (c : Dev nD) : iprop((dat1 (E1 m) c).arrays ((dat1 (E1 m) c).arrAt · cfg1.N)
      ∗ Pipeline.unscopedRest (Ix := Unit) (Name := ℕ) (U := UR sig nD τ) (Lvl := ℕ) spec1 c (E1 m c))
    ⊢ (unscopedBufs c (fun b => W5 m c b) : sProp 𝕄) := by
  rw [Pipeline.unscopedBufs_split₀ (Pipeline.pin (pcfgs (F := F)) Gen.adm) (1 : Fin 2) Gen.winFacts₀1.arr_unscoped c (fun b => W5 m c b)]
  refine sep_mono (bufs_of_arrays1 (dat1 (E1 m) c) rfl rfl rfl rfl (fun b => W5 m c b) _
      (((dat1 (E1 m) c).arrAt_in 0 rfl _).trans ((A_eq1 (E1 m) c 0).trans (W5_of m c main_v7 (by decide)).symm))
      (((dat1 (E1 m) c).arrAt_in 1 rfl _).trans ((A_eq1 (E1 m) c 1).trans (W5_of m c main_v7 (by decide)).symm))
      (((dat1 (E1 m) c).arrAt_in 2 rfl _).trans ((A_eq1 (E1 m) c 2).trans (W5_of m c main_v11 (by decide)).symm))
      (((dat1 (E1 m) c).arrAt_in 3 rfl _).trans ((A_eq1 (E1 m) c 3).trans (W5_of m c main_v12 (by decide)).symm))
      (W5_v13 m c).symm) (Entails.of_eq ?_)
  unfold Pipeline.unscopedRest
  exact bigSep_congr fun b hb => by
    have hb' := (Finset.mem_sdiff.mp hb).2
    rw [show E1 m c b = W5 m c b from (W5_of m c b (fun h => hb' (by
      rcases List.mem_cons.mp h with rfl | h
      · exact Finset.mem_image.mpr ⟨4, Finset.mem_univ _, rfl⟩
      · exact absurd h (List.not_mem_nil)))).symm]

/-! ## The two calls as regions of @main -/

-- a library lemma stated over the pinned configuration unifies with the printed one only when unification may unfold
-- plain definitions in a metavariable's type
set_option backward.isDefEq.respectTransparency.types false in
/-- The statistics call over the thread state: entered from every unscoped buffer at the padded matrix's contents, left
    with the two statistics arrays at what the call's write-backs leave. The matrix's buffer is dealt to its two windows
    at entry and made whole again at exit; the generator register goes into the call's invariant and comes back; nothing
    is owed; the kernel has no semaphore of its own. -/
def reg0 : Pipeline.RegionSeg (pcfgs (F := F)) Gen.adm (pdats m) () defs₀ 𝒱₀ L lv 0 where
  win := Gen.winFacts₀0
  block_pos := Gen.block_pos0
  stage_whole := Gen.stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := split0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := join0 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The normalising call over the thread state: entered from every unscoped buffer at the contents the host's re-reduction
    leaves, left with the distance matrix at what the call's write-backs leave. -/
def reg1 : Pipeline.RegionSeg (pcfgs (F := F)) Gen.adm (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := split1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as items, and the launch -/

/-- A host stretch as an item: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's six items in order. -/
abbrev segs : List (Pipeline.Seg (pcfgs (F := F)) Gen.adm (pdats m) () defs₀ 𝒱₀ L lv) :=
  [ .host (hseg Gen.hostOps0 Gen.hostOps0_sub Gen.hostOps0_fresh (Gen.V0 m)),
    .host (hseg Gen.hostOps0_1 Gen.hostOps0_1_sub Gen.hostOps0_1_fresh (Gen.V1 m)),
    .region (reg0 m),
    .host (hseg Gen.hostOps1 Gen.hostOps1_sub Gen.hostOps1_fresh (W3 m)),
    .region (reg1 m),
    .host (hseg Gen.hostOps2 Gen.hostOps2_sub Gen.hostOps2_fresh (W5 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and
    every final memory holds every unscoped buffer at the last contents `W6`: in particular the result at `W6 … main_v14`
    and the argument as launched. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) Gen.adm (pdats m) () Gen.cellOf_inj emb₁ defs₀ 𝒱₀ L lv m ρ main (segs m)
    (fun c Q => by
      rewrite [Gen.main_chain c, Pipeline.Seg.run_eq_chain,
        show (segs m).map Pipeline.Seg.prog = [
          StableHlo.seq Gen.hostOps0,
          StableHlo.seq Gen.hostOps0_1,
          Prog.lift (.customCall (Pipeline.entry 0) ()),
          StableHlo.seq Gen.hostOps1,
          Prog.lift (.customCall (Pipeline.entry 1) ()),
          StableHlo.seq Gen.hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME at any `F`: the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W6_main_arg0 m c)) (run_all m ρ)

end Cert.KernelIdeal.Hand

end
-- ==== Proof.KI.Val1.lean ====
/-
  The distance matrix the normalising call leaves, as ONE function of the arrays the call is entered with.

  The call's grid is 5 × 5; point (a, b) writes back the 1280 × 1280 tile at rows 1280·a …, columns 1280·b … of the
  [6400, 6400] result, computed from rows 1280·a … of the padded feature array (its first window's block), rows 1280·b …
  of the same array (cut at the point's offset out of the second window's block, which is the whole array) and the two
  one-element arrays. The tiles fill the result, so it ends holding, at (n, k), the tile's arithmetic at
  (n mod 1280, k mod 1280) of row blocks n / 1280 and k / 1280.
-/
import proofs.«118980_j8813272891856_2_alg».proof.Proof.KI.Body1
import Idealize.ShloMosaic.Lib.Pipeline.Value
import Idealize.ShloMosaic.Lib.ValueIdx

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Row 1280·a + y₀, column y₁ of a [6400, 128] array: where element y of its a-th block of 1280 rows sits. -/
def rowIdx (a : Fin 5) (y : S1280x128.Idx) : S6400x128.Idx := fun d =>
  match d with
  | ⟨0, _⟩ => ⟨1280 * a.val + (y 0).val, by have h : (y 0).val < 1280 := (y 0).isLt; have := a.isLt; show _ < 6400; omega⟩
  | ⟨1, _⟩ => ⟨(y 1).val, (y 1).isLt⟩

/-- The a-th block of 1280 rows of a [6400, 128] array. -/
def rowsAt (P : S6400x128.Idx → Elt F .f32) (a : Fin 5) : Vec F S1280x128 .f32 := fun y => P (rowIdx a y)

/-- The block of 1280 an index below 6400 lies in, and its position inside the block. -/
def blkOf (n : Fin 6400) : Fin 5 := ⟨n.val / 1280, by have := n.isLt; omega⟩
def posOf (n : Fin 6400) : Fin 1280 := ⟨n.val % 1280, Nat.mod_lt _ (by decide)⟩
theorem blkOf_eq (n : Fin 6400) (a : Fin 5) (p : Fin 1280) (h : n.val = 1280 * a.val + p.val) : blkOf n = a :=
  Fin.ext (by show n.val / 1280 = a.val; have := p.isLt; omega)
theorem posOf_eq (n : Fin 6400) (a : Fin 5) (p : Fin 1280) (h : n.val = 1280 * a.val + p.val) : posOf n = p :=
  Fin.ext (by show n.val % 1280 = p.val; have := p.isLt; omega)

/-- What the result ends holding: at (n, k) the tile's arithmetic of row blocks n / 1280 and k / 1280, at the position
    inside the tile. -/
def G4 (P : S6400x128.Idx → Elt F .f32) (lo hi : S1x1.Idx → Elt F .f32) : S6400x6400.Idx → Elt F .f32 := fun z =>
  k1_pay1 (rowsAt P (blkOf (z 0))) (rowsAt P (blkOf (z 1))) lo hi (ValueIdx.ix2 (posOf (z 0)) (posOf (z 1)))

/-- At row 1280·a + p, column 1280·b + q it is the (a, b) tile's arithmetic at (p, q). -/
theorem G4_at (P : S6400x128.Idx → Elt F .f32) (lo hi : S1x1.Idx → Elt F .f32) (a b : Fin 5) (p q : Fin 1280) (z : S6400x6400.Idx)
    (h0 : (z 0).val = 1280 * a.val + p.val) (h1 : (z 1).val = 1280 * b.val + q.val) :
    G4 P lo hi z = k1_pay1 (rowsAt P a) (rowsAt P b) lo hi (ValueIdx.ix2 p q) := by
  unfold G4
  rw [blkOf_eq (z 0) a p h0, blkOf_eq (z 1) b q h1, posOf_eq (z 0) a p h0, posOf_eq (z 1) b q h1]

/-- The printed index maps and the body's row offset, decided over the 25 points: point t is (t / 5, t mod 5). -/
theorem idx1 : ∀ t : Fin cfg1.N,
    win1_0.index t (0 : Fin 2) = t.val / 5 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 5 ∧ win1_4.index t (1 : Fin 2) = t.val % 5
    ∧ k1_off1 (grid1.coords t) (0 : Fin 2) = 1280 * (t.val % 5) ∧ k1_off1 (grid1.coords t) (1 : Fin 2) = 0 :=
  (by decide +kernel : ∀ t : Fin grid1.N, _)

theorem N1 : cfg1.N = 25 := N_1

/-- The first window's block at point t: rows 1280·(t / 5) … of the padded feature array. -/
theorem iblk1_0_eq (c : Dev nD) (t : Fin cfg1.N) :
    (iblk1 V c 0 t : Vec F S1280x128 .f32) = rowsAt (V c main_v7) ⟨t.val / 5, by have := t.isLt; have := N1; omega⟩ := by
  obtain ⟨e0, e1, -⟩ := idx1 t
  funext y
  unfold iblk1 rowsAt
  rw [View.read_apply]
  show V c main_v7 _ = V c main_v7 _
  congr 1
  funext a; apply Fin.ext
  match a with
  | ⟨0, _⟩ => show win1_0.index t (0 : Fin 2) * 1280 + 1 * (y 0).val = 1280 * (t.val / 5) + (y 0).val; rw [e0]; omega
  | ⟨1, _⟩ => show win1_0.index t (1 : Fin 2) * 128 + 1 * (y 1).val = (y 1).val; rw [e1]; omega

/-- The second window's block is the whole array, and the body cuts rows 1280·(t mod 5) … out of it. -/
theorem iblk1_1_ld_eq (c : Dev nD) (t : Fin cfg1.N) :
    View.ld (iblk1 V c 1 t : Vec F S6400x128 .f32) (r1_cols (grid1.coords t))
      = rowsAt (V c main_v7) ⟨t.val % 5, Nat.mod_lt _ (by decide)⟩ := by
  obtain ⟨-, -, e2, e3, -, -, -, -, -, -, e10, e11⟩ := idx1 t
  funext y
  show (iblk1 V c 1 t : Vec F S6400x128 .f32) ((r1_cols (grid1.coords t)).emb y) = _
  unfold iblk1 rowsAt
  rw [View.read_apply]
  show V c main_v7 _ = V c main_v7 _
  congr 1
  funext a; apply Fin.ext
  match a with
  | ⟨0, _⟩ =>
    show win1_1.index t (0 : Fin 2) * 6400 + 1 * ((r1_cols (grid1.coords t)).emb y 0).val = 1280 * (t.val % 5) + (y 0).val
    rw [e2, Rect.emb_apply, Rect.off_unit, Rect.stride_unit, e10]; omega
  | ⟨1, _⟩ =>
    show win1_1.index t (1 : Fin 2) * 128 + 1 * ((r1_cols (grid1.coords t)).emb y 1).val = (y 1).val
    rw [e3, Rect.emb_apply, Rect.off_unit, Rect.stride_unit, e11]; omega

/-- The two one-element windows' blocks are their arrays. -/
theorem iblk1_2_eq (c : Dev nD) (t : Fin cfg1.N) : (iblk1 V c 2 t : Vec F S1x1 .f32) = V c main_v11 := by
  obtain ⟨-, -, -, -, e4, e5, -⟩ := idx1 t
  funext y
  unfold iblk1
  rw [View.read_apply]
  show V c main_v11 _ = V c main_v11 _
  congr 1
  funext a; apply Fin.ext
  match a with
  | ⟨0, _⟩ => show win1_2.index t (0 : Fin 2) * 1 + 1 * (y 0).val = (y 0).val; rw [e4]; omega
  | ⟨1, _⟩ => show win1_2.index t (1 : Fin 2) * 1 + 1 * (y 1).val = (y 1).val; rw [e5]; omega
theorem iblk1_3_eq (c : Dev nD) (t : Fin cfg1.N) : (iblk1 V c 3 t : Vec F S1x1 .f32) = V c main_v12 := by
  obtain ⟨-, -, -, -, -, -, e6, e7, -⟩ := idx1 t
  funext y
  unfold iblk1
  rw [View.read_apply]
  show V c main_v12 _ = V c main_v12 _
  congr 1
  funext a; apply Fin.ext
  match a with
  | ⟨0, _⟩ => show win1_3.index t (0 : Fin 2) * 1 + 1 * (y 0).val = (y 0).val; rw [e6]; omega
  | ⟨1, _⟩ => show win1_3.index t (1 : Fin 2) * 1 + 1 * (y 1).val = (y 1).val; rw [e7]; omega

/-! ## What each point writes back, the cover, the final array -/

/-- WHAT POINT t WRITES BACK is block t of `G4` of the arrays the call is entered with. -/
theorem flushed4_eq (c : Dev nD) (t : Fin cfg1.N) :
    (dat1 V c).flushed 4 t = ((cfg1.win 4).blk t).view.read (Elt F) (G4 (V c main_v7) (V c main_v11) (V c main_v12)) := by
  show (cfg1.win 4).cut (grid1.coords t) ((dat1 V c).after 4 t) = _
  rw [after1_4, out1_4_eq', iblk1_0_eq, iblk1_1_ld_eq, iblk1_2_eq, iblk1_3_eq]
  obtain ⟨-, -, -, -, -, -, -, -, e8, e9, -, -⟩ := idx1 t
  funext y
  rw [View.read_apply]
  show _ = G4 (V c main_v7) (V c main_v11) (V c main_v12) (((cfg1.win 4).blk t).view.emb y)
  obtain ⟨p, q, rfl⟩ : ∃ (p q : Fin 1280), y = ValueIdx.ix2 p q := ⟨y 0, y 1, ValueIdx.eq_ix2 y⟩
  refine (G4_at _ _ _ ⟨t.val / 5, by have := t.isLt; have := N1; omega⟩ ⟨t.val % 5, Nat.mod_lt _ (by decide)⟩ p q _ ?_ ?_).symm
  · show win1_4.index t (0 : Fin 2) * 1280 + 1 * p.val = 1280 * (t.val / 5) + p.val; rw [e8]; omega
  · show win1_4.index t (1 : Fin 2) * 1280 + 1 * q.val = 1280 * (t.val % 5) + q.val; rw [e9]; omega

/-- An index of the result is in point t's block iff each coordinate is in the block's range on its axis. -/
theorem mem_blk4 (t : Fin cfg1.N) (i : S6400x6400.Idx) :
    i ∈ ((cfg1.win 4).blk t).view.set ↔ ∀ a : Fin 2, win1_4.index t a * S1280x1280.size a ≤ (i a).val ∧ (i a).val < win1_4.index t a * S1280x1280.size a + S1280x1280.size a := by
  show i ∈ ((View.whole main_v13).slice (win1_4.rect t)).set ↔ _
  rw [View.set_slice_whole, Rect.mem_set_unit]
  exact Iff.rfl

/-- The 25 tiles fill the result: (n, k) lies in the tile of point 5·(n / 1280) + k / 1280. -/
theorem cover4 (i : S6400x6400.Idx) : ∃ t : Fin cfg1.N, (cfg1.win 4).flush t = true ∧ i ∈ ((cfg1.win 4).blk t).view.set := by
  have hi0 : (i 0).val < 6400 := (i 0).isLt
  have hi1 : (i 1).val < 6400 := (i 1).isLt
  have hN := N1
  refine ⟨⟨5 * ((i 0).val / 1280) + (i 1).val / 1280, by omega⟩, flush1_4 _, ?_⟩
  rw [mem_blk4]
  obtain ⟨-, -, -, -, -, -, -, -, e8, e9, -, -⟩ := idx1 ⟨5 * ((i 0).val / 1280) + (i 1).val / 1280, by omega⟩
  intro a
  match a with
  | ⟨0, _⟩ =>
    show win1_4.index _ (0 : Fin 2) * 1280 ≤ (i 0).val ∧ (i 0).val < win1_4.index _ (0 : Fin 2) * 1280 + 1280
    rw [e8]; show (5 * ((i 0).val / 1280) + (i 1).val / 1280) / 5 * 1280 ≤ _ ∧ _ < (5 * ((i 0).val / 1280) + (i 1).val / 1280) / 5 * 1280 + 1280; omega
  | ⟨1, _⟩ =>
    show win1_4.index _ (1 : Fin 2) * 1280 ≤ (i 1).val ∧ (i 1).val < win1_4.index _ (1 : Fin 2) * 1280 + 1280
    rw [e9]; show (5 * ((i 0).val / 1280) + (i 1).val / 1280) % 5 * 1280 ≤ _ ∧ _ < (5 * ((i 0).val / 1280) + (i 1).val / 1280) % 5 * 1280 + 1280; omega

/-- THE DISTANCE MATRIX after the call. -/
theorem final4 (c : Dev nD) : (dat1 V c).arrAt 4 cfg1.N = G4 (V c main_v7) (V c main_v11) (V c main_v12) :=
  (dat1 V c).arrAt_eq_of_cover 4 _ (fun t _ => flushed4_eq V c t) cover4

end Cert.KernelIdeal.Hand

end
-- ==== Proof.Spec.lean ====
/-
  The mathematics both programs compute, stated once over the Gram features and over no program.

  From a feature matrix `g` (6400 patches, 9 features each) form the scaled pairwise squared distances
    dist g n m = (|g n|² + |g m|² − 2·⟨g n, g m⟩) / 9,
  take their least and greatest values over all pairs, and normalise:
    out g n m = (dist g n m − mn g) / (mx g − mn g).
  Everything is on the extended reals; the float literals 2 and 9 are kept as the words the programs print.
-/
import Idealize.ShloMosaic.PureOps.Ideal
import Idealize.ShloMosaic.PureOps.Ideal.Laws
import Idealize.ShloMosaic.Lib.ValueIdx

noncomputable section

namespace Cert.Spec

open Idealize.ShloMosaic

/-- The feature matrix's shape, the image's and the result's. -/
abbrev Sx : Shape := ⟨3, ![3, 1280, 1280]⟩
abbrev Sg : Shape := ⟨2, ![6400, 9]⟩
abbrev So : Shape := ⟨3, ![1, 6400, 6400]⟩

/-- The literals 2 and 9 as both programs print them. -/
abbrev two : EReal := Ideal.ofBits .f32 0x40000000#32
abbrev nine : EReal := Ideal.ofBits .f32 0x41100000#32

/-- The squared norm of patch `n`'s features. -/
def sqn (g : Fin 6400 → Fin 9 → EReal) (n : Fin 6400) : EReal := ∑ k : Fin 9, g n k * g n k
/-- The inner product of two patches' features. -/
def inner (g : Fin 6400 → Fin 9 → EReal) (n m : Fin 6400) : EReal := ∑ k : Fin 9, g n k * g m k
/-- |g n|² + |g m|² − 2⟨g n, g m⟩, associated as both programs associate it. -/
def raw (g : Fin 6400 → Fin 9 → EReal) (n m : Fin 6400) : EReal := (sqn g n + sqn g m) - two * inner g n m
/-- The scaled distance: the quotient by 9. -/
def dist (g : Fin 6400 → Fin 9 → EReal) (n m : Fin 6400) : EReal := Ideal.div (raw g n m) nine
/-- The least and the greatest distance over all pairs of patches. -/
def mn (g : Fin 6400 → Fin 9 → EReal) : EReal := Finset.univ.inf fun p : Fin 6400 × Fin 6400 => dist g p.1 p.2
def mx (g : Fin 6400 → Fin 9 → EReal) : EReal := Finset.univ.sup fun p : Fin 6400 × Fin 6400 => dist g p.1 p.2
/-- The normalised distance. -/
def out (g : Fin 6400 → Fin 9 → EReal) (n m : Fin 6400) : EReal := Ideal.div (dist g n m - mn g) (mx g - mn g)

/-- A feature array read as a function of patch and feature. -/
def feat (v6 : Sg.Idx → EReal) : Fin 6400 → Fin 9 → EReal := fun n k => v6 (ValueIdx.ix2 n k)

/-- The result array both programs end with, from the feature array. -/
def final (v6 : Sg.Idx → EReal) : So.Idx → EReal := fun i => out (feat v6) (i 1) (i 2)

end Cert.Spec

end
-- ==== Proof.KI.PadSum.lean ====
/-
  The distance of one pair of patches, as a kernel block holds it, and why the zero padding does not change it.

  A block of the padded feature array has 128 lanes per row, of which the first 9 hold a patch's features and the
  other 119 hold zero. The quantity the kernels form for row `p` of one block and row `q` of another is
    tile x0 x1 p q = (Σₖ x0[p,k]² + Σₖ x1[q,k]² − 2·Σₖ x0[p,k]·x1[q,k]) · (1/9),
  each sum over all 128 lanes. A lane from 9 on contributes 0·0 = 0 to each sum, so the sums are the 9-term sums
  of the specification; and the product with the real 1/9 is the quotient by the real 9 on every extended real.
-/
import proofs.«118980_j8813272891856_2_alg».proof.Proof.Spec
import Idealize.ShloMosaic.PureOps.Ideal
import Idealize.ShloMosaic.PureOps.Ideal.Laws
import Idealize.ShloMosaic.Lib.ValueIdx

noncomputable section

open scoped BigOperators

namespace Cert.KernelIdeal.PayVal

open Idealize.ShloMosaic Idealize.ShloMosaic.ValueIdx

/-- The scaled squared distance between row `p` of block `x0` and row `q` of block `x1`, summed over all 128 lanes. -/
def tile (x0 x1 : (⟨2, ![1280, 128]⟩ : Shape).Idx → EReal) (p q : Fin 1280) : EReal :=
  ((∑ k : Fin 128, x0 (ix2 p k) * x0 (ix2 p k)) + (∑ k : Fin 128, x1 (ix2 q k) * x1 (ix2 q k))
      - Cert.Spec.two * ∑ k : Fin 128, x0 (ix2 p k) * x1 (ix2 q k)) * ((1 / 9 : ℝ) : EReal)

/-- The literal 9 both programs print denotes the real 9. -/
theorem nine_eq : Cert.Spec.nine = ((9 : ℝ) : EReal) := by
  simp [Cert.Spec.nine, Ideal.ofBits, Ideal.ieee, -EReal.coe_mul]; norm_num

/-- A sum of products over `n + m` lanes whose factors vanish from lane `n` on is the sum over the first `n` lanes. -/
theorem sum_mul_of_padded {n m : ℕ} (u v : Fin (n + m) → EReal) (a b : Fin n → EReal)
    (hu : ∀ k : Fin (n + m), u k = if h : k.val < n then a ⟨k.val, h⟩ else 0)
    (hv : ∀ k : Fin (n + m), v k = if h : k.val < n then b ⟨k.val, h⟩ else 0) :
    ∑ k, u k * v k = ∑ k : Fin n, a k * b k := by
  rw [Fin.sum_univ_add]
  have h2 : ∑ i : Fin m, u (Fin.natAdd n i) * v (Fin.natAdd n i) = 0 :=
    Finset.sum_eq_zero fun i _ => by
      rw [hu, dif_neg (by simp), zero_mul]
  rw [h2, add_zero]
  refine Finset.sum_congr rfl fun i _ => ?_
  rw [hu, hv, dif_pos (by simp), dif_pos (by simp)]
  rfl

/-- On blocks whose rows `p` and `q` are patches `n` and `m` padded with zeros, the tile quantity is the
    specification's distance between the two patches. -/
theorem tile_of_padded (g : Fin 6400 → Fin 9 → EReal) (x0 x1 : (⟨2, ![1280, 128]⟩ : Shape).Idx → EReal)
    (n m : Fin 6400) (p q : Fin 1280)
    (h0 : ∀ k : Fin 128, x0 (ix2 p k) = if h : k.val < 9 then g n ⟨k.val, h⟩ else 0)
    (h1 : ∀ k : Fin 128, x1 (ix2 q k) = if h : k.val < 9 then g m ⟨k.val, h⟩ else 0) :
    tile x0 x1 p q = Cert.Spec.dist g n m := by
  have e00 : ∑ k : Fin 128, x0 (ix2 p k) * x0 (ix2 p k) = Cert.Spec.sqn g n :=
    sum_mul_of_padded (n := 9) (m := 119) (fun k => x0 (ix2 p k)) (fun k => x0 (ix2 p k)) (g n) (g n) h0 h0
  have e11 : ∑ k : Fin 128, x1 (ix2 q k) * x1 (ix2 q k) = Cert.Spec.sqn g m :=
    sum_mul_of_padded (n := 9) (m := 119) (fun k => x1 (ix2 q k)) (fun k => x1 (ix2 q k)) (g m) (g m) h1 h1
  have e01 : ∑ k : Fin 128, x0 (ix2 p k) * x1 (ix2 q k) = Cert.Spec.inner g n m :=
    sum_mul_of_padded (n := 9) (m := 119) (fun k => x0 (ix2 p k)) (fun k => x1 (ix2 q k)) (g n) (g m) h0 h1
  unfold tile Cert.Spec.dist Cert.Spec.raw
  rw [e00, e11, e01, nine_eq, Ideal.div_coe (by norm_num : (9 : ℝ) ≠ 0)]

end Cert.KernelIdeal.PayVal

end
-- ==== Proof.KI.Layout.lean ====
/-
  Layout and reduction operations of the two kernel bodies, each read at an index given by coordinates.

  The bodies keep a row sum as a column ([a] → [a, 1]) or as a row ([a] → [1, a]) and spread it over a square
  ([a, 1] → [a, b], [1, b] → [a, b]); they spread one number over a tile ([1, 1] → [a, b]); they sum a matrix along
  its lanes; and they take the least and the greatest entry of a whole matrix, viewed as [1, a, b] and reduced over its
  last two axes. Each of these, read at an index, is the operand at one index, a finite sum, or a finite infimum /
  supremum over the pairs of coordinates. The least (greatest) entry starts from the word of +∞ (−∞), the top (bottom)
  of the extended reals, so nothing but the entries is left in it.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.ReduceAll

noncomputable section

open scoped BigOperators

namespace Cert.KernelIdeal.PayVal

open Idealize.ShloMosaic Idealize.ShloMosaic.ValueIdx

variable {α : Type}

/-! ## Keeping a reduced axis as a unit axis, and spreading over it -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A `[1]` array cast to `[1, 1, 1]` reads its one entry. -/
theorem shapeCast_1_111_apply (x : (⟨1, ![1]⟩ : Shape).Idx → α) (h : (⟨1, ![1]⟩ : Shape).ShapeCasts ⟨3, ![1, 1, 1]⟩)
    (j : (⟨3, ![1, 1, 1]⟩ : Shape).Idx) : shapeCast ⟨3, ![1, 1, 1]⟩ x h j = x (ix1 (0 : Fin 1)) :=
  shapeCast_apply x h _ _ (by
    have h0 : (j 0).val = 0 := by have := (j 0).isLt; simp at this; omega
    have h1 : (j 1).val = 0 := by have := (j 1).isLt; simp at this; omega
    have h2 : (j 2).val = 0 := by have := (j 2).isLt; simp at this; omega
    rw [Shape.rowMajor_val_three, Shape.rowMajor_val_one, h0, h1, h2]
    rfl)

/-! ## The lane sum -/

/-- The sum of an `[a, b]` matrix along its lanes, at row `p`: the `b`-term sum of the row's entries. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext c
  match c with
  | ⟨0, _⟩ => exact Fin.ext rfl
  | ⟨1, _⟩ => exact Fin.ext rfl

/-! ## The least and the greatest entry of a matrix -/

/-- The word of +∞ denotes the top of the extended reals, the word of −∞ the bottom. -/
theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

/-- Two families with the same set of values have the same infimum. -/
theorem inf_univ_reindex {I J : Type} [Fintype I] [Fintype J] (F : I → EReal) (G : J → EReal) (e : J → I) (d : I → J)
    (hG : ∀ j, G j = F (e j)) (hF : ∀ i, F i = G (d i)) : Finset.univ.inf F = Finset.univ.inf G :=
  le_antisymm (Finset.le_inf fun j _ => (hG j) ▸ Finset.inf_le (Finset.mem_univ (e j)))
    (Finset.le_inf fun i _ => (hF i) ▸ Finset.inf_le (Finset.mem_univ (d i)))

/-- Two families with the same set of values have the same supremum. -/
theorem sup_univ_reindex {I J : Type} [Fintype I] [Fintype J] (F : I → EReal) (G : J → EReal) (e : J → I) (d : I → J)
    (hG : ∀ j, G j = F (e j)) (hF : ∀ i, F i = G (d i)) : Finset.univ.sup F = Finset.univ.sup G :=
  le_antisymm (Finset.sup_le fun i _ => (hF i) ▸ Finset.le_sup (Finset.mem_univ (d i)))
    (Finset.sup_le fun j _ => (hG j) ▸ Finset.le_sup (Finset.mem_univ (e j)))

/-- Every index of the one-entry shape `[1]` drops to the same place. -/
theorem size_one (c : Fin (⟨1, ![1]⟩ : Shape).rank) : (⟨1, ![1]⟩ : Shape).size c = 1 := by
  match c with
  | ⟨0, _⟩ => rfl

/-- An index of `[1, a, b]` is `(0, i, j)`. -/
theorem eq_ix3_zero {a b : ℕ} (i : (⟨3, ![1, a, b]⟩ : Shape).Idx) : i = ix3 (0 : Fin 1) (i 1) (i 2) := by
  funext c
  match c with
  | ⟨0, _⟩ =>
    have h0 : (i 0).val < 1 := (i 0).isLt
    exact Fin.ext (show (i 0).val = 0 by omega)
  | ⟨1, _⟩ => rfl
  | ⟨2, _⟩ => rfl

/-- The least entry of a matrix viewed as `[1, a, b]`: the infimum over the pairs of coordinates. -/
theorem minAll_apply {a b : ℕ} (src : FVec Ideal ⟨3, ![1, a, b]⟩ .f32)
    (h : Shape.Reduces ⟨3, ![1, a, b]⟩ [1, 2] ⟨1, ![1]⟩) (hφ : FKind.Formats .f32)
    (hacc : (0x7F800000#32 : BitVec 32) = 0x7F800000#32) (j : (⟨1, ![1]⟩ : Shape).Idx) :
    multiReduction .minimumf [1, 2] ⟨1, ![1]⟩ src 0x7F800000#32 h hφ hacc j
      = Finset.univ.inf fun pq : Fin a × Fin b => src (ix3 (0 : Fin 1) pq.1 pq.2) := by
  refine (multiReduction_minimumf_eq_fold src 0x7F800000#32 h hφ hacc j).trans ?_
  rw [Finset.filter_true_of_mem fun i _ => funext fun c => Fin.ext (by
    have := (h.drop i c).isLt; have := (j c).isLt; have := size_one c; omega)]
  show Finset.fold min (Ideal.ofBits .f32 0x7F800000#32) src Finset.univ = _
  rw [ofBits_posInf]
  refine Eq.trans (show _ = Finset.univ.inf src from rfl) ?_
  exact inf_univ_reindex src _ (fun pq => ix3 (0 : Fin 1) pq.1 pq.2) (fun i => (i 1, i 2)) (fun _ => rfl)
    (fun i => congrArg src (eq_ix3_zero i))

/-- The greatest entry of a matrix viewed as `[1, a, b]`: the supremum over the pairs of coordinates. -/
theorem maxAll_apply {a b : ℕ} (src : FVec Ideal ⟨3, ![1, a, b]⟩ .f32)
    (h : Shape.Reduces ⟨3, ![1, a, b]⟩ [1, 2] ⟨1, ![1]⟩) (hφ : FKind.Formats .f32)
    (hacc : (0xFF800000#32 : BitVec 32) = 0xFF800000#32) (j : (⟨1, ![1]⟩ : Shape).Idx) :
    multiReduction .maximumf [1, 2] ⟨1, ![1]⟩ src 0xFF800000#32 h hφ hacc j
      = Finset.univ.sup fun pq : Fin a × Fin b => src (ix3 (0 : Fin 1) pq.1 pq.2) := by
  refine (multiReduction_maximumf_eq_fold src 0xFF800000#32 h hφ hacc j).trans ?_
  rw [Finset.filter_true_of_mem fun i _ => funext fun c => Fin.ext (by
    have := (h.drop i c).isLt; have := (j c).isLt; have := size_one c; omega)]
  show Finset.fold max (Ideal.ofBits .f32 0xFF800000#32) src Finset.univ = _
  rw [ofBits_negInf]
  refine Eq.trans (show _ = Finset.univ.sup src from rfl) ?_
  exact sup_univ_reindex src _ (fun pq => ix3 (0 : Fin 1) pq.1 pq.2) (fun i => (i 1, i 2)) (fun _ => rfl)
    (fun i => congrArg src (eq_ix3_zero i))

end Cert.KernelIdeal.PayVal

end
-- ==== Proof.KI.Tile.lean ====
/-
  The tile of scaled distances both kernel bodies form, read at an index on the extended reals.

  From a block `x0` of 1280 padded patches and a block `x1` of 1280 padded patches each body forms a square tile: entry
  (p, q) is (|x0 p|² + |x1 q|² − 2·⟨x0 p, x1 q⟩)·(1/9), the norms being lane sums kept as a column and as a row and spread
  over the square, the inner products a matrix product with the transposed second block into a zero accumulator, the
  factor the named reciprocal of 9.
-/
import proofs.«118980_j8813272891856_2_alg».proof.Proof.Gen.KernelIdeal.Skeleton
import proofs.«118980_j8813272891856_2_alg».proof.Proof.KI.PadSum
import proofs.«118980_j8813272891856_2_alg».proof.Proof.KI.Layout

noncomputable section

open scoped BigOperators

namespace Cert.KernelIdeal.PayVal

open Idealize.ShloMosaic Idealize.ShloMosaic.ValueIdx Cert.KernelIdeal Cert.KernelIdeal.Gen

/-! ## The matrix product with the transposed block -/

theorem dot_lhs0 (i : S1280x1280.Idx) (c : dot_S1280x128_S128x1280_S1280x1280_1_0_0_1_n_n.contr.Idx) :
    (dot_S1280x128_S128x1280_S1280x1280_1_0_0_1_n_n.lhsIdx i c 0).val = (i 0).val := by
  unfold DotDims.lhsIdx
  rw [dif_neg (show ¬(0 : Fin S1280x128.rank) ∈ dot_S1280x128_S128x1280_S1280x1280_1_0_0_1_n_n.lhsBatch by decide),
    dif_pos (show (0 : Fin S1280x128.rank) ∈ dot_S1280x128_S128x1280_S1280x1280_1_0_0_1_n_n.lhsNonContracting by decide)]
  rfl
theorem dot_lhs1 (i : S1280x1280.Idx) (c : dot_S1280x128_S128x1280_S1280x1280_1_0_0_1_n_n.contr.Idx) :
    (dot_S1280x128_S128x1280_S1280x1280_1_0_0_1_n_n.lhsIdx i c 1).val = (c ⟨0, by decide⟩).val :=
  dot_S1280x128_S128x1280_S1280x1280_1_0_0_1_n_n.lhsIdx_val_of_single rfl i c
theorem dot_rhs0 (i : S1280x1280.Idx) (c : dot_S1280x128_S128x1280_S1280x1280_1_0_0_1_n_n.contr.Idx) :
    (dot_S1280x128_S128x1280_S1280x1280_1_0_0_1_n_n.rhsIdx i c 0).val = (c ⟨0, by decide⟩).val :=
  dot_S1280x128_S128x1280_S1280x1280_1_0_0_1_n_n.rhsIdx_val_of_single rfl i c
theorem dot_rhs1 (i : S1280x1280.Idx) (c : dot_S1280x128_S128x1280_S1280x1280_1_0_0_1_n_n.contr.Idx) :
    (dot_S1280x128_S128x1280_S1280x1280_1_0_0_1_n_n.rhsIdx i c 1).val = (i 1).val := by
  unfold DotDims.rhsIdx
  rw [dif_neg (show ¬(1 : Fin S128x1280.rank) ∈ dot_S1280x128_S128x1280_S1280x1280_1_0_0_1_n_n.rhsBatch by decide),
    dif_pos (show (1 : Fin S128x1280.rank) ∈ dot_S1280x128_S128x1280_S1280x1280_1_0_0_1_n_n.rhsNonContracting by decide)]
  rfl

/-- The product of a [1280, 128] block with a [128, 1280] block into the zero accumulator, at (p, q): the 128-term sum
    of the products along the shared axis. -/
theorem matmul_ix (l : FVec Ideal S1280x128 .f32) (r : FVec Ideal S128x1280 .f32) (p q : Fin 1280) :
    matmul dot_S1280x128_S128x1280_S1280x1280_1_0_0_1_n_n (some .fp32) l r
        (constant (F := Ideal) S1280x1280 .f32 0x00000000#32) (ix2 p q)
      = ∑ k : Fin 128, l (ix2 p k) * r (ix2 k q) := by
  simp only [matmul]
  rw [Ideal.matmul_constant_zero_apply,
    ← Equiv.sum_comp (contrEquiv1 dot_S1280x128_S128x1280_S1280x1280_1_0_0_1_n_n 128 rfl rfl).symm]
  refine Finset.sum_congr rfl fun k _ => ?_
  have hk := contrEquiv1_symm_val dot_S1280x128_S128x1280_S1280x1280_1_0_0_1_n_n 128 rfl rfl k
  have el : dot_S1280x128_S128x1280_S1280x1280_1_0_0_1_n_n.lhsIdx (ix2 p q)
      ((contrEquiv1 dot_S1280x128_S128x1280_S1280x1280_1_0_0_1_n_n 128 rfl rfl).symm k) = ix2 p k :=
    funext fun a => Fin.ext (by
      match a with
      | ⟨0, _⟩ => exact dot_lhs0 _ _
      | ⟨1, _⟩ => exact (dot_lhs1 _ _).trans hk)
  have er : dot_S1280x128_S128x1280_S1280x1280_1_0_0_1_n_n.rhsIdx (ix2 p q)
      ((contrEquiv1 dot_S1280x128_S128x1280_S1280x1280_1_0_0_1_n_n 128 rfl rfl).symm k) = ix2 k q :=
    funext fun a => Fin.ext (by
      match a with
      | ⟨0, _⟩ => exact (dot_rhs0 _ _).trans hk
      | ⟨1, _⟩ => exact dot_rhs1 _ _)
  rw [el, er]

/-! ## The tile of scaled distances -/

/-- The named reciprocal denotes the rational 1/9. -/
theorem inv_9 : Named.named (F := Ideal) κ "inv_9" (φ := .f32) 0x3DE38E39#32 = ((1 / 9 : ℝ) : EReal) :=
  IdealRules.named_const.ideal_named_scalar _ _ _ _ rfl

/-- The product of one block with the transpose of another, at (p, q): the inner product of row `p` of the first with
    row `q` of the second. -/
theorem gram_ix (l r : FVec Ideal S1280x128 .f32) (p q : Fin 1280) :
    matmul dot_S1280x128_S128x1280_S1280x1280_1_0_0_1_n_n (some .fp32) l
        (transpose S128x1280 [1, 0] r transposes_S1280x128_p1_0_S128x1280)
        (constant (F := Ideal) S1280x1280 .f32 0x00000000#32) (ix2 p q)
      = ∑ k : Fin 128, l (ix2 p k) * r (ix2 q k) :=
  (matmul_ix l _ p q).trans
    (Finset.sum_congr rfl fun k _ => congrArg (l (ix2 p k) * ·) (transpose_ix2_apply r _ k q))

/-- The body's tile at (p, q) is the scaled squared distance between row `p` of the first block and row `q` of the second. -/
theorem pay1_apply (x0 x1 : Vec Ideal S1280x128 .f32) (p q : Fin 1280) :
    k0_pay1 (F := Ideal) x0 x1 (ix2 p q) = tile x0 x1 p q := by
  unfold k0_pay1
  simp only [mulf_apply, addf_apply, subf_apply, broadcast_apply, shapeCast_self]
  rw [broadcastTo_a1_ab_apply, shapeCast_a_a1_apply, laneSum_apply,
    broadcastTo_1b_ab_apply, shapeCast_a_1a_apply, laneSum_apply, gram_ix]
  simp only [mulf_apply, inv_9]
  rfl

end Cert.KernelIdeal.PayVal

end
-- ==== Proof.KI.Pay1.lean ====
/-
  The normalising kernel's value, read at an index on the extended reals.

  Its body forms the same tile of scaled distances as the statistics kernel's, subtracts the least distance `a` from
  every entry, and divides by the spread `b − a` of the greatest and the least, both read from one-entry arrays and
  spread over the tile.
-/
import proofs.«118980_j8813272891856_2_alg».proof.Proof.KI.Tile

noncomputable section

open scoped BigOperators

namespace Cert.KernelIdeal.PayVal

open Idealize.ShloMosaic Idealize.ShloMosaic.ValueIdx Cert.KernelIdeal Cert.KernelIdeal.Gen

/-- The normalising body is the statistics body's tile, shifted by the spread-out `a` and divided by the spread-out
    `b − a`: the two bodies print the same operations up to the tile. -/
theorem k1_eq_tile_ops (x0 x1 : Vec Ideal S1280x128 .f32) (a b : Vec Ideal S1x1 .f32) :
    k1_pay1 (F := Ideal) x0 x1 a b
      = divf (subf (k0_pay1 (F := Ideal) x0 x1)
            (broadcastTo S1280x1280 (shapeCast S1x1 a shapeCasts_S1x1_S1x1) broadcasts_S1x1_S1280x1280))
          (broadcastTo S1280x1280 (subf (shapeCast S1x1 b shapeCasts_S1x1_S1x1) (shapeCast S1x1 a shapeCasts_S1x1_S1x1))
            broadcasts_S1x1_S1280x1280) := rfl

/-- The normalised tile at (p, q): the scaled distance less `a`, over `b − a`. -/
theorem k1_apply (x0 x1 : Vec Ideal S1280x128 .f32) (a b : Vec Ideal S1x1 .f32) (p q : Fin 1280) :
    k1_pay1 (F := Ideal) x0 x1 a b (ix2 p q)
      = Ideal.div (tile x0 x1 p q - a (ix2 (0 : Fin 1) (0 : Fin 1)))
          (b (ix2 (0 : Fin 1) (0 : Fin 1)) - a (ix2 (0 : Fin 1) (0 : Fin 1))) := by
  rw [k1_eq_tile_ops]
  simp only [divf_apply, subf_apply, shapeCast_self]
  rw [broadcastTo_11_ab_apply, broadcastTo_11_ab_apply, pay1_apply]
  rfl

end Cert.KernelIdeal.PayVal

end
-- ==== Proof.LibSupSub.lean ====
/-
  Order facts on finite suprema that do not depend on any program.

  Subtracting a constant commutes with a finite supremum on the extended reals, for EVERY constant
  (also an infinite one): `x ↦ x - c` is `x ↦ x + (-c)`, which is monotone and sends `⊥` to `⊥`,
  and a monotone map on a linear order that fixes `⊥` commutes with finite suprema.
  Beside it: a fold by `max` from `⊥` (by `min` from `⊤`) is the finite supremum (infimum), and
  a supremum (infimum) over a whole finite type may be re-indexed along a bijection.
-/
import Mathlib.Data.EReal.Operations
import Mathlib.Data.Finset.Lattice.Fold
import Mathlib.Data.Finset.Fold
import Mathlib.Data.Finset.BooleanAlgebra

namespace Cert.SupSub

/-- On the extended reals, the supremum of `d p - c` over a finite set is the supremum of `d` less `c`,
    whatever `c` is (finite or not) and also over the empty set (`⊥ - c = ⊥`). -/
theorem sup_sub_const {ι : Type*} (s : Finset ι) (d : ι → EReal) (c : EReal) :
    (s.sup fun p => d p - c) = s.sup d - c :=
  (Finset.apply_sup_eq_sup_comp_of_linearOrder (s := s) (f := d) (fun x : EReal => x - c)
    (fun _ _ h => EReal.sub_le_sub h le_rfl) (EReal.bot_sub c)).symm

/-- A fold by `max` from `⊥` is the finite supremum. -/
theorem fold_max_eq_sup {α ι : Type*} [LinearOrder α] [OrderBot α] (s : Finset ι) (f : ι → α) :
    s.fold max ⊥ f = s.sup f := by
  induction s using Finset.cons_induction with
  | empty => rfl
  | cons a s ha ih => rw [Finset.fold_cons, Finset.sup_cons, ih]

/-- A fold by `min` from `⊤` is the finite infimum. -/
theorem fold_min_eq_inf {α ι : Type*} [LinearOrder α] [OrderTop α] (s : Finset ι) (f : ι → α) :
    s.fold min ⊤ f = s.inf f := by
  induction s using Finset.cons_induction with
  | empty => rfl
  | cons a s ha ih => rw [Finset.fold_cons, Finset.inf_cons, ih]

/-- The supremum over a whole finite type, re-indexed along a bijection. -/
theorem sup_univ_equiv {α β γ : Type*} [SemilatticeSup γ] [OrderBot γ] [Fintype α] [Fintype β] (e : α ≃ β) (f : β → γ) :
    (Finset.univ.sup fun a => f (e a)) = Finset.univ.sup f := by
  rw [← Finset.map_univ_equiv e, Finset.sup_map]; rfl

/-- The infimum over a whole finite type, re-indexed along a bijection. -/
theorem inf_univ_equiv {α β γ : Type*} [SemilatticeInf γ] [OrderTop γ] [Fintype α] [Fintype β] (e : α ≃ β) (f : β → γ) :
    (Finset.univ.inf fun a => f (e a)) = Finset.univ.inf f := by
  rw [← Finset.map_univ_equiv e, Finset.inf_map]; rfl

end Cert.SupSub
-- ==== Proof.RefReduce.lean ====
/-
  A full reduction of a rank-2 array by minimum from +∞ (by maximum from −∞) is the infimum (supremum)
  over all pairs of coordinates: the fold is over the SET of all indices (minimum and maximum are
  commutative and associative), the initial word is the top (bottom) element of the extended reals, a fold
  by `min` from `⊤` is the finite infimum, and the index set is the product of its two coordinate ranges.
-/
import Idealize.ShloMosaic.Lib.ValueIdx
import Idealize.ShloMosaic.PureOps.Ideal.Laws
import proofs.«118980_j8813272891856_2_alg».proof.Proof.LibSupSub

noncomputable section

namespace Cert.RefSide

open Idealize.ShloMosaic Idealize.ShloMosaic.ValueIdx

/-- The word `0x7F800000` is +∞. -/
theorem ofBits_pos_inf : Ideal.ofBits .f32 0x7F800000#32 = ⊤ := by simp [Ideal.ofBits, Ideal.ieee]
/-- The word `0xFF800000` is −∞. -/
theorem ofBits_neg_inf : Ideal.ofBits .f32 0xFF800000#32 = ⊥ := by simp [Ideal.ofBits, Ideal.ieee]

/-- The minimum over every entry of a rank-2 array, started from +∞, is the infimum over all pairs. -/
theorem reduce_min_all {a b : Nat} (y : FVec Ideal ⟨2, ![a, b]⟩ .f32) (init : FVec Ideal ⟨0, ![]⟩ .f32)
    (h : (⟨2, ![a, b]⟩ : Shape).ReducesTo [0, 1] ⟨0, ![]⟩) (hu : 0 < (⟨0, ![]⟩ : Shape).numel)
    (hinit : init (Shape.Idx.first hu) = ⊤) (j : (⟨0, ![]⟩ : Shape).Idx) :
    Host.reduce (FloatOps.minimumf (F := Ideal) (φ := .f32)) y init h hu j
      = Finset.univ.inf fun p : Fin a × Fin b => y (ix2 p.1 p.2) := by
  rw [Host.reduce_eq_fold, Finset.filter_true_of_mem (fun i _ => funext fun a => a.elim0), hinit]
  exact (Cert.SupSub.fold_min_eq_inf Finset.univ y).trans (Cert.SupSub.inf_univ_equiv idxEquiv2.symm y).symm

/-- The maximum over every entry of a rank-2 array, started from −∞, is the supremum over all pairs. -/
theorem reduce_max_all {a b : Nat} (y : FVec Ideal ⟨2, ![a, b]⟩ .f32) (init : FVec Ideal ⟨0, ![]⟩ .f32)
    (h : (⟨2, ![a, b]⟩ : Shape).ReducesTo [0, 1] ⟨0, ![]⟩) (hu : 0 < (⟨0, ![]⟩ : Shape).numel)
    (hinit : init (Shape.Idx.first hu) = ⊥) (j : (⟨0, ![]⟩ : Shape).Idx) :
    Host.reduce (FloatOps.maximumf (F := Ideal) (φ := .f32)) y init h hu j
      = Finset.univ.sup fun p : Fin a × Fin b => y (ix2 p.1 p.2) := by
  rw [Host.reduce_eq_fold, Finset.filter_true_of_mem (fun i _ => funext fun a => a.elim0), hinit]
  exact (Cert.SupSub.fold_max_eq_sup Finset.univ y).trans (Cert.SupSub.sup_univ_equiv idxEquiv2.symm y).symm

end Cert.RefSide

end
-- ==== Proof.RefSide.lean ====
/-
  The reference program computes the normalised pairwise distances of the specification.

  Its first eight operations turn the image into the feature matrix `g` (6400 patches, 9 features); they are
  carried here as ONE function `v6` of the image and never opened. From `g` on, operation by operation:
  the row sums of `g * g` are the squared norms (the sum starts from the zero word, and `0 + s = s`);
  `g` times its transpose is the table of inner products; the two broadcasts of the norms, their sum, and the
  difference with twice the inner products give `|g n|² + |g m|² − 2⟨g n, g m⟩`; the quotient by the word 9
  is the scaled distance `dist`. The minimum over all entries from +∞ is the infimum `mn` over all pairs.
  The reference subtracts `mn` BEFORE taking the maximum: the maximum over all entries of `dist − mn` from −∞
  is the supremum over all pairs of `dist p − mn`, which is `(sup dist) − mn = mx − mn` because subtracting a
  constant commutes with a finite supremum on the extended reals. The last quotient is
  `(dist − mn) / (mx − mn)`, and the final broadcast only adds a leading axis of extent one.
-/
import proofs.«118980_j8813272891856_2_alg».proof.Proof.Gen.ReferenceIdeal
import proofs.«118980_j8813272891856_2_alg».proof.Proof.Gen.ReferenceIdeal.Run
import proofs.«118980_j8813272891856_2_alg».proof.Proof.Gen.ReferenceIdeal.Read
import proofs.«118980_j8813272891856_2_alg».proof.Proof.Spec
import proofs.«118980_j8813272891856_2_alg».proof.Proof.LibSupSub
import proofs.«118980_j8813272891856_2_alg».proof.Proof.RefReduce
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The feature matrix as a function of the image: the image cut into 80 × 80 patches of 3 × 16 × 16, each
    patch's 3 × 3 Gram matrix of its channels (a contraction over the 256 pixels) divided by the word 768,
    flattened to 9 features. Both programs apply these same eight operations; nothing below opens them. -/
def v6 (x : FVec Ideal S3x1280x1280 .f32) : FVec Ideal S6400x9 .f32 :=
  shapeCast _ (Host.divf (F := Ideal)
    (Host.dotGeneral (F := Ideal) dot_S6400x3x256_S6400x3x256_S6400x3x3_2_2_1_1_0_0 none
      (shapeCast _ (transpose S80x80x3x16x16 [1, 3, 0, 2, 4] (shapeCast _ x shapeCasts_S3x1280x1280_S3x80x16x80x16)
        transposes_S3x80x16x80x16_S80x80x3x16x16_1_3_0_2_4) shapeCasts_S80x80x3x16x16_S6400x3x256)
      (shapeCast _ (transpose S80x80x3x16x16 [1, 3, 0, 2, 4] (shapeCast _ x shapeCasts_S3x1280x1280_S3x80x16x80x16)
        transposes_S3x80x16x80x16_S80x80x3x16x16_1_3_0_2_4) shapeCasts_S80x80x3x16x16_S6400x3x256))
    (broadcastInDim S6400x3x3 ![] bcast_S_S6400x3x3 (constant (F := Ideal) S_ .f32 0x44400000#32)))
    shapeCasts_S6400x3x3_S6400x9

/-- The reference's sixth value is that function of the image. -/
theorem val_v6_eq (x : FVec Ideal S3x1280x1280 .f32) : val_main_v6 (F := Ideal) x = v6 x := rfl

/-! ## The stages at an index, over the features -/

section Stages

variable (x : FVec Ideal S3x1280x1280 .f32)

/-- The row sums of the squares are the squared norms. -/
theorem sqn_eq (n : Fin 6400) : val_main_v8 (F := Ideal) x (ix1 n) = Spec.sqn (Spec.feat (v6 x)) n := by
  rw [val_main_v8_apply, val_main_cst_0_apply, Ideal.ofBits_def, Ideal.ofBits_zero_f32, zero_add]
  refine Finset.sum_congr rfl fun k _ => ?_
  rw [val_main_v7_apply, Ideal.mulf_def, val_v6_eq,
    show idx_main_v8 (ix1 n) k = ix2 n k from funext fun a => Fin.ext (by match a with | ⟨0, _⟩ => rfl | ⟨1, _⟩ => rfl)]
  rfl

/-- The features times their transpose are the inner products. -/
theorem inner_eq (n m : Fin 6400) : val_main_v10 (F := Ideal) x (ix2 n m) = Spec.inner (Spec.feat (v6 x)) n m := by
  rw [val_main_v10_apply]
  refine Finset.sum_congr rfl fun k _ => ?_
  rw [val_main_v9_apply, val_v6_eq,
    show lidx_main_v10 (ix2 n m) k = ix2 n k from funext fun a => Fin.ext (by match a with | ⟨0, _⟩ => rfl | ⟨1, _⟩ => rfl),
    show idx_main_v9 (ridx_main_v10 (ix2 n m) k) = ix2 m k from funext fun a => Fin.ext (by match a with | ⟨0, _⟩ => rfl | ⟨1, _⟩ => rfl)]
  rfl

/-- The sum of the two broadcast norms, less twice the inner product. -/
theorem raw_eq (n m : Fin 6400) : val_main_v18 (F := Ideal) x (ix2 n m) = Spec.raw (Spec.feat (v6 x)) n m := by
  rw [val_main_v18_apply, val_main_v15_apply, val_main_v13_apply, val_main_v11_apply, val_main_v14_apply, val_main_v12_apply,
    val_main_v17_apply, val_main_v16_apply, val_main_cst_1_apply,
    show idx_main_v11 (idx_main_v13 (ix2 n m)) = ix1 n from funext fun a => Fin.ext (by match a with | ⟨0, _⟩ => rfl),
    show idx_main_v12 (idx_main_v14 (ix2 n m)) = ix1 m from funext fun a => Fin.ext (by match a with | ⟨0, _⟩ => rfl),
    sqn_eq, sqn_eq, inner_eq]
  rfl

/-- The quotient by the word 9 is the scaled distance. -/
theorem dist_eq (n m : Fin 6400) : val_main_v20 (F := Ideal) x (ix2 n m) = Spec.dist (Spec.feat (v6 x)) n m := by
  rw [val_main_v20_apply, val_main_v19_apply, val_main_cst_2_apply, raw_eq]
  rfl

/-- The minimum over all entries, from +∞, is the least distance. -/
theorem mn_eq (j : S_.Idx) : val_main_v21 (F := Ideal) x j = Spec.mn (Spec.feat (v6 x)) := by
  unfold val_main_v21
  rw [reduce_min_all _ _ _ _ ofBits_pos_inf]
  exact Finset.inf_congr rfl fun p _ => dist_eq x p.1 p.2

/-- The distances less the least one. -/
theorem shifted_eq (n m : Fin 6400) :
    val_main_v23 (F := Ideal) x (ix2 n m) = Spec.dist (Spec.feat (v6 x)) n m - Spec.mn (Spec.feat (v6 x)) := by
  rw [val_main_v23_apply, val_main_v22_apply, dist_eq, mn_eq]
  rfl

/-- The maximum over all entries of the shifted distances, from −∞, is the greatest distance less the least:
    subtracting a constant commutes with the supremum over all pairs. -/
theorem range_eq (j : S_.Idx) :
    val_main_v24 (F := Ideal) x j = Spec.mx (Spec.feat (v6 x)) - Spec.mn (Spec.feat (v6 x)) := by
  unfold val_main_v24
  rw [reduce_max_all _ _ _ _ ofBits_neg_inf]
  rw [show (fun p : Fin 6400 × Fin 6400 => val_main_v23 (F := Ideal) x (ix2 p.1 p.2))
      = fun p : Fin 6400 × Fin 6400 => Spec.dist (Spec.feat (v6 x)) p.1 p.2 - Spec.mn (Spec.feat (v6 x))
    from funext fun p => shifted_eq x p.1 p.2]
  exact Cert.SupSub.sup_sub_const Finset.univ (fun p : Fin 6400 × Fin 6400 => Spec.dist (Spec.feat (v6 x)) p.1 p.2) _

/-- The normalised distance. -/
theorem out_eq (n m : Fin 6400) : val_main_v26 (F := Ideal) x (ix2 n m) = Spec.out (Spec.feat (v6 x)) n m := by
  rw [val_main_v26_apply, val_main_v25_apply, shifted_eq, range_eq]
  rfl

end Stages

/-! ## The result -/

/-- The reference's result, as a function of the image, is the specification's array of the features. -/
theorem result_eq (x : FVec Ideal S3x1280x1280 .f32) : val_main_v27 (F := Ideal) x = Spec.final (v6 x) := by
  funext i
  rw [val_main_v27_apply,
    show idx_main_v27 i = ix2 (i 1) (i 2) from funext fun a => Fin.ext (by match a with | ⟨0, _⟩ => rfl | ⟨1, _⟩ => rfl)]
  exact out_eq x (i 1) (i 2)

/-- Every run of the reference ends with its result at the specification's array of the features of its
    argument, and the argument unchanged. -/
theorem run_final (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread _ Cert.ReferenceIdeal.τ).loc Cert.ReferenceIdeal.main_v27)
            = Cert.Spec.final (v6 (m' ((c.tc : Thread _ Cert.ReferenceIdeal.τ).loc Cert.ReferenceIdeal.main_arg0)))
        ∧ r.2.mem ((c.tc : Thread _ Cert.ReferenceIdeal.τ).loc Cert.ReferenceIdeal.main_arg0)
            = m' ((c.tc : Thread _ Cert.ReferenceIdeal.τ).loc Cert.ReferenceIdeal.main_arg0)) :=
  (θ_run Cert.ReferenceIdeal.defs _ _).mono
    (fun _ h c => ⟨(h c).1.trans ((val_main_v27_eq m' c).trans (result_eq _)), (h c).2⟩)
    (Cert.ReferenceIdeal.Value.run (F := Ideal) m' ρ')

end Cert.RefSide

end
-- ==== Proof.KI.HostVal.lean ====
/-
  The kernel program's host operations, read back over the contents of its buffers between its items.

  Before the first region the program forms the feature matrix by the same eight operations as the reference
  (carried as one function of the image, never opened) and pads it on the right with 119 columns of the
  value of the integer word 0 converted to a float, which is 0: entry (n, k) of the padded matrix is the
  feature (n, k) for k < 9 and 0 from column 9 on. Between the regions it takes the minimum from +∞ and the
  maximum from −∞ over every entry of the two 40 × 128 arrays the first region leaves — the infimum and the
  supremum over all their entries — and reshapes each scalar to a 1 × 1 array. After the second region it
  only adds a leading axis of extent one to the 6400 × 6400 result.
-/
import proofs.«118980_j8813272891856_2_alg».proof.Proof.Gen.KernelIdeal
import proofs.«118980_j8813272891856_2_alg».proof.Proof.Gen.KernelIdeal.Launch
import proofs.«118980_j8813272891856_2_alg».proof.Proof.Gen.KernelIdeal.Regions
import proofs.«118980_j8813272891856_2_alg».proof.Proof.RefReduce
import proofs.«118980_j8813272891856_2_alg».proof.Proof.RefSide
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal.Laws

noncomputable section

namespace Cert.KernelIdeal.HostVal

open Cert.KernelIdeal Cert.KernelIdeal.Gen Idealize.ShloMosaic Idealize.ShloMosaic.TcCoe Idealize.SL.Sem
  Idealize.ShloMosaic.StableHlo Idealize.ShloMosaic.ValueIdx

/-! ## Before the first region -/

/-- The feature matrix as a function of the image, spelt over this program's shapes: the image cut into
    80 × 80 patches of 3 × 16 × 16, each patch's 3 × 3 Gram matrix of its channels divided by the word 768,
    flattened to 9 features. -/
def v6K (x : FVec Ideal S3x1280x1280 .f32) : FVec Ideal S6400x9 .f32 :=
  shapeCast _ (Host.divf (F := Ideal)
    (Host.dotGeneral (F := Ideal) dot_S6400x3x256_S6400x3x256_S6400x3x3_2_2_1_1_0_0 none
      (shapeCast _ (transpose S80x80x3x16x16 [1, 3, 0, 2, 4] (shapeCast _ x shapeCasts_S3x1280x1280_S3x80x16x80x16)
        transposes_S3x80x16x80x16_S80x80x3x16x16_1_3_0_2_4) shapeCasts_S80x80x3x16x16_S6400x3x256)
      (shapeCast _ (transpose S80x80x3x16x16 [1, 3, 0, 2, 4] (shapeCast _ x shapeCasts_S3x1280x1280_S3x80x16x80x16)
        transposes_S3x80x16x80x16_S80x80x3x16x16_1_3_0_2_4) shapeCasts_S80x80x3x16x16_S6400x3x256))
    (broadcastInDim S6400x3x3 ![] bcast_S_S6400x3x3 (constant (F := Ideal) S_ .f32 0x44400000#32)))
    shapeCasts_S6400x3x3_S6400x9

/-- It is the reference's function of the image. -/
theorem v6K_eq (x : FVec Ideal S3x1280x1280 .f32) : v6K x = Cert.RefSide.v6 x := rfl

/-- Entering the first region, the feature buffer holds the features of the image at launch. -/
theorem V2_v6 (m : (ℓ : Loc nD τ sig) → Buf (Elt Ideal) ℓ) (c : Dev nD) :
    (Gen.V2 (F := Ideal) m c main_v6 : FVec Ideal S6400x9 .f32) = v6K (m ((c : Thread nD τ).loc main_arg0)) := by
  dsimp only [Gen.V2, Gen.V1, Gen.V0, Gen.hostOps0, Gen.hostOps0_1]
  after_results
  rfl

/-- Entering the first region, the padded buffer holds the features padded on the right with the converted word 0. -/
theorem V2_v7 (m : (ℓ : Loc nD τ sig) → Buf (Elt Ideal) ℓ) (c : Dev nD) :
    (Gen.V2 (F := Ideal) m c main_v7 : FVec Ideal S6400x128 .f32)
      = pad S6400x128 ![0, 0] ![0, 119] ![0, 0] (v6K (m ((c : Thread nD τ).loc main_arg0)))
          (sitofp (F := Ideal) .f32 (constantI S_ 32 0#32)) pads_S6400x9_S6400x128_000_01190 h_S_ := by
  dsimp only [Gen.V2, Gen.V1, Gen.V0, Gen.hostOps0, Gen.hostOps0_1]
  after_results
  rfl

/-- The padded features at an index: the feature in the first nine columns, 0 from column 9 on. -/
theorem V2_v7_apply (m : (ℓ : Loc nD τ sig) → Buf (Elt Ideal) ℓ) (c : Dev nD) (n : Fin 6400) (k : Fin 128) :
    (Gen.V2 (F := Ideal) m c main_v7 : FVec Ideal S6400x128 .f32) (ix2 n k)
      = if h : k.val < 9 then v6K (m ((c : Thread nD τ).loc main_arg0)) (ix2 n ⟨k.val, h⟩) else 0 := by
  rw [V2_v7]
  by_cases h : k.val < 9
  · rw [dif_pos h]
    exact pad_apply_of_inside _ _ _ _ _ pads_S6400x9_S6400x128_000_01190 h_S_ (ix2 n k) (ix2 n ⟨k.val, h⟩)
      (fun a => match a with
        | ⟨0, _⟩ => by show n.val = 0 + n.val * (0 + 1); omega
        | ⟨1, _⟩ => by show k.val = 0 + k.val * (0 + 1); omega)
  · rw [dif_neg h]
    refine (pad_apply_of_not_inside _ _ _ _ _ pads_S6400x9_S6400x128_000_01190 h_S_ (ix2 n k) ⟨1, by decide⟩ ?_).trans ?_
    · intro hh
      have h3 : (k.val - 0) / (0 + 1) < 9 := hh.2.2
      omega
    · show (((0#32 : BitVec 32).toInt : ℝ) : EReal) = 0
      simp

/-! ## Between the regions -/

/-- The first 1 × 1 array: the infimum over every entry of the first region's first result. -/
theorem after1_v11 (W : Valuation τ sig (Elt Ideal)) :
    (StableHlo.after (Gen.hostOps1 (F := Ideal)) W main_v11 : FVec Ideal S1x1 .f32) (ix2 0 0)
      = Finset.inf (α := EReal) Finset.univ fun rl : Fin 40 × Fin 128 => (W main_v8_0 : FVec Ideal S40x128 .f32) (ix2 rl.1 rl.2) := by
  have e : (StableHlo.after (Gen.hostOps1 (F := Ideal)) W main_v11 : FVec Ideal S1x1 .f32)
      = shapeCast S1x1 (Host.reduce (FloatOps.minimumf (F := Ideal) (φ := .f32)) (W main_v8_0 : FVec Ideal S40x128 .f32)
          (constant (F := Ideal) S_ .f32 0x7F800000#32) reducesTo_S40x128_S_d0_1 h_S_) shapeCasts_S_S1x1 := by
    dsimp only [Gen.hostOps1]
    after_results
    rfl
  rw [e, shapeCast_apply _ shapeCasts_S_S1x1 (ix2 0 0) ix0 (by
    rw [Shape.rowMajor_val_two]
    have h := (S_.rowMajor ix0).isLt
    have h1 : S_.numel = 1 := rfl
    show (S_.rowMajor ix0).val = 0 * 1 + 0
    omega)]
  exact Cert.RefSide.reduce_min_all (W main_v8_0 : FVec Ideal S40x128 .f32) (constant (F := Ideal) S_ .f32 0x7F800000#32)
    reducesTo_S40x128_S_d0_1 h_S_ Cert.RefSide.ofBits_pos_inf ix0

/-- The second 1 × 1 array: the supremum over every entry of the first region's second result. -/
theorem after1_v12 (W : Valuation τ sig (Elt Ideal)) :
    (StableHlo.after (Gen.hostOps1 (F := Ideal)) W main_v12 : FVec Ideal S1x1 .f32) (ix2 0 0)
      = Finset.sup (α := EReal) Finset.univ fun rl : Fin 40 × Fin 128 => (W main_v8_1 : FVec Ideal S40x128 .f32) (ix2 rl.1 rl.2) := by
  have e : (StableHlo.after (Gen.hostOps1 (F := Ideal)) W main_v12 : FVec Ideal S1x1 .f32)
      = shapeCast S1x1 (Host.reduce (FloatOps.maximumf (F := Ideal) (φ := .f32)) (W main_v8_1 : FVec Ideal S40x128 .f32)
          (constant (F := Ideal) S_ .f32 0xFF800000#32) reducesTo_S40x128_S_d0_1 h_S_) shapeCasts_S_S1x1 := by
    dsimp only [Gen.hostOps1]
    after_results
    rfl
  rw [e, shapeCast_apply _ shapeCasts_S_S1x1 (ix2 0 0) ix0 (by
    rw [Shape.rowMajor_val_two]
    have h := (S_.rowMajor ix0).isLt
    have h1 : S_.numel = 1 := rfl
    show (S_.rowMajor ix0).val = 0 * 1 + 0
    omega)]
  exact Cert.RefSide.reduce_max_all (W main_v8_1 : FVec Ideal S40x128 .f32) (constant (F := Ideal) S_ .f32 0xFF800000#32)
    reducesTo_S40x128_S_d0_1 h_S_ Cert.RefSide.ofBits_neg_inf ix0

/-! ## After the second region -/

/-- The result array is the second region's result under a leading axis of extent one. -/
theorem after2_v14 (W : Valuation τ sig (Elt Ideal)) (a : Fin 1) (n k : Fin 6400) :
    (StableHlo.after (Gen.hostOps2 (F := Ideal)) W main_v14 : FVec Ideal S1x6400x6400 .f32) (ix3 a n k)
      = (W main_v13 : FVec Ideal S6400x6400 .f32) (ix2 n k) := by
  have e : (StableHlo.after (Gen.hostOps2 (F := Ideal)) W main_v14 : FVec Ideal S1x6400x6400 .f32)
      = broadcastInDim S1x6400x6400 ![1, 2] bcast_S6400x6400_S1x6400x6400_1_2 (W main_v13 : FVec Ideal S6400x6400 .f32) := by
    dsimp only [Gen.hostOps2]
    after_results
  rw [e]
  exact broadcastInDim_apply _ bcast_S6400x6400_S1x6400x6400_1_2 _ (ix3 a n k) (ix2 n k) (fun b => match b with
    | ⟨0, _⟩ => by show n.val = if (6400 : Nat) = 1 then 0 else n.val; rw [if_neg (by decide)]
    | ⟨1, _⟩ => by show k.val = if (6400 : Nat) = 1 then 0 else k.val; rw [if_neg (by decide)])

end Cert.KernelIdeal.HostVal

end
-- ==== Proof.KI.Body0Val.lean ====
/-
  The statistics kernel's running extremes read at the tile's arithmetic: each case's found pieces are the tile's
  least (greatest) entry spread over the block, alone or combined with what the block held.
-/
import proofs.«118980_j8813272891856_2_alg».proof.Proof.KI.Body0

-- membership in a rectangle of the tile's extents is looked at once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## Each case's pieces as the tile's arithmetic

In either case the one store into an output is of the whole block, so what it leaves is its payload; the payload is
computed from the row block (a whole-buffer load), from the 1280 rows of the staged array at the offset the position's
second coordinate selects, and — in the second case — from what the block held. -/

theorem out0_A_2_eq (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : cond0_0 i) (hc1 : ¬cond0_1 i) (x0 : Vec F S1280x128 .f32) (x1 : Vec F S6400x128 .f32) :
    out0_A_2 c i arg2 harg2 arg3 harg3 arg4 harg4 arg5 harg5 hc0 hc1 x0 x1 = k0_pay4 x0 (View.ld x1 (r0_cols i)) := by
  unfold out0_A_2
  rw [View.read_writes_eq_canon _ _ _ (cover0_A_2 c i arg2 harg2 arg3 harg3 arg4 harg4 arg5 harg5 hc0 hc1 x0 x1)]
  unfold kernelRun0_A; dsimp only
  refine (View.canon_unit_zero (S := S8x128) zero2_0 _ _).trans ?_
  simp only [View.readAt_eq_ld, harg2.read_unread, harg3.read_unread, View.ld_unit_zero (S := S1280x128) zero2_0]

theorem out0_A_3_eq (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : cond0_0 i) (hc1 : ¬cond0_1 i) (x0 : Vec F S1280x128 .f32) (x1 : Vec F S6400x128 .f32) :
    out0_A_3 c i arg2 harg2 arg3 harg3 arg4 harg4 arg5 harg5 hc0 hc1 x0 x1 = k0_pay5 x0 (View.ld x1 (r0_cols i)) := by
  unfold out0_A_3
  rw [View.read_writes_eq_canon _ _ _ (cover0_A_3 c i arg2 harg2 arg3 harg3 arg4 harg4 arg5 harg5 hc0 hc1 x0 x1)]
  unfold kernelRun0_A; dsimp only
  refine (View.canon_unit_zero (S := S8x128) zero2_0 _ _).trans ?_
  simp only [View.readAt_eq_ld, harg2.read_unread, harg3.read_unread, View.ld_unit_zero (S := S1280x128) zero2_0]

theorem out0_B_2_eq (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : ¬cond0_0 i) (hc1 : cond0_1 i) (x0 : Vec F S1280x128 .f32) (x1 : Vec F S6400x128 .f32) (xo2 : Vec F S8x128 .f32) (xo3 : Vec F S8x128 .f32) :
    out0_B_2 c i arg2 harg2 arg3 harg3 arg4 harg4 arg5 harg5 hc0 hc1 x0 x1 xo2 xo3 = k0_pay6 x0 (View.ld x1 (r0_cols i)) xo2 := by
  unfold out0_B_2
  rw [View.read_writes_eq_canon _ _ _ (cover0_B_2 c i arg2 harg2 arg3 harg3 arg4 harg4 arg5 harg5 hc0 hc1 x0 x1 xo2 xo3)]
  unfold kernelRun0_B; dsimp only
  refine (View.canon_unit_zero (S := S8x128) zero2_0 _ _).trans ?_
  simp only [View.readAt_eq_ld, harg2.read_unread, harg3.read_unread, harg4.read_unread, harg5.read_unread,
    View.ld_unit_zero (S := S1280x128) zero2_0, View.ld_unit_zero (S := S8x128) zero2_0]

theorem out0_B_3_eq (c : Dev nD) (i : grid0.Coords)
    (arg2 : Memref sig .tc .vmem S1280x128 .f32) (harg2 : arg2.IsWhole) (arg3 : Memref sig .tc .vmem S6400x128 .f32) (harg3 : arg3.IsWhole)
    (arg4 : Memref sig .tc .vmem S8x128 .f32) (harg4 : arg4.IsWhole) (arg5 : Memref sig .tc .vmem S8x128 .f32) (harg5 : arg5.IsWhole)
    (hc0 : ¬cond0_0 i) (hc1 : cond0_1 i) (x0 : Vec F S1280x128 .f32) (x1 : Vec F S6400x128 .f32) (xo2 : Vec F S8x128 .f32) (xo3 : Vec F S8x128 .f32) :
    out0_B_3 c i arg2 harg2 arg3 harg3 arg4 harg4 arg5 harg5 hc0 hc1 x0 x1 xo2 xo3 = k0_pay7 x0 (View.ld x1 (r0_cols i)) xo3 := by
  unfold out0_B_3
  rw [View.read_writes_eq_canon _ _ _ (cover0_B_3 c i arg2 harg2 arg3 harg3 arg4 harg4 arg5 harg5 hc0 hc1 x0 x1 xo2 xo3)]
  unfold kernelRun0_B; dsimp only
  refine (View.canon_unit_zero (S := S8x128) zero2_0 _ _).trans ?_
  simp only [View.readAt_eq_ld, harg2.read_unread, harg3.read_unread, harg4.read_unread, harg5.read_unread,
    View.ld_unit_zero (S := S1280x128) zero2_0, View.ld_unit_zero (S := S8x128) zero2_0]

/-! ## The running extremes as the tile's arithmetic -/

/-- After a position whose second coordinate is 0 the blocks hold the tile's least and greatest entry, spread. -/
theorem outsA_eq (c : Dev nD) (t : Fin cfg0.N) (h0 : t.val % 5 = 0) :
    outsA V c t h0 = (k0_pay4 (iblk0 V c 0 t) (View.ld (iblk0 V c 1 t) (r0_cols (grid0.coords t))), k0_pay5 (iblk0 V c 0 t) (View.ld (iblk0 V c 1 t) (r0_cols (grid0.coords t)))) := by
  unfold outsA
  exact congrArg₂ Prod.mk
    (out0_A_2_eq c (grid0.coords t) (ms0_0 t) (hs0_0 t) (ms0_1 t) (hs0_1 t) (ms0_2 t) (hs0_2 t) (ms0_3 t) (hs0_3 t) ((hcond0_0 t).mpr h0) (fun h => (hcond0_1 t).mp h h0) (iblk0 V c 0 t) (iblk0 V c 1 t))
    (out0_A_3_eq c (grid0.coords t) (ms0_0 t) (hs0_0 t) (ms0_1 t) (hs0_1 t) (ms0_2 t) (hs0_2 t) (ms0_3 t) (hs0_3 t) ((hcond0_0 t).mpr h0) (fun h => (hcond0_1 t).mp h h0) (iblk0 V c 0 t) (iblk0 V c 1 t))

/-- After any other position they hold that combined with what the position before left (`p`). -/
theorem outsB_eq (c : Dev nD) (t : Fin cfg0.N) (h0 : ¬t.val % 5 = 0) (p : Vec F S8x128 .f32 × Vec F S8x128 .f32) :
    outsB V c t h0 p = (k0_pay6 (iblk0 V c 0 t) (View.ld (iblk0 V c 1 t) (r0_cols (grid0.coords t))) p.1, k0_pay7 (iblk0 V c 0 t) (View.ld (iblk0 V c 1 t) (r0_cols (grid0.coords t))) p.2) := by
  unfold outsB
  exact congrArg₂ Prod.mk
    (out0_B_2_eq c (grid0.coords t) (ms0_0 t) (hs0_0 t) (ms0_1 t) (hs0_1 t) (ms0_2 t) (hs0_2 t) (ms0_3 t) (hs0_3 t) (fun h => h0 ((hcond0_0 t).mp h)) ((hcond0_1 t).mpr h0) (iblk0 V c 0 t) (iblk0 V c 1 t) p.1 p.2)
    (out0_B_3_eq c (grid0.coords t) (ms0_0 t) (hs0_0 t) (ms0_1 t) (hs0_1 t) (ms0_2 t) (hs0_2 t) (ms0_3 t) (hs0_3 t) (fun h => h0 ((hcond0_0 t).mp h)) ((hcond0_1 t).mpr h0) (iblk0 V c 0 t) (iblk0 V c 1 t) p.1 p.2)

/-- The recursion of the running extremes, read at the tile's arithmetic: the two equations an induction over the
    positions of a row uses. -/
theorem outsAt0_A_val (c : Dev nD) (t : Fin cfg0.N) (h0 : t.val % 5 = 0) :
    outsAt0 V c t.val t.isLt = (k0_pay4 (iblk0 V c 0 t) (View.ld (iblk0 V c 1 t) (r0_cols (grid0.coords t))), k0_pay5 (iblk0 V c 0 t) (View.ld (iblk0 V c 1 t) (r0_cols (grid0.coords t)))) :=
  (outsAt0_A V c t h0).trans (outsA_eq V c t h0)

theorem outsAt0_B_val (c : Dev nD) (t : Fin cfg0.N) (h0 : ¬t.val % 5 = 0) :
    outsAt0 V c t.val t.isLt
      = (k0_pay6 (iblk0 V c 0 t) (View.ld (iblk0 V c 1 t) (r0_cols (grid0.coords t))) (outsAt0 V c (t.val - 1) (Nat.lt_of_le_of_lt (Nat.sub_le _ _) t.isLt)).1,
         k0_pay7 (iblk0 V c 0 t) (View.ld (iblk0 V c 1 t) (r0_cols (grid0.coords t))) (outsAt0 V c (t.val - 1) (Nat.lt_of_le_of_lt (Nat.sub_le _ _) t.isLt)).2) :=
  (outsAt0_B V c t h0).trans (outsB_eq V c t h0 _)

end Cert.KernelIdeal.Hand

end
-- ==== Proof.KI.Val0.lean ====
/-
  The two statistics arrays the first call leaves, as functions of the padded feature array the call is entered with.

  The call's grid is 5 × 5; position 5a + j reads row block a (rows 1280·a …) through its first window and row block j
  through the second (cut out of the whole staged array), and keeps in its two 8 × 128 output blocks the running least and
  greatest scaled distance of row block a against column blocks 0 … j. The blocks are written back after the last
  position of each row of the grid, to rows 8a … 8a + 7 of the [40, 128] arrays; the five write-backs fill the arrays.
-/
import proofs.«118980_j8813272891856_2_alg».proof.Proof.KI.Body0Val
import proofs.«118980_j8813272891856_2_alg».proof.Proof.KI.Val1
import Idealize.ShloMosaic.Lib.Pipeline.Value
import Idealize.ShloMosaic.Lib.ValueIdx

-- membership in a rectangle of the tile's extents is looked at once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The running extremes of a row block, by recursion on the column block -/

/-- The running minimum of row block `a` after column block `j`: the tile's least entry (spread over the 8 × 128 block)
    at column block 0, combined with the running value at each later one. -/
def minAcc (P : S6400x128.Idx → Elt F .f32) (a : Fin 5) : ℕ → Vec F S8x128 .f32
  | 0 => k0_pay4 (rowsAt P a) (rowsAt P ⟨0 % 5, Nat.mod_lt _ (by decide)⟩)
  | j + 1 => k0_pay6 (rowsAt P a) (rowsAt P ⟨(j + 1) % 5, Nat.mod_lt _ (by decide)⟩) (minAcc P a j)
/-- The running maximum likewise. -/
def maxAcc (P : S6400x128.Idx → Elt F .f32) (a : Fin 5) : ℕ → Vec F S8x128 .f32
  | 0 => k0_pay5 (rowsAt P a) (rowsAt P ⟨0 % 5, Nat.mod_lt _ (by decide)⟩)
  | j + 1 => k0_pay7 (rowsAt P a) (rowsAt P ⟨(j + 1) % 5, Nat.mod_lt _ (by decide)⟩) (maxAcc P a j)

theorem minAcc_zero (P : S6400x128.Idx → Elt F .f32) (a : Fin 5) :
    minAcc P a 0 = k0_pay4 (rowsAt P a) (rowsAt P 0) := rfl
theorem minAcc_succ (P : S6400x128.Idx → Elt F .f32) (a : Fin 5) (j : ℕ) (hj : j + 1 < 5) :
    minAcc P a (j + 1) = k0_pay6 (rowsAt P a) (rowsAt P ⟨j + 1, hj⟩) (minAcc P a j) := by
  have e : (⟨(j + 1) % 5, Nat.mod_lt _ (by decide)⟩ : Fin 5) = ⟨j + 1, hj⟩ := Fin.ext (Nat.mod_eq_of_lt hj)
  rw [minAcc, e]
theorem maxAcc_zero (P : S6400x128.Idx → Elt F .f32) (a : Fin 5) :
    maxAcc P a 0 = k0_pay5 (rowsAt P a) (rowsAt P 0) := rfl
theorem maxAcc_succ (P : S6400x128.Idx → Elt F .f32) (a : Fin 5) (j : ℕ) (hj : j + 1 < 5) :
    maxAcc P a (j + 1) = k0_pay7 (rowsAt P a) (rowsAt P ⟨j + 1, hj⟩) (maxAcc P a j) := by
  have e : (⟨(j + 1) % 5, Nat.mod_lt _ (by decide)⟩ : Fin 5) = ⟨j + 1, hj⟩ := Fin.ext (Nat.mod_eq_of_lt hj)
  rw [maxAcc, e]

/-! ## The input blocks as row blocks -/

/-- The printed index maps and the body's row offset, decided over the 25 positions: position t is (t / 5, t mod 5). -/
theorem idx0 : ∀ t : Fin cfg0.N,
    win0_0.index t (0 : Fin 2) = t.val / 5 ∧ win0_0.index t (1 : Fin 2) = 0
    ∧ win0_1.index t (0 : Fin 2) = 0 ∧ win0_1.index t (1 : Fin 2) = 0
    ∧ win0_2.index t (0 : Fin 2) = t.val / 5 ∧ win0_2.index t (1 : Fin 2) = 0
    ∧ win0_3.index t (0 : Fin 2) = t.val / 5 ∧ win0_3.index t (1 : Fin 2) = 0
    ∧ k0_off1 (grid0.coords t) (0 : Fin 2) = 1280 * (t.val % 5) ∧ k0_off1 (grid0.coords t) (1 : Fin 2) = 0 :=
  (by decide +kernel : ∀ t : Fin grid0.N, _)

theorem N0 : cfg0.N = 25 := N_0

/-- The first window's block at position t: rows 1280·a … of the padded feature array, a = t / 5. -/
theorem iblk0_0_rows (c : Dev nD) (t : Fin cfg0.N) (a : Fin 5) (ha : t.val / 5 = a.val) :
    (iblk0 V c 0 t : Vec F S1280x128 .f32) = rowsAt (V c main_v7) a := by
  obtain ⟨e0, e1, -⟩ := idx0 t
  funext y
  unfold iblk0 rowsAt
  rw [View.read_apply]
  show V c main_v7 _ = V c main_v7 _
  congr 1
  funext d; apply Fin.ext
  match d with
  | ⟨0, _⟩ => show win0_0.index t (0 : Fin 2) * 1280 + 1 * (y 0).val = 1280 * a.val + (y 0).val; rw [e0, ha]; omega
  | ⟨1, _⟩ => show win0_0.index t (1 : Fin 2) * 128 + 1 * (y 1).val = (y 1).val; rw [e1]; omega

/-- The second window's block is the whole array, and the body cuts rows 1280·b … out of it, b = t mod 5. -/
theorem iblk0_1_rows (c : Dev nD) (t : Fin cfg0.N) (b : Fin 5) (hb : t.val % 5 = b.val) :
    View.ld (iblk0 V c 1 t : Vec F S6400x128 .f32) (r0_cols (grid0.coords t)) = rowsAt (V c main_v7) b := by
  obtain ⟨-, -, e2, e3, -, -, -, -, e8, e9⟩ := idx0 t
  funext y
  show (iblk0 V c 1 t : Vec F S6400x128 .f32) ((r0_cols (grid0.coords t)).emb y) = _
  unfold iblk0 rowsAt
  rw [View.read_apply]
  show V c main_v7 _ = V c main_v7 _
  congr 1
  funext d; apply Fin.ext
  match d with
  | ⟨0, _⟩ =>
    show win0_1.index t (0 : Fin 2) * 6400 + 1 * ((r0_cols (grid0.coords t)).emb y 0).val = 1280 * b.val + (y 0).val
    rw [e2, Rect.emb_apply, Rect.off_unit, Rect.stride_unit, e8, hb]; omega
  | ⟨1, _⟩ =>
    show win0_1.index t (1 : Fin 2) * 128 + 1 * ((r0_cols (grid0.coords t)).emb y 1).val = (y 1).val
    rw [e3, Rect.emb_apply, Rect.off_unit, Rect.stride_unit, e9]; omega

/-! ## The running extremes along a row of the grid -/

/-- After position 5a + j the two output blocks hold the running extremes of row block `a` through column block `j`:
    by induction along the row, the first position setting the blocks and each later one combining. -/
theorem outsAt0_eq (c : Dev nD) (a : Fin 5) : ∀ (j : ℕ) (hj : j < 5) (hn : 5 * a.val + j < cfg0.N),
    outsAt0 V c (5 * a.val + j) hn = (minAcc (V c main_v7) a j, maxAcc (V c main_v7) a j)
  | 0, hj, hn => by
    have h0 : (⟨5 * a.val + 0, hn⟩ : Fin cfg0.N).val % 5 = 0 := by show (5 * a.val + 0) % 5 = 0; omega
    refine (outsAt0_A_val V c ⟨5 * a.val + 0, hn⟩ h0).trans ?_
    rw [iblk0_0_rows V c ⟨5 * a.val + 0, hn⟩ a (by show (5 * a.val + 0) / 5 = a.val; omega),
      iblk0_1_rows V c ⟨5 * a.val + 0, hn⟩ 0 (by show (5 * a.val + 0) % 5 = 0; omega)]
    rfl
  | j + 1, hj, hn => by
    have h0 : ¬(⟨5 * a.val + (j + 1), hn⟩ : Fin cfg0.N).val % 5 = 0 := by show ¬(5 * a.val + (j + 1)) % 5 = 0; omega
    have ih := outsAt0_eq c a j (by omega) (by omega)
    refine (outsAt0_B_val V c ⟨5 * a.val + (j + 1), hn⟩ h0).trans ?_
    rw [iblk0_0_rows V c ⟨5 * a.val + (j + 1), hn⟩ a (by show (5 * a.val + (j + 1)) / 5 = a.val; omega),
      iblk0_1_rows V c ⟨5 * a.val + (j + 1), hn⟩ ⟨j + 1, hj⟩ (by show (5 * a.val + (j + 1)) % 5 = j + 1; omega)]
    have e : outsAt0 V c ((⟨5 * a.val + (j + 1), hn⟩ : Fin cfg0.N).val - 1) (Nat.lt_of_le_of_lt (Nat.sub_le _ _) (⟨5 * a.val + (j + 1), hn⟩ : Fin cfg0.N).isLt)
        = outsAt0 V c (5 * a.val + j) (by omega) := by
      congr 1
    rw [e, ih, minAcc_succ _ a j hj, maxAcc_succ _ a j hj]

/-! ## What the write-backs leave in the two arrays -/

/-- After the last position of row `a` of the grid the first output block holds the row block's least value through all five
    column blocks. -/
theorem after0_2_last (c : Dev nD) (a : Fin 5) (hn : 5 * a.val + 4 < cfg0.N) :
    (dat0 V c).after 2 ⟨5 * a.val + 4, hn⟩ = minAcc (V c main_v7) a 4 := by
  rw [after0_2]; exact congrArg Prod.fst (outsAt0_eq V c a 4 (by decide) hn)

/-- What the array of minima ends holding: rows 8a … 8a + 7 the row block `a`'s value after its last column block. -/
def Gmin (P : S6400x128.Idx → Elt F .f32) : S40x128.Idx → Elt F .f32 := fun z =>
  minAcc P ⟨(z 0).val / 8, by have h : (z 0).val < 40 := (z 0).isLt; omega⟩ 4
    (ValueIdx.ix2 (⟨(z 0).val % 8, Nat.mod_lt _ (by decide)⟩ : Fin 8) (⟨(z 1).val, (z 1).isLt⟩ : Fin 128))

theorem Gmin_at (P : S6400x128.Idx → Elt F .f32) (a : Fin 5) (y : S8x128.Idx) (z : S40x128.Idx)
    (h0 : (z 0).val = 8 * a.val + (y 0).val) (h1 : (z 1).val = (y 1).val) : Gmin P z = minAcc P a 4 y := by
  have hy : (y 0).val < 8 := (y 0).isLt
  have ea : (⟨(z 0).val / 8, by have h : (z 0).val < 40 := (z 0).isLt; omega⟩ : Fin 5) = a :=
    Fin.ext (by show (z 0).val / 8 = a.val; omega)
  have ey : ValueIdx.ix2 (⟨(z 0).val % 8, Nat.mod_lt _ (by decide)⟩ : Fin 8) (⟨(z 1).val, (z 1).isLt⟩ : Fin 128) = y := by
    funext d
    match d with
    | ⟨0, _⟩ => exact Fin.ext (show (z 0).val % 8 = (y 0).val by omega)
    | ⟨1, _⟩ => exact Fin.ext (show (z 1).val = (y 1).val from h1)
  show minAcc P ⟨(z 0).val / 8, _⟩ 4 (ValueIdx.ix2 _ _) = minAcc P a 4 y
  rw [ea, ey]

/-- What a position that writes the block back writes: its block of `Gmin`. Only the last position of each row of the
    grid writes back, and there the block holds the row block's final value. -/
theorem flushed0_2_eq (c : Dev nD) (t : Fin cfg0.N) (hf : (cfg0.win 2).flush t = true) :
    (dat0 V c).flushed 2 t = ((cfg0.win 2).blk t).view.read (Elt F) (Gmin (V c main_v7)) := by
  have h4 : t.val % 5 = 4 := (flush0_2 t).mp hf
  have hN : t.val < 25 := lt_of_lt_of_eq t.isLt N0
  obtain ⟨n, hn⟩ := t
  have h4' : n % 5 = 4 := h4
  have hN' : n < 25 := hN
  obtain ⟨a, rfl⟩ : ∃ a : Fin 5, n = 5 * a.val + 4 := ⟨⟨n / 5, by omega⟩, by show n = 5 * (n / 5) + 4; omega⟩
  show (cfg0.win 2).cut (grid0.coords ⟨5 * a.val + 4, hn⟩) ((dat0 V c).after 2 ⟨5 * a.val + 4, hn⟩) = _
  rw [after0_2_last V c a hn]
  obtain ⟨-, -, -, -, e4, e5, e6, e7, -⟩ := idx0 ⟨5 * a.val + 4, hn⟩
  funext y
  show minAcc (V c main_v7) a 4 y = Gmin (V c main_v7) (((cfg0.win 2).blk ⟨5 * a.val + 4, hn⟩).view.emb y)
  refine (Gmin_at (V c main_v7) a y _ ?_ ?_).symm
  · show win0_2.index ⟨5 * a.val + 4, hn⟩ (0 : Fin 2) * 8 + 1 * (y 0).val = 8 * a.val + (y 0).val
    rw [e4]; show (5 * a.val + 4) / 5 * 8 + 1 * (y 0).val = 8 * a.val + (y 0).val; omega
  · show win0_2.index ⟨5 * a.val + 4, hn⟩ (1 : Fin 2) * 128 + 1 * (y 1).val = (y 1).val
    rw [e5]; omega

/-- An index of the array is in position `t`'s block iff each coordinate is in the block's range on its axis. -/
theorem mem_blk0_2 (t : Fin cfg0.N) (i : S40x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v8_0).slice (win0_2.rect t)).set ↔ _
  rw [View.set_slice_whole, Rect.mem_set_unit]
  exact Iff.rfl

/-- Row r of the array is written back by the last position of row r / 8 of the grid: the five write-backs cover it. -/
theorem cover0_2 (i : S40x128.Idx) :
    ∃ t : Fin cfg0.N, (cfg0.win 2).flush t = true ∧ i ∈ ((cfg0.win 2).blk t).view.set := by
  have hi0 : (i 0).val < 40 := (i 0).isLt
  have hi1 : (i 1).val < 128 := (i 1).isLt
  obtain ⟨t, ht⟩ : ∃ t : Fin cfg0.N, t.val = 5 * ((i 0).val / 8) + 4 :=
    ⟨⟨5 * ((i 0).val / 8) + 4, by rw [N0]; omega⟩, rfl⟩
  obtain ⟨-, -, -, -, e4, e5, e6, e7, -⟩ := idx0 t
  refine ⟨t, (flush0_2 t).mpr (by omega), ?_⟩
  rw [mem_blk0_2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- THE ARRAY after the call: `Gmin` of the padded feature array as the call found it. -/
theorem final0_2 (c : Dev nD) : (dat0 V c).arrAt 2 cfg0.N = Gmin (V c main_v7) :=
  (dat0 V c).arrAt_eq_of_cover 2 (Gmin (V c main_v7)) (fun t hf => flushed0_2_eq V c t hf) cover0_2

/-- After the last position of row `a` of the grid the second output block holds the row block's greatest value through all five
    column blocks. -/
theorem after0_3_last (c : Dev nD) (a : Fin 5) (hn : 5 * a.val + 4 < cfg0.N) :
    (dat0 V c).after 3 ⟨5 * a.val + 4, hn⟩ = maxAcc (V c main_v7) a 4 := by
  rw [after0_3]; exact congrArg Prod.snd (outsAt0_eq V c a 4 (by decide) hn)

/-- What the array of maxima ends holding: rows 8a … 8a + 7 the row block `a`'s value after its last column block. -/
def Gmax (P : S6400x128.Idx → Elt F .f32) : S40x128.Idx → Elt F .f32 := fun z =>
  maxAcc P ⟨(z 0).val / 8, by have h : (z 0).val < 40 := (z 0).isLt; omega⟩ 4
    (ValueIdx.ix2 (⟨(z 0).val % 8, Nat.mod_lt _ (by decide)⟩ : Fin 8) (⟨(z 1).val, (z 1).isLt⟩ : Fin 128))

theorem Gmax_at (P : S6400x128.Idx → Elt F .f32) (a : Fin 5) (y : S8x128.Idx) (z : S40x128.Idx)
    (h0 : (z 0).val = 8 * a.val + (y 0).val) (h1 : (z 1).val = (y 1).val) : Gmax P z = maxAcc P a 4 y := by
  have hy : (y 0).val < 8 := (y 0).isLt
  have ea : (⟨(z 0).val / 8, by have h : (z 0).val < 40 := (z 0).isLt; omega⟩ : Fin 5) = a :=
    Fin.ext (by show (z 0).val / 8 = a.val; omega)
  have ey : ValueIdx.ix2 (⟨(z 0).val % 8, Nat.mod_lt _ (by decide)⟩ : Fin 8) (⟨(z 1).val, (z 1).isLt⟩ : Fin 128) = y := by
    funext d
    match d with
    | ⟨0, _⟩ => exact Fin.ext (show (z 0).val % 8 = (y 0).val by omega)
    | ⟨1, _⟩ => exact Fin.ext (show (z 1).val = (y 1).val from h1)
  show maxAcc P ⟨(z 0).val / 8, _⟩ 4 (ValueIdx.ix2 _ _) = maxAcc P a 4 y
  rw [ea, ey]

/-- What a position that writes the block back writes: its block of `Gmax`. Only the last position of each row of the
    grid writes back, and there the block holds the row block's final value. -/
theorem flushed0_3_eq (c : Dev nD) (t : Fin cfg0.N) (hf : (cfg0.win 3).flush t = true) :
    (dat0 V c).flushed 3 t = ((cfg0.win 3).blk t).view.read (Elt F) (Gmax (V c main_v7)) := by
  have h4 : t.val % 5 = 4 := (flush0_3 t).mp hf
  have hN : t.val < 25 := lt_of_lt_of_eq t.isLt N0
  obtain ⟨n, hn⟩ := t
  have h4' : n % 5 = 4 := h4
  have hN' : n < 25 := hN
  obtain ⟨a, rfl⟩ : ∃ a : Fin 5, n = 5 * a.val + 4 := ⟨⟨n / 5, by omega⟩, by show n = 5 * (n / 5) + 4; omega⟩
  show (cfg0.win 3).cut (grid0.coords ⟨5 * a.val + 4, hn⟩) ((dat0 V c).after 3 ⟨5 * a.val + 4, hn⟩) = _
  rw [after0_3_last V c a hn]
  obtain ⟨-, -, -, -, e4, e5, e6, e7, -⟩ := idx0 ⟨5 * a.val + 4, hn⟩
  funext y
  show maxAcc (V c main_v7) a 4 y = Gmax (V c main_v7) (((cfg0.win 3).blk ⟨5 * a.val + 4, hn⟩).view.emb y)
  refine (Gmax_at (V c main_v7) a y _ ?_ ?_).symm
  · show win0_3.index ⟨5 * a.val + 4, hn⟩ (0 : Fin 2) * 8 + 1 * (y 0).val = 8 * a.val + (y 0).val
    rw [e6]; show (5 * a.val + 4) / 5 * 8 + 1 * (y 0).val = 8 * a.val + (y 0).val; omega
  · show win0_3.index ⟨5 * a.val + 4, hn⟩ (1 : Fin 2) * 128 + 1 * (y 1).val = (y 1).val
    rw [e7]; omega

/-- An index of the array is in position `t`'s block iff each coordinate is in the block's range on its axis. -/
theorem mem_blk0_3 (t : Fin cfg0.N) (i : S40x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v8_1).slice (win0_3.rect t)).set ↔ _
  rw [View.set_slice_whole, Rect.mem_set_unit]
  exact Iff.rfl

/-- Row r of the array is written back by the last position of row r / 8 of the grid: the five write-backs cover it. -/
theorem cover0_3 (i : S40x128.Idx) :
    ∃ t : Fin cfg0.N, (cfg0.win 3).flush t = true ∧ i ∈ ((cfg0.win 3).blk t).view.set := by
  have hi0 : (i 0).val < 40 := (i 0).isLt
  have hi1 : (i 1).val < 128 := (i 1).isLt
  obtain ⟨t, ht⟩ : ∃ t : Fin cfg0.N, t.val = 5 * ((i 0).val / 8) + 4 :=
    ⟨⟨5 * ((i 0).val / 8) + 4, by rw [N0]; omega⟩, rfl⟩
  obtain ⟨-, -, -, -, e4, e5, e6, e7, -⟩ := idx0 t
  refine ⟨t, (flush0_3 t).mpr (by omega), ?_⟩
  rw [mem_blk0_3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 128 ≤ (i 1).val ∧ (i 1).val < win0_3.index t (1 : Fin 2) * 128 + 128; omega

/-- THE ARRAY after the call: `Gmax` of the padded feature array as the call found it. -/
theorem final0_3 (c : Dev nD) : (dat0 V c).arrAt 3 cfg0.N = Gmax (V c main_v7) :=
  (dat0 V c).arrAt_eq_of_cover 3 (Gmax (V c main_v7)) (fun t hf => flushed0_3_eq V c t hf) cover0_3

end Cert.KernelIdeal.Hand

end
-- ==== Proof.KI.Pay0b.lean ====
/-
  What the statistics kernel stores, read at an index on the extended reals.

  The body spreads the least and the greatest entry of its tile over an [8, 128] tile. On the first tile of a row of
  tiles it stores them; on a later one it stores, entry by entry, the lesser (greater) of what an earlier tile left and
  its own.
-/
import proofs.«118980_j8813272891856_2_alg».proof.Proof.Gen.KernelIdeal.Skeleton
import proofs.«118980_j8813272891856_2_alg».proof.Proof.KI.Layout

noncomputable section

open scoped BigOperators

namespace Cert.KernelIdeal.PayVal

open Idealize.ShloMosaic Idealize.ShloMosaic.ValueIdx Cert.KernelIdeal Cert.KernelIdeal.Gen

/-! ## What the body stores: the extremum spread over an [8, 128] tile, alone or combined with an earlier one -/

/-- On the first tile of a row of tiles the stored minimum is the tile's minimum, at every entry. -/
theorem pay4_apply (x0 x1 : Vec Ideal S1280x128 .f32) (r : Fin 8) (l : Fin 128) :
    k0_pay4 (F := Ideal) x0 x1 (ix2 r l) = k0_pay2 (F := Ideal) x0 x1 (ix2 (0 : Fin 1) (0 : Fin 1)) := by
  unfold k0_pay4
  simp only [shapeCast_self]
  rw [broadcastTo_11_ab_apply]

/-- On the first tile of a row of tiles the stored maximum is the tile's maximum, at every entry. -/
theorem pay5_apply (x0 x1 : Vec Ideal S1280x128 .f32) (r : Fin 8) (l : Fin 128) :
    k0_pay5 (F := Ideal) x0 x1 (ix2 r l) = k0_pay3 (F := Ideal) x0 x1 (ix2 (0 : Fin 1) (0 : Fin 1)) := by
  unfold k0_pay5
  simp only [shapeCast_self]
  rw [broadcastTo_11_ab_apply]

/-- On a later tile the stored minimum is the lesser of what is there and the tile's minimum, entry by entry. -/
theorem pay6_apply (x0 x1 : Vec Ideal S1280x128 .f32) (prev : Vec Ideal S8x128 .f32) (r : Fin 8) (l : Fin 128) :
    k0_pay6 (F := Ideal) x0 x1 prev (ix2 r l)
      = min (prev (ix2 r l)) (k0_pay2 (F := Ideal) x0 x1 (ix2 (0 : Fin 1) (0 : Fin 1))) := by
  unfold k0_pay6
  simp only [minimumf_apply, shapeCast_self]
  rw [broadcastTo_11_ab_apply]

/-- On a later tile the stored maximum is the greater of what is there and the tile's maximum, entry by entry. -/
theorem pay7_apply (x0 x1 : Vec Ideal S1280x128 .f32) (prev : Vec Ideal S8x128 .f32) (r : Fin 8) (l : Fin 128) :
    k0_pay7 (F := Ideal) x0 x1 prev (ix2 r l)
      = max (prev (ix2 r l)) (k0_pay3 (F := Ideal) x0 x1 (ix2 (0 : Fin 1) (0 : Fin 1))) := by
  unfold k0_pay7
  simp only [maximumf_apply, shapeCast_self]
  rw [broadcastTo_11_ab_apply]

end Cert.KernelIdeal.PayVal

end
-- ==== Proof.LibTiles.lean ====
/-
  Finite infima and suprema taken by tiles, and over a short initial range one entry at a time. No program is
  mentioned.

  If the rows are cut into blocks and the columns are cut into blocks (each a bijection between block number ×
  place inside the block and the whole range), the infimum over all pairs (row, column) is the infimum over
  all pairs of blocks of the infimum inside that tile: the four coordinates are only regrouped, and an infimum
  over a product is the iterated infimum. The same for suprema.
  The infimum over `Fin (n + 1)` is the infimum over the first `n` entries met with the last one, so the
  infimum of five entries is the running minimum `min (min (min (min t₀ t₁) t₂) t₃) t₄`.
-/
import Mathlib.Data.Finset.Lattice.Fold
import Mathlib.Data.Finset.Lattice.Prod
import Mathlib.Data.Fintype.Prod
import Mathlib.Data.Fintype.Basic
import Mathlib.Logic.Equiv.Prod
import proofs.«118980_j8813272891856_2_alg».proof.Proof.LibSupSub

namespace Cert.Tiles

/-! ## By tiles -/

section Tiles

variable {A B P Q R C γ : Type*} [Fintype A] [Fintype B] [Fintype P] [Fintype Q] [Fintype R] [Fintype C]

/-- Regrouping (row block, column block), (row place, column place) as (row, column). -/
def regroup (eR : A × P ≃ R) (eC : B × Q ≃ C) : (A × B) × (P × Q) ≃ R × C :=
  (Equiv.prodProdProdComm A B P Q).trans (Equiv.prodCongr eR eC)

theorem regroup_apply (eR : A × P ≃ R) (eC : B × Q ≃ C) (ij : A × B) (pq : P × Q) :
    regroup eR eC (ij, pq) = (eR (ij.1, pq.1), eC (ij.2, pq.2)) := rfl

/-- The infimum over all (row, column) is the infimum over the tiles of the infimum inside each tile. -/
theorem inf_tiles [SemilatticeInf γ] [OrderTop γ] (eR : A × P ≃ R) (eC : B × Q ≃ C) (d : R → C → γ) :
    (Finset.univ.inf fun p : R × C => d p.1 p.2)
      = Finset.univ.inf fun ij : A × B => Finset.univ.inf fun pq : P × Q => d (eR (ij.1, pq.1)) (eC (ij.2, pq.2)) := by
  rw [← Cert.SupSub.inf_univ_equiv (regroup eR eC) (fun p : R × C => d p.1 p.2), ← Finset.univ_product_univ,
    Finset.inf_product_left]
  rfl

/-- The supremum over all (row, column) is the supremum over the tiles of the supremum inside each tile. -/
theorem sup_tiles [SemilatticeSup γ] [OrderBot γ] (eR : A × P ≃ R) (eC : B × Q ≃ C) (d : R → C → γ) :
    (Finset.univ.sup fun p : R × C => d p.1 p.2)
      = Finset.univ.sup fun ij : A × B => Finset.univ.sup fun pq : P × Q => d (eR (ij.1, pq.1)) (eC (ij.2, pq.2)) := by
  rw [← Cert.SupSub.sup_univ_equiv (regroup eR eC) (fun p : R × C => d p.1 p.2), ← Finset.univ_product_univ,
    Finset.sup_product_left]
  rfl

end Tiles

/-! ## 6400 positions as 5 blocks of 1280 -/

/-- Place `p` of block `i`: position `1280 * i + p`. -/
def blk (i : Fin 5) (p : Fin 1280) : Fin 6400 := ⟨1280 * i.val + p.val, by omega⟩

theorem blk_val (i : Fin 5) (p : Fin 1280) : (blk i p).val = 1280 * i.val + p.val := rfl

/-- Every position is one place of one block. -/
def blkEquiv : Fin 5 × Fin 1280 ≃ Fin 6400 where
  toFun ip := blk ip.1 ip.2
  invFun n := (⟨n.val / 1280, by omega⟩, ⟨n.val % 1280, by omega⟩)
  left_inv ip := Prod.ext (Fin.ext (by show (1280 * ip.1.val + ip.2.val) / 1280 = ip.1.val; omega))
    (Fin.ext (by show (1280 * ip.1.val + ip.2.val) % 1280 = ip.2.val; omega))
  right_inv n := Fin.ext (by show 1280 * (n.val / 1280) + n.val % 1280 = n.val; omega)

theorem blkEquiv_apply (i : Fin 5) (p : Fin 1280) : blkEquiv (i, p) = blk i p := rfl

/-- The infimum over 6400 × 6400 pairs by 5 × 5 tiles of 1280 × 1280. -/
theorem inf_tiles_6400 {γ : Type*} [SemilatticeInf γ] [OrderTop γ] (d : Fin 6400 → Fin 6400 → γ) :
    (Finset.univ.inf fun p : Fin 6400 × Fin 6400 => d p.1 p.2)
      = Finset.univ.inf fun ij : Fin 5 × Fin 5 => Finset.univ.inf fun pq : Fin 1280 × Fin 1280 =>
          d (blk ij.1 pq.1) (blk ij.2 pq.2) :=
  inf_tiles blkEquiv blkEquiv d

/-- The supremum over 6400 × 6400 pairs by 5 × 5 tiles of 1280 × 1280. -/
theorem sup_tiles_6400 {γ : Type*} [SemilatticeSup γ] [OrderBot γ] (d : Fin 6400 → Fin 6400 → γ) :
    (Finset.univ.sup fun p : Fin 6400 × Fin 6400 => d p.1 p.2)
      = Finset.univ.sup fun ij : Fin 5 × Fin 5 => Finset.univ.sup fun pq : Fin 1280 × Fin 1280 =>
          d (blk ij.1 pq.1) (blk ij.2 pq.2) :=
  sup_tiles blkEquiv blkEquiv d

/-! ## One entry at a time -/

section Running

variable {γ : Type*}

/-- The infimum over `n + 1` entries is the infimum over the first `n` met with the last. -/
theorem inf_univ_castSucc [SemilatticeInf γ] [OrderTop γ] {n : ℕ} (t : Fin (n + 1) → γ) :
    Finset.univ.inf t = (Finset.univ.inf fun j : Fin n => t j.castSucc) ⊓ t (Fin.last n) := by
  rw [Fin.univ_castSuccEmb, Finset.inf_cons, Finset.inf_map, inf_comm]
  rfl

/-- The supremum over `n + 1` entries is the supremum over the first `n` joined with the last. -/
theorem sup_univ_castSucc [SemilatticeSup γ] [OrderBot γ] {n : ℕ} (t : Fin (n + 1) → γ) :
    Finset.univ.sup t = (Finset.univ.sup fun j : Fin n => t j.castSucc) ⊔ t (Fin.last n) := by
  rw [Fin.univ_castSuccEmb, Finset.sup_cons, Finset.sup_map, sup_comm]
  rfl

/-- The infimum of five entries, met from the left. -/
theorem inf_fin5 [SemilatticeInf γ] [OrderTop γ] (t : Fin 5 → γ) :
    Finset.univ.inf t = (((t 0 ⊓ t 1) ⊓ t 2) ⊓ t 3) ⊓ t 4 := by
  rw [inf_univ_castSucc, inf_univ_castSucc, inf_univ_castSucc, inf_univ_castSucc, inf_univ_castSucc,
    Finset.univ_eq_empty, Finset.inf_empty, top_inf_eq]
  rfl

/-- The supremum of five entries, joined from the left. -/
theorem sup_fin5 [SemilatticeSup γ] [OrderBot γ] (t : Fin 5 → γ) :
    Finset.univ.sup t = (((t 0 ⊔ t 1) ⊔ t 2) ⊔ t 3) ⊔ t 4 := by
  rw [sup_univ_castSucc, sup_univ_castSucc, sup_univ_castSucc, sup_univ_castSucc, sup_univ_castSucc,
    Finset.univ_eq_empty, Finset.sup_empty, bot_sup_eq]
  rfl

/-- In a linear order: the infimum of five entries is the running minimum. -/
theorem min_fin5 [LinearOrder γ] [OrderTop γ] (t : Fin 5 → γ) :
    Finset.univ.inf t = min (min (min (min (t 0) (t 1)) (t 2)) (t 3)) (t 4) :=
  inf_fin5 t

/-- In a linear order: the supremum of five entries is the running maximum. -/
theorem max_fin5 [LinearOrder γ] [OrderBot γ] (t : Fin 5 → γ) :
    Finset.univ.sup t = max (max (max (max (t 0) (t 1)) (t 2)) (t 3)) (t 4) :=
  sup_fin5 t

end Running

end Cert.Tiles
-- ==== Proof.KI.Acc.lean ====
/-
  The statistics kernel's running extremes on the extended reals, at an entry: after the five column blocks of a row
  of the grid every entry of the block of minima (maxima) of row block a is the least (greatest) of the five tiles'
  minima (maxima) — the recursion of the running values unfolded step by step and read entry by entry.
-/
import proofs.«118980_j8813272891856_2_alg».proof.Proof.KI.Val0
import proofs.«118980_j8813272891856_2_alg».proof.Proof.KI.Pay0b
import proofs.«118980_j8813272891856_2_alg».proof.Proof.LibTiles

noncomputable section

namespace Cert.KernelIdeal.Hand

open Idealize.ShloMosaic Idealize.ShloMosaic.TcCoe
open Cert.KernelIdeal Cert.KernelIdeal.Gen

/-! ## The running extremes after the last column block, at an entry -/

/-- One step of the running minimum: after column block j + 1 every entry is the lesser of what was there and the tile's. -/
theorem minAcc_step (P : S6400x128.Idx → EReal) (a : Fin 5) (r : Fin 8) (l : Fin 128) (j : ℕ) (hj : j + 1 < 5) :
    minAcc (F := Ideal) P a (j + 1) (ValueIdx.ix2 r l)
      = min (minAcc (F := Ideal) P a j (ValueIdx.ix2 r l))
          (k0_pay2 (F := Ideal) (rowsAt (F := Ideal) P a) (rowsAt (F := Ideal) P ⟨j + 1, hj⟩) (ValueIdx.ix2 (0 : Fin 1) (0 : Fin 1))) := by
  rw [minAcc_succ (F := Ideal) P a j hj, Cert.KernelIdeal.PayVal.pay6_apply]

/-- At column block 0 every entry is the first tile's. -/
theorem minAcc_first (P : S6400x128.Idx → EReal) (a : Fin 5) (r : Fin 8) (l : Fin 128) :
    minAcc (F := Ideal) P a 0 (ValueIdx.ix2 r l)
      = k0_pay2 (F := Ideal) (rowsAt (F := Ideal) P a) (rowsAt (F := Ideal) P 0) (ValueIdx.ix2 (0 : Fin 1) (0 : Fin 1)) := by
  rw [minAcc_zero (F := Ideal) P a, Cert.KernelIdeal.PayVal.pay4_apply]

/-- One step of the running maximum: after column block j + 1 every entry is the greater of what was there and the tile's. -/
theorem maxAcc_step (P : S6400x128.Idx → EReal) (a : Fin 5) (r : Fin 8) (l : Fin 128) (j : ℕ) (hj : j + 1 < 5) :
    maxAcc (F := Ideal) P a (j + 1) (ValueIdx.ix2 r l)
      = max (maxAcc (F := Ideal) P a j (ValueIdx.ix2 r l))
          (k0_pay3 (F := Ideal) (rowsAt (F := Ideal) P a) (rowsAt (F := Ideal) P ⟨j + 1, hj⟩) (ValueIdx.ix2 (0 : Fin 1) (0 : Fin 1))) := by
  rw [maxAcc_succ (F := Ideal) P a j hj, Cert.KernelIdeal.PayVal.pay7_apply]

/-- At column block 0 every entry is the first tile's. -/
theorem maxAcc_first (P : S6400x128.Idx → EReal) (a : Fin 5) (r : Fin 8) (l : Fin 128) :
    maxAcc (F := Ideal) P a 0 (ValueIdx.ix2 r l)
      = k0_pay3 (F := Ideal) (rowsAt (F := Ideal) P a) (rowsAt (F := Ideal) P 0) (ValueIdx.ix2 (0 : Fin 1) (0 : Fin 1)) := by
  rw [maxAcc_zero (F := Ideal) P a, Cert.KernelIdeal.PayVal.pay5_apply]

/-- Every entry of the block of minima of row block `a` is, after the fifth column block, the least of the five tiles'
    minima: the first position stores the first tile's, each later one takes the lesser of what is there and its own. -/
theorem minAcc_apply (P : S6400x128.Idx → EReal) (a : Fin 5) (r : Fin 8) (l : Fin 128) :
    minAcc (F := Ideal) P a 4 (ValueIdx.ix2 r l)
      = Finset.inf (α := EReal) Finset.univ fun j : Fin 5 =>
          k0_pay2 (F := Ideal) (rowsAt (F := Ideal) P a) (rowsAt (F := Ideal) P j) (ValueIdx.ix2 (0 : Fin 1) (0 : Fin 1)) := by
  refine Eq.trans ?_ (Cert.Tiles.min_fin5 (γ := EReal) fun j : Fin 5 =>
    k0_pay2 (F := Ideal) (rowsAt (F := Ideal) P a) (rowsAt (F := Ideal) P j) (ValueIdx.ix2 (0 : Fin 1) (0 : Fin 1))).symm
  refine (minAcc_step P a r l 3 (by decide)).trans ?_
  rw [minAcc_step P a r l 2 (by decide), minAcc_step P a r l 1 (by decide), minAcc_step P a r l 0 (by decide),
    minAcc_first P a r l]
  rfl

/-- Every entry of the block of maxima likewise is the greatest of the five tiles' maxima. -/
theorem maxAcc_apply (P : S6400x128.Idx → EReal) (a : Fin 5) (r : Fin 8) (l : Fin 128) :
    maxAcc (F := Ideal) P a 4 (ValueIdx.ix2 r l)
      = Finset.sup (α := EReal) Finset.univ fun j : Fin 5 =>
          k0_pay3 (F := Ideal) (rowsAt (F := Ideal) P a) (rowsAt (F := Ideal) P j) (ValueIdx.ix2 (0 : Fin 1) (0 : Fin 1)) := by
  refine Eq.trans ?_ (Cert.Tiles.max_fin5 (γ := EReal) fun j : Fin 5 =>
    k0_pay3 (F := Ideal) (rowsAt (F := Ideal) P a) (rowsAt (F := Ideal) P j) (ValueIdx.ix2 (0 : Fin 1) (0 : Fin 1))).symm
  refine (maxAcc_step P a r l 3 (by decide)).trans ?_
  rw [maxAcc_step P a r l 2 (by decide), maxAcc_step P a r l 1 (by decide), maxAcc_step P a r l 0 (by decide),
    maxAcc_first P a r l]
  rfl

end Cert.KernelIdeal.Hand

end
-- ==== Proof.KI.Pay0.lean ====
/-
  The statistics kernel's two statistics, read on the extended reals.

  The body takes the least and the greatest entry of its tile of scaled distances: the tile viewed as [1, 1280, 1280] is
  reduced over its last two axes, by `min` from +∞ and by `max` from −∞. Read at the one index that is left, these are the
  infimum and the supremum of the tile's entries over all pairs of rows.
-/
import proofs.«118980_j8813272891856_2_alg».proof.Proof.KI.Tile

noncomputable section

open scoped BigOperators

namespace Cert.KernelIdeal.PayVal

open Idealize.ShloMosaic Idealize.ShloMosaic.ValueIdx Cert.KernelIdeal Cert.KernelIdeal.Gen

/-! ## The tile's least and greatest entry -/

/-- Reading one entry out of an array at a literal position. -/
theorem extractAt_def {s : Shape} {α : Type} (pos : Fin s.rank → ℕ) (x : s.Idx → α) (h : ∀ a, pos a < s.size a) :
    extractAt pos x h = x fun a => ⟨pos a, h a⟩ := rfl

/-- The body's minimum, as the operations that form it from the tile: the tile viewed as [1, 1280, 1280], reduced by
    `min` over its last two axes from +∞, and the one entry that is left read out and spread over [1, 1]. -/
theorem k0_pay2_eq (x0 x1 : Vec Ideal S1280x128 .f32) :
    k0_pay2 (F := Ideal) x0 x1
      = broadcast S1x1 (extractAt (![0, 0, 0] : Fin S1x1x1.rank → ℕ) (shapeCast S1x1x1 (multiReduction .minimumf [1, 2] S1
            (shapeCast S1x1280x1280 (k0_pay1 (F := Ideal) x0 x1) shapeCasts_S1280x1280_S1x1280x1280)
            0x7F800000#32 reduces_S1x1280x1280_S1 (.inl rfl) rfl) shapeCasts_S1_S1x1x1) inpos_S1x1x1_p0_0_0) := rfl

/-- The body's maximum likewise, reduced by `max` from −∞. -/
theorem k0_pay3_eq (x0 x1 : Vec Ideal S1280x128 .f32) :
    k0_pay3 (F := Ideal) x0 x1
      = broadcast S1x1 (extractAt (![0, 0, 0] : Fin S1x1x1.rank → ℕ) (shapeCast S1x1x1 (multiReduction .maximumf [1, 2] S1
            (shapeCast S1x1280x1280 (k0_pay1 (F := Ideal) x0 x1) shapeCasts_S1280x1280_S1x1280x1280)
            0xFF800000#32 reduces_S1x1280x1280_S1 (.inl rfl) rfl) shapeCasts_S1_S1x1x1) inpos_S1x1x1_p0_0_0) := rfl

/-- The body's minimum is the infimum of the tile's entries over all pairs (p, q): the reduction's one result entry
    gathers every entry of the [1, 1280, 1280] view, and that view at (0, p, q) is the tile at (p, q). -/
theorem pay2_apply (x0 x1 : Vec Ideal S1280x128 .f32) :
    k0_pay2 (F := Ideal) x0 x1 (ix2 (0 : Fin 1) (0 : Fin 1))
      = Finset.univ.inf fun pq : Fin 1280 × Fin 1280 => tile x0 x1 pq.1 pq.2 := by
  rw [k0_pay2_eq, broadcast_apply, extractAt_def, shapeCast_1_111_apply, minAll_apply]
  refine congrArg Finset.univ.inf (funext fun pq => ?_)
  rw [shapeCast_ab_1ab_apply, pay1_apply]

/-- The body's maximum is the supremum of the tile's entries over all pairs (p, q). -/
theorem pay3_apply (x0 x1 : Vec Ideal S1280x128 .f32) :
    k0_pay3 (F := Ideal) x0 x1 (ix2 (0 : Fin 1) (0 : Fin 1))
      = Finset.univ.sup fun pq : Fin 1280 × Fin 1280 => tile x0 x1 pq.1 pq.2 := by
  rw [k0_pay3_eq, broadcast_apply, extractAt_def, shapeCast_1_111_apply, maxAll_apply]
  refine congrArg Finset.univ.sup (funext fun pq => ?_)
  rw [shapeCast_ab_1ab_apply, pay1_apply]

end Cert.KernelIdeal.PayVal

end
-- ==== Proof.LibStats.lean ====
/-
  The least and the greatest entry of a 6400 × 6400 table, gathered the way a computation by tiles gathers them.
  No program is mentioned.

  The table is cut into 5 × 5 tiles of 1280 × 1280. Along a row of tiles a running minimum is kept: it starts at
  the first tile's least entry and meets each further tile's, so after the fifth tile it is the least entry of the
  whole row of tiles. These five row statistics are then stored with repetition: in a 40 × 128 array whose entry
  (r, l) is the statistic of row block r / 8. An infimum does not see repetition (it is the same over any family
  that takes exactly the same values), so the infimum of the 40 × 128 array is the infimum of the five row
  statistics, which is the infimum over all 5 × 5 tiles of each tile's least entry: the least entry of the table.
  The same with maxima and suprema.
-/
import Mathlib.Data.EReal.Basic
import Mathlib.Data.Finset.Lattice.Fold
import Mathlib.Data.Finset.Lattice.Prod
import Mathlib.Data.Fintype.Prod
import proofs.«118980_j8813272891856_2_alg».proof.Proof.LibSupSub
import proofs.«118980_j8813272891856_2_alg».proof.Proof.LibTiles

namespace Cert.Stats

open Cert.Tiles

/-! ## Running minimum and maximum along a row of five tiles -/

/-- A running minimum that starts at the first of five values and meets each next one ends at their infimum. -/
theorem acc_min (t : Fin 5 → EReal) (acc : ℕ → EReal) (h0 : acc 0 = t 0)
    (hs : ∀ j (hj : j + 1 < 5), acc (j + 1) = min (acc j) (t ⟨j + 1, hj⟩)) : acc 4 = Finset.univ.inf t := by
  have h1 : acc 1 = min (acc 0) (t 1) := hs 0 (by omega)
  have h2 : acc 2 = min (acc 1) (t 2) := hs 1 (by omega)
  have h3 : acc 3 = min (acc 2) (t 3) := hs 2 (by omega)
  have h4 : acc 4 = min (acc 3) (t 4) := hs 3 (by omega)
  rw [h4, h3, h2, h1, h0]
  exact (min_fin5 t).symm

/-- A running maximum that starts at the first of five values and joins each next one ends at their supremum. -/
theorem acc_max (t : Fin 5 → EReal) (acc : ℕ → EReal) (h0 : acc 0 = t 0)
    (hs : ∀ j (hj : j + 1 < 5), acc (j + 1) = max (acc j) (t ⟨j + 1, hj⟩)) : acc 4 = Finset.univ.sup t := by
  have h1 : acc 1 = max (acc 0) (t 1) := hs 0 (by omega)
  have h2 : acc 2 = max (acc 1) (t 2) := hs 1 (by omega)
  have h3 : acc 3 = max (acc 2) (t 3) := hs 2 (by omega)
  have h4 : acc 4 = max (acc 3) (t 4) := hs 3 (by omega)
  rw [h4, h3, h2, h1, h0]
  exact (max_fin5 t).symm

/-! ## Repetition does not change an infimum or a supremum -/

section Surjective

variable {α β γ : Type*} [Fintype α] [Fintype β]

/-- The infimum of `f` along a map onto its index type is the infimum of `f`. -/
theorem inf_comp_surjective [SemilatticeInf γ] [OrderTop γ] (g : α → β) (hg : Function.Surjective g) (f : β → γ) :
    (Finset.univ.inf fun a => f (g a)) = Finset.univ.inf f :=
  le_antisymm
    (Finset.le_inf fun b _ => by
      obtain ⟨a, rfl⟩ := hg b
      exact Finset.inf_le (f := fun a => f (g a)) (Finset.mem_univ a))
    (Finset.le_inf fun a _ => Finset.inf_le (Finset.mem_univ (g a)))

/-- The supremum of `f` along a map onto its index type is the supremum of `f`. -/
theorem sup_comp_surjective [SemilatticeSup γ] [OrderBot γ] (g : α → β) (hg : Function.Surjective g) (f : β → γ) :
    (Finset.univ.sup fun a => f (g a)) = Finset.univ.sup f :=
  le_antisymm
    (Finset.sup_le fun a _ => Finset.le_sup (Finset.mem_univ (g a)))
    (Finset.sup_le fun b _ => by
      obtain ⟨a, rfl⟩ := hg b
      exact Finset.le_sup (f := fun a => f (g a)) (Finset.mem_univ a))

end Surjective

/-- The block of eight that row `r` of forty lies in. -/
abbrev rowBlk8 (r : Fin 40) : Fin 5 := ⟨r.val / 8, by have := r.isLt; omega⟩

theorem rowBlk8_surjective : Function.Surjective fun rl : Fin 40 × Fin 128 => rowBlk8 rl.1 := fun i =>
  ⟨(⟨8 * i.val, by have := i.isLt; omega⟩, ⟨0, by omega⟩), Fin.ext (by show 8 * i.val / 8 = i.val; omega)⟩

/-- A 40 × 128 array whose entry depends only on the row's block of eight has the infimum of the five values. -/
theorem inf_rows8 (f : Fin 5 → EReal) :
    (Finset.univ.inf fun rl : Fin 40 × Fin 128 => f ⟨rl.1.val / 8, by have := rl.1.isLt; omega⟩) = Finset.univ.inf f :=
  inf_comp_surjective (fun rl : Fin 40 × Fin 128 => rowBlk8 rl.1) rowBlk8_surjective f

/-- A 40 × 128 array whose entry depends only on the row's block of eight has the supremum of the five values. -/
theorem sup_rows8 (f : Fin 5 → EReal) :
    (Finset.univ.sup fun rl : Fin 40 × Fin 128 => f ⟨rl.1.val / 8, by have := rl.1.isLt; omega⟩) = Finset.univ.sup f :=
  sup_comp_surjective (fun rl : Fin 40 × Fin 128 => rowBlk8 rl.1) rowBlk8_surjective f

/-! ## The statistics array gives the table's least and greatest entry -/

/-- If entry (r, l) of a 40 × 128 array is the least entry of the row of tiles r / 8 — the infimum over the five
    tiles of that row of each tile's infimum — then the array's infimum is the infimum of the whole table. -/
theorem stats_min (d : Fin 6400 → Fin 6400 → EReal) (M : Fin 40 × Fin 128 → EReal)
    (hM : ∀ rl, M rl = Finset.univ.inf fun j : Fin 5 => Finset.univ.inf fun pq : Fin 1280 × Fin 1280 =>
      d (blk ⟨rl.1.val / 8, by have := rl.1.isLt; omega⟩ pq.1) (blk j pq.2)) :
    Finset.univ.inf M = Finset.univ.inf fun p : Fin 6400 × Fin 6400 => d p.1 p.2 := by
  have hR : (Finset.univ.inf fun p : Fin 6400 × Fin 6400 => d p.1 p.2)
      = Finset.univ.inf fun i : Fin 5 => Finset.univ.inf fun j : Fin 5 => Finset.univ.inf fun pq : Fin 1280 × Fin 1280 =>
          d (blk i pq.1) (blk j pq.2) := by
    rw [inf_tiles_6400 d, ← Finset.univ_product_univ (α := Fin 5) (β := Fin 5), Finset.inf_product_left]
  rw [hR, funext hM]
  exact inf_rows8 fun i : Fin 5 => Finset.univ.inf fun j : Fin 5 => Finset.univ.inf fun pq : Fin 1280 × Fin 1280 =>
    d (blk i pq.1) (blk j pq.2)

/-- If entry (r, l) of a 40 × 128 array is the greatest entry of the row of tiles r / 8, then the array's supremum
    is the supremum of the whole table. -/
theorem stats_max (d : Fin 6400 → Fin 6400 → EReal) (M : Fin 40 × Fin 128 → EReal)
    (hM : ∀ rl, M rl = Finset.univ.sup fun j : Fin 5 => Finset.univ.sup fun pq : Fin 1280 × Fin 1280 =>
      d (blk ⟨rl.1.val / 8, by have := rl.1.isLt; omega⟩ pq.1) (blk j pq.2)) :
    Finset.univ.sup M = Finset.univ.sup fun p : Fin 6400 × Fin 6400 => d p.1 p.2 := by
  have hR : (Finset.univ.sup fun p : Fin 6400 × Fin 6400 => d p.1 p.2)
      = Finset.univ.sup fun i : Fin 5 => Finset.univ.sup fun j : Fin 5 => Finset.univ.sup fun pq : Fin 1280 × Fin 1280 =>
          d (blk i pq.1) (blk j pq.2) := by
    rw [sup_tiles_6400 d, ← Finset.univ_product_univ (α := Fin 5) (β := Fin 5), Finset.sup_product_left]
  rw [hR, funext hM]
  exact sup_rows8 fun i : Fin 5 => Finset.univ.sup fun j : Fin 5 => Finset.univ.sup fun pq : Fin 1280 × Fin 1280 =>
    d (blk i pq.1) (blk j pq.2)

end Cert.Stats
-- ==== Proof.KI.Value.lean ====
/-
  What the kernel's result holds, read off the run: it is the specification's array of the image's features.

  The last host operation only adds a leading axis to the distance matrix the normalising call leaves; that matrix is, tile
  by tile, (d − lo) / (hi − lo) with d the scaled squared distance between two rows of the zero-padded feature matrix —
  the padding adds nothing to a sum of products, and the named scale 1/9 is the quotient by 9, so d is the specification's
  distance — and lo, hi the two one-element arrays the host made of the statistics call's output: the least and the
  greatest over 40 × 128 entries, each the running least (greatest) of a row block's five tiles' own extremes, that is
  the least and the greatest distance over all pairs.
-/
import proofs.«118980_j8813272891856_2_alg».proof.Proof.KI.Run
import proofs.«118980_j8813272891856_2_alg».proof.Proof.KI.Val1
import proofs.«118980_j8813272891856_2_alg».proof.Proof.KI.Pay1
import proofs.«118980_j8813272891856_2_alg».proof.Proof.KI.PadSum
import proofs.«118980_j8813272891856_2_alg».proof.Proof.KI.HostVal
import proofs.«118980_j8813272891856_2_alg».proof.Proof.KI.Val0
import proofs.«118980_j8813272891856_2_alg».proof.Proof.KI.Acc
import proofs.«118980_j8813272891856_2_alg».proof.Proof.KI.Pay0
import proofs.«118980_j8813272891856_2_alg».proof.Proof.LibStats
import proofs.«118980_j8813272891856_2_alg».proof.Proof.LibTiles
import proofs.«118980_j8813272891856_2_alg».proof.Proof.Spec

noncomputable section

namespace Cert.KernelIdeal.Hand

open Idealize.ShloMosaic Idealize.ShloMosaic.TcCoe Idealize.ShloMosaic.ValueIdx Idealize.SL.Sem
open Cert.KernelIdeal Cert.KernelIdeal.Gen Cert.KernelIdeal.PayVal Cert.KernelIdeal.HostVal Cert.Tiles

variable (m : (ℓ : Loc nD τ sig) → Buf (Elt Ideal) ℓ)

/-- The image on core c and its patches' features. -/
abbrev img (c : Dev nD) : FVec Ideal S3x1280x1280 .f32 := m ((c : Thread nD τ).loc main_arg0)
abbrev gOf (c : Dev nD) : Fin 6400 → Fin 9 → EReal := Cert.Spec.feat (v6K (img m c))

/-- The zero-padded feature matrix, as both calls find it. -/
abbrev Pm (c : Dev nD) : S6400x128.Idx → EReal := (Gen.V2 (F := Ideal) m c main_v7 : FVec Ideal S6400x128 .f32)

theorem Pm_apply (c : Dev nD) (n : Fin 6400) (k : Fin 128) :
    Pm m c (ix2 n k) = if h : k.val < 9 then gOf m c n ⟨k.val, h⟩ else 0 := V2_v7_apply m c n k

/-- Row p of the a-th block of 1280 rows is row 1280·a + p. -/
theorem rowIdx_ix2 (a : Fin 5) (p : Fin 1280) (k : Fin 128) : rowIdx a (ix2 p k) = ix2 (blk a p) k := by
  funext d; apply Fin.ext
  match d with
  | ⟨0, _⟩ => rfl
  | ⟨1, _⟩ => rfl

/-- On two row blocks of the padded matrix the tile's quantity is the specification's distance. -/
theorem tile_rows (c : Dev nD) (a b : Fin 5) (p q : Fin 1280) :
    tile (rowsAt (F := Ideal) (Pm m c) a) (rowsAt (F := Ideal) (Pm m c) b) p q = Cert.Spec.dist (gOf m c) (blk a p) (blk b q) :=
  tile_of_padded (gOf m c) _ _ (blk a p) (blk b q) p q
    (fun k => by show Pm m c (rowIdx a (ix2 p k)) = _; rw [rowIdx_ix2]; exact Pm_apply m c _ k)
    (fun k => by show Pm m c (rowIdx b (ix2 q k)) = _; rw [rowIdx_ix2]; exact Pm_apply m c _ k)

/-- The normalising call finds the padded matrix as the statistics call found it: neither the statistics call nor the
    host's re-reduction writes it. -/
theorem E1_v7 (c : Dev nD) : E1 m c main_v7 = Gen.V2 (F := Ideal) m c main_v7 :=
  (W4_of m c main_v7 (by decide)).trans (W3_of m c main_v7 (by decide))

/-- The two extremes the normalising call is handed. -/
abbrev lo (c : Dev nD) : EReal := (E1 m c main_v11 : FVec Ideal S1x1 .f32) (ix2 (0 : Fin 1) (0 : Fin 1))
abbrev hi (c : Dev nD) : EReal := (E1 m c main_v12 : FVec Ideal S1x1 .f32) (ix2 (0 : Fin 1) (0 : Fin 1))

theorem blk_blkOf_posOf (n : Fin 6400) : blk (blkOf n) (posOf n) = n :=
  Fin.ext (by show 1280 * (n.val / 1280) + n.val % 1280 = n.val; omega)

/-- THE RESULT at (0, n, k): the distance between patches n and k, less `lo`, over `hi − lo`. -/
theorem result_apply (c : Dev nD) (a : Fin 1) (n k : Fin 6400) :
    (W6 m c main_v14 : FVec Ideal S1x6400x6400 .f32) (ix3 a n k)
      = Ideal.div (Cert.Spec.dist (gOf m c) n k - lo m c) (hi m c - lo m c) := by
  refine (after2_v14 (W5 m c) a n k).trans ?_
  rw [W5_v13 m c, final4 (E1 m) c,
    G4_at _ _ _ (blkOf n) (blkOf k) (posOf n) (posOf k) (ix2 n k)
      (by show n.val = 1280 * (n.val / 1280) + n.val % 1280; omega)
      (by show k.val = 1280 * (k.val / 1280) + k.val % 1280; omega),
    k1_apply, E1_v7, tile_rows, blk_blkOf_posOf, blk_blkOf_posOf]

/-! ## The two extremes are the specification's -/

/-- Row 8·a + r' of the statistics arrays belongs to row block a. -/
theorem stat_entry_min (c : Dev nD) (rl : Fin 40 × Fin 128) :
    (W3 m c main_v8_0 : FVec Ideal S40x128 .f32) (ix2 rl.1 rl.2)
      = Finset.inf (α := EReal) Finset.univ fun j : Fin 5 => Finset.inf (α := EReal) Finset.univ fun pq : Fin 1280 × Fin 1280 =>
          Cert.Spec.dist (gOf m c) (blk ⟨rl.1.val / 8, by have := rl.1.isLt; omega⟩ pq.1) (blk j pq.2) := by
  rw [W3_v8_0 m c, final0_2 (F := Ideal) (E0 m) c,
    Gmin_at (F := Ideal) _ ⟨rl.1.val / 8, by have := rl.1.isLt; omega⟩ (ix2 (⟨rl.1.val % 8, Nat.mod_lt _ (by decide)⟩ : Fin 8) rl.2) (ix2 rl.1 rl.2)
      (by show rl.1.val = 8 * (rl.1.val / 8) + rl.1.val % 8; omega) rfl,
    minAcc_apply]
  refine congrArg (Finset.inf (α := EReal) Finset.univ) (funext fun j => ?_)
  refine (pay2_apply _ _).trans ?_
  exact congrArg (Finset.inf (α := EReal) Finset.univ) (funext fun pq => tile_rows m c _ j pq.1 pq.2)

theorem stat_entry_max (c : Dev nD) (rl : Fin 40 × Fin 128) :
    (W3 m c main_v8_1 : FVec Ideal S40x128 .f32) (ix2 rl.1 rl.2)
      = Finset.sup (α := EReal) Finset.univ fun j : Fin 5 => Finset.sup (α := EReal) Finset.univ fun pq : Fin 1280 × Fin 1280 =>
          Cert.Spec.dist (gOf m c) (blk ⟨rl.1.val / 8, by have := rl.1.isLt; omega⟩ pq.1) (blk j pq.2) := by
  rw [W3_v8_1 m c, final0_3 (F := Ideal) (E0 m) c,
    Gmax_at (F := Ideal) _ ⟨rl.1.val / 8, by have := rl.1.isLt; omega⟩ (ix2 (⟨rl.1.val % 8, Nat.mod_lt _ (by decide)⟩ : Fin 8) rl.2) (ix2 rl.1 rl.2)
      (by show rl.1.val = 8 * (rl.1.val / 8) + rl.1.val % 8; omega) rfl,
    maxAcc_apply]
  refine congrArg (Finset.sup (α := EReal) Finset.univ) (funext fun j => ?_)
  refine (pay3_apply _ _).trans ?_
  exact congrArg (Finset.sup (α := EReal) Finset.univ) (funext fun pq => tile_rows m c _ j pq.1 pq.2)

/-- The least of the statistics array is the least distance over all pairs of patches. -/
theorem lo_eq (c : Dev nD) : lo m c = Cert.Spec.mn (gOf m c) :=
  (after1_v11 (W3 m c)).trans <|
    (Cert.Stats.stats_min (fun n k => Cert.Spec.dist (gOf m c) n k)
      (fun rl => (W3 m c main_v8_0 : FVec Ideal S40x128 .f32) (ix2 rl.1 rl.2)) (stat_entry_min m c)).trans rfl

/-- The greatest is the greatest distance. -/
theorem hi_eq (c : Dev nD) : hi m c = Cert.Spec.mx (gOf m c) :=
  (after1_v12 (W3 m c)).trans <|
    (Cert.Stats.stats_max (fun n k => Cert.Spec.dist (gOf m c) n k)
      (fun rl => (W3 m c main_v8_1 : FVec Ideal S40x128 .f32) (ix2 rl.1 rl.2)) (stat_entry_max m c)).trans rfl

/-! ## The result is the specification -/

/-- An index of the result is (0, n, k). -/
theorem eq_ix3 (i : S1x6400x6400.Idx) : i = ix3 (0 : Fin 1) (i 1) (i 2) := by
  funext d; apply Fin.ext
  match d with
  | ⟨0, _⟩ => show (i 0).val = 0; have h : (i 0).val < 1 := (i 0).isLt; omega
  | ⟨1, _⟩ => rfl
  | ⟨2, _⟩ => rfl

/-- THE KERNEL'S RESULT: the specification's array of the image's features (the features spelt as the reference spells them). -/
theorem value_final (c : Dev nD) :
    W6 m c main_v14 = (Cert.Spec.final (Cert.RefSide.v6 (m ((c.tc : Thread nD τ).loc main_arg0)))
      : Buf (Elt Ideal) ((c.tc : Thread nD τ).loc main_v14)) := by
  funext i
  rw [eq_ix3 i]
  refine (result_apply m c 0 (i 1) (i 2)).trans ?_
  rw [lo_eq, hi_eq]
  rfl

end Cert.KernelIdeal.Hand

end
-- ==== Proof.lean ====
/- Both programs compute, from a 3 × 1280 × 1280 image cut into 6400 patches of 16 × 16, the 3 × 3 channel Gram matrix of
   every patch (nine features), the scaled squared distances between all pairs of patches' features, and those distances
   shifted by their least value and divided by their range (Proof/Spec.lean states this once).

   The reference does it in 34 host operations; its run and each operation read at an index are generated, and
   Proof/RefSide.lean shows the result is the specification — the one law needed being that subtracting a constant
   commutes with the greatest value of a finite family of extended reals (Proof/LibSupSub.lean).

   The kernel pads the features with zeros to 128 columns and makes two calls over a 5 × 5 grid of 1280 × 1280 tiles of
   the distance matrix: the first keeps only each row block's least and greatest distance, accumulated along the grid's
   second axis; the host reduces those to the two extremes; the second recomputes every tile and writes it normalised.
   The scale 1/9 is a named constant of the idealized kernel, equal to the reference's quotient by 9.
   Both calls read the padded features through two windows on one buffer, so their frames are written here against the
   library's launch theorem for a program of several regions: Proof/KI/Arrays.lean (the shared buffer dealt to its two
   windows), Proof/KI/Body0*.lean and Body1.lean (the two bodies and their proof data), Proof/KI/Run.lean (the run), and
   for the program as printed at the word level the same modules under Proof/K/. What the kernel's result holds is read off
   that run: Proof/KI/Val0.lean and Val1.lean (the calls' output arrays as functions of their inputs), Proof/KI/Pay*.lean
   (the tiles' arithmetic at an index), Proof/KI/HostVal.lean (the host operations), Proof/KI/Value.lean (the result is the
   specification). -/
import proofs.«118980_j8813272891856_2_alg».proof.Defs
import proofs.«118980_j8813272891856_2_alg».proof.Proof.Gen.Kernel
import proofs.«118980_j8813272891856_2_alg».proof.Proof.Gen.KernelIdeal
import proofs.«118980_j8813272891856_2_alg».proof.Proof.Gen.ReferenceIdeal
import proofs.«118980_j8813272891856_2_alg».proof.Proof.Gen.Pre_finite_inputs
import proofs.«118980_j8813272891856_2_alg».proof.Proof.K.Run
import proofs.«118980_j8813272891856_2_alg».proof.Proof.KI.Run
import proofs.«118980_j8813272891856_2_alg».proof.Proof.KI.Value
import proofs.«118980_j8813272891856_2_alg».proof.Proof.RefSide
import Idealize.ShloMosaic.Adequacy
import Idealize.ShloMosaic.Init

noncomputable section

namespace Cert.Proof

open Idealize.ShloMosaic Idealize.ShloMosaic.TcCoe Idealize.SL.Sem

/-- The program as printed runs to the end, faults nowhere and leaves the image unchanged. -/
theorem frame_k : Cert.frame_Kernel := fun m ρ _ => Cert.Kernel.Hand.frame (F := Bits) m ρ
/-- So does its idealization. -/
theorem frame_ki : Cert.frame_KernelIdeal := fun m ρ _ => Cert.KernelIdeal.Hand.frame (F := Ideal) m ρ
/-- So does the reference: its run with the result dropped. -/
theorem frame_ri : Cert.frame_ReferenceIdeal := fun m ρ _ =>
  (θ_run Cert.ReferenceIdeal.defs _ _).mono (fun _ h c => (h c).2) (Cert.RefSide.run_final m ρ)

/-- The idealization's two rewrites, one per call: the literal nearest to 1/9 is named, and denotes 1/9. -/
theorem preserves : Cert.preserves_Kernel_KernelIdeal :=
  ⟨IdealRules.named_const.statement Cert.KernelIdeal.κ "inv_9" .f32 0x3DE38E39#32 ((1 / 9 : ℝ) : EReal) rfl,
   IdealRules.named_const.statement Cert.KernelIdeal.κ "inv_9" .f32 0x3DE38E39#32 ((1 / 9 : ℝ) : EReal) rfl⟩

/-- From images that agree, both idealized programs end with the specification's array of the image's features. -/
theorem algebraic : Cert.algebraic_KernelIdeal_ReferenceIdeal := by
  intro m ρ m' ρ' _ hagree
  refine ⟨fun c => (Cert.Spec.final (Cert.RefSide.v6 (m ((c.tc : Thread Cert.KernelIdeal.nD Cert.KernelIdeal.τ).loc Cert.KernelIdeal.main_arg0)))
      : Buf (Elt Ideal) ((c.tc : Thread Cert.KernelIdeal.nD Cert.KernelIdeal.τ).loc Cert.KernelIdeal.main_v14)), ?_, ?_⟩
  · exact (θ_run Cert.KernelIdeal.defs _ _).mono (fun _ h c =>
      ⟨(h c _ (Cert.KernelIdeal.Hand.mem_uc Cert.KernelIdeal.main_v14 (by decide))).trans (Cert.KernelIdeal.Hand.value_final m c),
       (h c _ (Cert.KernelIdeal.Hand.mem_uc Cert.KernelIdeal.main_arg0 (by decide))).trans (Cert.KernelIdeal.Hand.W6_main_arg0 m c)⟩)
      (Cert.KernelIdeal.Hand.run_all (F := Ideal) m ρ)
  · exact (θ_run Cert.ReferenceIdeal.defs _ _).mono (fun _ h c => ⟨(h c).1.trans (by rw [hagree c]), (h c).2⟩)
      (Cert.RefSide.run_final m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
